-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S253952x6 : Shape := ⟨2, ![253952, 6]⟩
abbrev S2x4000000 : Shape := ⟨2, ![2, 4000000]⟩
abbrev S4000000 : Shape := ⟨1, ![4000000]⟩
abbrev S253952 : Shape := ⟨1, ![253952]⟩
abbrev S6x16 : Shape := ⟨2, ![6, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x50 : Shape := ⟨2, ![64, 50]⟩
abbrev S50 : Shape := ⟨1, ![50]⟩
abbrev S50x30 : Shape := ⟨2, ![50, 30]⟩
abbrev S30 : Shape := ⟨1, ![30]⟩
abbrev S30x20 : Shape := ⟨2, ![30, 20]⟩
abbrev S20 : Shape := ⟨1, ![20]⟩
abbrev S20x2 : Shape := ⟨2, ![20, 2]⟩
abbrev S2 : Shape := ⟨1, ![2]⟩
abbrev S_ : Shape := ⟨0, ![]⟩
abbrev S1x4000000 : Shape := ⟨2, ![1, 4000000]⟩

class Facts : Prop where
  bcast_S_S253952x6 : S_.BroadcastsInDim S253952x6 (![] : Fin 0 → Fin S253952x6.rank)
  reducesTo_S253952x6_S_d0_1 : S253952x6.ReducesTo [0, 1] S_
  h_S_ : 0 < S_.numel
  bcast_S_S4000000 : S_.BroadcastsInDim S4000000 (![] : Fin 0 → Fin S4000000.rank)
  reducesTo_S4000000_S_d0 : S4000000.ReducesTo [0] S_
  bcast_S_S6x16 : S_.BroadcastsInDim S6x16 (![] : Fin 0 → Fin S6x16.rank)
  reducesTo_S6x16_S_d0_1 : S6x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x50 : S_.BroadcastsInDim S64x50 (![] : Fin 0 → Fin S64x50.rank)
  reducesTo_S64x50_S_d0_1 : S64x50.ReducesTo [0, 1] S_
  bcast_S_S50 : S_.BroadcastsInDim S50 (![] : Fin 0 → Fin S50.rank)
  reducesTo_S50_S_d0 : S50.ReducesTo [0] S_
  bcast_S_S50x30 : S_.BroadcastsInDim S50x30 (![] : Fin 0 → Fin S50x30.rank)
  reducesTo_S50x30_S_d0_1 : S50x30.ReducesTo [0, 1] S_
  bcast_S_S30 : S_.BroadcastsInDim S30 (![] : Fin 0 → Fin S30.rank)
  reducesTo_S30_S_d0 : S30.ReducesTo [0] S_
  bcast_S_S30x20 : S_.BroadcastsInDim S30x20 (![] : Fin 0 → Fin S30x20.rank)
  reducesTo_S30x20_S_d0_1 : S30x20.ReducesTo [0, 1] S_
  bcast_S_S20 : S_.BroadcastsInDim S20 (![] : Fin 0 → Fin S20.rank)
  reducesTo_S20_S_d0 : S20.ReducesTo [0] S_
  bcast_S_S20x2 : S_.BroadcastsInDim S20x2 (![] : Fin 0 → Fin S20x2.rank)
  reducesTo_S20x2_S_d0_1 : S20x2.ReducesTo [0, 1] S_
  bcast_S_S2 : S_.BroadcastsInDim S2 (![] : Fin 0 → Fin S2.rank)
  reducesTo_S2_S_d0 : S2.ReducesTo [0] S_
  slices_S2x4000000_S1x4000000_0_0 : S2x4000000.Slices ![0, 0] S1x4000000
  shapeCasts_S1x4000000_S4000000 : S1x4000000.ShapeCasts S4000000

variable [Facts]

def fn_part5 {F : FTy → Type} [FloatOps F] (main_v78 : IVec S_ 1) (main_v82 : IVec S4000000 1) (main_v84 : IVec S4000000 32) (main_v85 : IVec S4000000 32) : IVec S_ 1 :=
  let main_v86 : IVec S4000000 1 := cmpi .slt main_v84 main_v85
  let main_v87 : IVec S4000000 1 := andi main_v82 main_v86
  let main_c_32 : IVec S_ 1 := constantI S_ 1 1#1
  let main_v88 : IVec S_ 1 := (fun x v => Host.reduce IntOp.andi x v reducesTo_S4000000_S_d0 h_S_) main_v87 main_c_32
  let main_v89 : IVec S_ 1 := andi main_v78 main_v88
  main_v89

def fn_part4 {F : FTy → Type} [FloatOps F] (main_arg1 : IVec S2x4000000 32) (main_arg16 : FVec F S20x2 .f32) (main_arg17 : FVec F S2 .f32) (main_v63 : IVec S_ 1) (main_v67 : IVec S_ 1) : IVec S_ 1 :=
  let main_v68 : IVec S_ 1 := andi main_v63 main_v67
  let main_v69 : FVec F S20x2 .f32 := Host.absf main_arg16
  let main_cst_26 : FVec F S_ .f32 := constant S_ .f32 0x7F800000#32
  let main_v70 : FVec F S20x2 .f32 := broadcastInDim S20x2 ![] bcast_S_S20x2 main_cst_26
  let main_v71 : IVec S20x2 1 := cmpf .olt main_v69 main_v70
  let main_c_27 : IVec S_ 1 := constantI S_ 1 1#1
  let main_v72 : IVec S_ 1 := (fun x v => Host.reduce IntOp.andi x v reducesTo_S20x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  let main_v79 : IVec S1x4000000 32 := (extractStridedSlice S1x4000000 ![0, 0] · slices_S2x4000000_S1x4000000_0_0) main_arg1
  let main_v80 : IVec S4000000 32 := shapeCast S4000000 main_v79 shapeCasts_S1x4000000_S4000000
  let main_c_30 : IVec S_ 32 := constantI S_ 32 0#32
  let main_v81 : IVec S4000000 32 := broadcastInDim S4000000 ![] bcast_S_S4000000 main_c_30
  let main_v82 : IVec S4000000 1 := cmpi .sge main_v80 main_v81
  let main_v83 : IVec S1x4000000 32 := (extractStridedSlice S1x4000000 ![0, 0] · slices_S2x4000000_S1x4000000_0_0) main_arg1
  let main_v84 : IVec S4000000 32 := shapeCast S4000000 main_v83 shapeCasts_S1x4000000_S4000000
  let main_c_31 : IVec S_ 32 := constantI S_ 32 253952#32
  let main_v85 : IVec S4000000 32 := broadcastInDim S4000000 ![] bcast_S_S4000000 main_c_31
  fn_part5 (F := F) main_v78 main_v82 main_v84 main_v85

def fn_part3 {F : FTy → Type} [FloatOps F] (main_arg1 : IVec S2x4000000 32) (main_arg13 : FVec F S30 .f32) (main_arg14 : FVec F S30x20 .f32) (main_arg15 : FVec F S20 .f32) (main_arg16 : FVec F S20x2 .f32) (main_arg17 : FVec F S2 .f32) (main_v48 : IVec S_ 1) (main_v49 : FVec F S50x30 .f32) (main_v50 : FVec F S50x30 .f32) : IVec S_ 1 :=
  let main_v51 : IVec S50x30 1 := cmpf .olt main_v49 main_v50
  let main_c_19 : IVec S_ 1 := constantI S_ 1 1#1
  let main_v52 : IVec S_ 1 := (fun x v => Host.reduce IntOp.andi x v reducesTo_S50x30_S_d0_1 h_S_) main_v51 main_c_19
  let main_v53 : IVec S_ 1 := andi main_v48 main_v52
  let main_v54 : FVec F S30 .f32 := Host.absf main_arg13
  let main_cst_20 : FVec F S_ .f32 := constant S_ .f32 0x7F800000#32
  let main_v55 : FVec F S30 .f32 := broadcastInDim S30 ![] bcast_S_S30 main_cst_20
  let main_v56 : IVec S30 1 := cmpf .olt main_v54 main_v55
  let main_c_21 : IVec S_ 1 := constantI S_ 1 1#1
  let main_v57 : IVec S_ 1 := (fun x v => Host.reduce IntOp.andi x v reducesTo_S30_S_d0 h_S_) main_v56 main_c_21
  let main_v58 : IVec S_ 1 := andi main_v53 main_v57
  let main_v59 : FVec F S30x20 .f32 := Host.absf main_arg14
  let main_cst_22 : FVec F S_ .f32 := constant S_ .f32 0x7F800000#32
  let main_v60 : FVec F S30x20 .f32 := broadcastInDim S30x20 ![] bcast_S_S30x20 main_cst_22
  let main_v61 : IVec S30x20 1 := cmpf .olt main_v59 main_v60
  let main_c_23 : IVec S_ 1 := constantI S_ 1 1#1
  let main_v62 : IVec S_ 1 := (fun x v => Host.reduce IntOp.andi x v reducesTo_S30x20_S_d0_1 h_S_) main_v61 main_c_23
  let main_v63 : IVec S_ 1 := andi main_v58 main_v62
  let main_v64 : FVec F S20 .f32 := Host.absf main_arg15
  let main_cst_24 : FVec F S_ .f32 := constant S_ .f32 0x7F800000#32
  let main_v65 : FVec F S20 .f32 := broadcastInDim S20 ![] bcast_S_S20 main_cst_24
  let main_v66 : IVec S20 1 := cmpf .olt main_v64 main_v65
  let main_c_25 : IVec S_ 1 := constantI S_ 1 1#1
  let main_v67 : IVec S_ 1 := (fun x v => Host.reduce IntOp.andi x v reducesTo_S20_S_d0 h_S_) main_v66 main_c_25
  fn_part4 (F := F) main_arg1 main_arg16 main_arg17 main_v63 main_v67

def fn_part2 {F : FTy → Type} [FloatOps F] (main_arg1 : IVec S2x4000000 32) (main_arg9 : FVec F S64 .f32) (main_arg10 : FVec F S64x50 .f32) (main_arg11 : FVec F S50 .f32) (main_arg12 : FVec F S50x30 .f32) (main_arg13 : FVec F S30 .f32) (main_arg14 : FVec F S30x20 .f32) (main_arg15 : FVec F S20 .f32) (main_arg16 : FVec F S20x2 .f32) (main_arg17 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x50 .f32 := Host.absf main_arg10
  let main_cst_14 : FVec F S_ .f32 := constant S_ .f32 0x7F800000#32
  let main_v40 : FVec F S64x50 .f32 := broadcastInDim S64x50 ![] bcast_S_S64x50 main_cst_14
  let main_v41 : IVec S64x50 1 := cmpf .olt main_v39 main_v40
  let main_c_15 : IVec S_ 1 := constantI S_ 1 1#1
  let main_v42 : IVec S_ 1 := (fun x v => Host.reduce IntOp.andi x v reducesTo_S64x50_S_d0_1 h_S_) main_v41 main_c_15
  let main_v43 : IVec S_ 1 := andi main_v38 main_v42
  let main_v44 : FVec F S50 .f32 := Host.absf main_arg11
  let main_cst_16 : FVec F S_ .f32 := constant S_ .f32 0x7F800000#32
  let main_v45 : FVec F S50 .f32 := broadcastInDim S50 ![] bcast_S_S50 main_cst_16
  let main_v46 : IVec S50 1 := cmpf .olt main_v44 main_v45
  let main_c_17 : IVec S_ 1 := constantI S_ 1 1#1
  let main_v47 : IVec S_ 1 := (fun x v => Host.reduce IntOp.andi x v reducesTo_S50_S_d0 h_S_) main_v46 main_c_17
  let main_v48 : IVec S_ 1 := andi main_v43 main_v47
  let main_v49 : FVec F S50x30 .f32 := Host.absf main_arg12
  let main_cst_18 : FVec F S_ .f32 := constant S_ .f32 0x7F800000#32
  let main_v50 : FVec F S50x30 .f32 := broadcastInDim S50x30 ![] bcast_S_S50x30 main_cst_18
  fn_part3 (F := F) main_arg1 main_arg13 main_arg14 main_arg15 main_arg16 main_arg17 main_v48 main_v49 main_v50

def fn_part1 {F : FTy → Type} [FloatOps F] (main_arg1 : IVec S2x4000000 32) (main_arg6 : FVec F S16x32 .f32) (main_arg7 : FVec F S32 .f32) (main_arg8 : FVec F S32x64 .f32) (main_arg9 : FVec F S64 .f32) (main_arg10 : FVec F S64x50 .f32) (main_arg11 : FVec F S50 .f32) (main_arg12 : FVec F S50x30 .f32) (main_arg13 : FVec F S30 .f32) (main_arg14 : FVec F S30x20 .f32) (main_arg15 : FVec F S20 .f32) (main_arg16 : FVec F S20x2 .f32) (main_arg17 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x32 .f32 := Host.absf main_arg6
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_v33

def fn {F : FTy → Type} [FloatOps F] (main_arg0 : FVec F S253952x6 .f32) (main_arg1 : IVec S2x4000000 32) (main_arg2 : FVec F S4000000 .f32) (main_arg3 : IVec S253952 32) (main_arg4 : FVec F S6x16 .f32) (main_arg5 : FVec F S16 .f32) (main_arg6 : FVec F S16x32 .f32) (main_arg7 : FVec F S32 .f32) (main_arg8 : FVec F S32x64 .f32) (main_arg9 : FVec F S64 .f32) (main_arg10 : FVec F S64x50 .f32) (main_arg11 : FVec F S50 .f32) (main_arg12 : FVec F S50x30 .f32) (main_arg13 : FVec F S30 .f32) (main_arg14 : FVec F S30x20 .f32) (main_arg15 : FVec F S20 .f32) (main_arg16 : FVec F S20x2 .f32) (main_arg17 : FVec F S2 .f32) : IVec S_ 1 :=
  let main_v0 : FVec F S253952x6 .f32 := Host.absf main_arg0
  let main_cst : FVec F S_ .f32 := constant S_ .f32 0x7F800000#32
  let main_v1 : FVec F S253952x6 .f32 := broadcastInDim S253952x6 ![] bcast_S_S253952x6 main_cst
  let main_v2 : IVec S253952x6 1 := cmpf .olt main_v0 main_v1
  let main_c : IVec S_ 1 := constantI S_ 1 1#1
  let main_v3 : IVec S_ 1 := (fun x v => Host.reduce IntOp.andi x v reducesTo_S253952x6_S_d0_1 h_S_) main_v2 main_c
  let main_v4 : FVec F S4000000 .f32 := Host.absf main_arg2
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_v9 : FVec F S6x16 .f32 := Host.absf main_arg4
  let main_cst_2 : FVec F S_ .f32 := constant S_ .f32 0x7F800000#32
  let main_v10 : FVec F S6x16 .f32 := broadcastInDim S6x16 ![] bcast_S_S6x16 main_cst_2
  let main_v11 : IVec S6x16 1 := cmpf .olt main_v9 main_v10
  let main_c_3 : IVec S_ 1 := constantI S_ 1 1#1
  let main_v12 : IVec S_ 1 := (fun x v => Host.reduce IntOp.andi x v reducesTo_S6x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg6 main_arg7 main_arg8 main_arg9 main_arg10 main_arg11 main_arg12 main_arg13 main_arg14 main_arg15 main_arg16 main_arg17 main_v13 main_v16
-- ==== Kernel.lean ====
abbrev S253952x6 : Shape := ⟨2, ![253952, 6]⟩
abbrev S2x4000000 : Shape := ⟨2, ![2, 4000000]⟩
abbrev S4000000 : Shape := ⟨1, ![4000000]⟩
abbrev S253952 : Shape := ⟨1, ![253952]⟩
abbrev S6x16 : Shape := ⟨2, ![6, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x50 : Shape := ⟨2, ![64, 50]⟩
abbrev S50 : Shape := ⟨1, ![50]⟩
abbrev S50x30 : Shape := ⟨2, ![50, 30]⟩
abbrev S30 : Shape := ⟨1, ![30]⟩
abbrev S30x20 : Shape := ⟨2, ![30, 20]⟩
abbrev S20 : Shape := ⟨1, ![20]⟩
abbrev S20x2 : Shape := ⟨2, ![20, 2]⟩
abbrev S2 : Shape := ⟨1, ![2]⟩
abbrev S1x4000000 : Shape := ⟨2, ![1, 4000000]⟩
abbrev S253952x16 : Shape := ⟨2, ![253952, 16]⟩
abbrev S8192x6 : Shape := ⟨2, ![8192, 6]⟩
abbrev S8192x16 : Shape := ⟨2, ![8192, 16]⟩
abbrev S_ : Shape := ⟨0, ![]⟩
abbrev S4000000x1 : Shape := ⟨2, ![4000000, 1]⟩
abbrev S1 : Shape := ⟨1, ![1]⟩
abbrev S1x1 : Shape := ⟨2, ![1, 1]⟩
abbrev S4000000x16 : Shape := ⟨2, ![4000000, 16]⟩
abbrev S1x16 : Shape := ⟨2, ![1, 16]⟩
abbrev S253952x32 : Shape := ⟨2, ![253952, 32]⟩
abbrev S8192x32 : Shape := ⟨2, ![8192, 32]⟩
abbrev S4000000x32 : Shape := ⟨2, ![4000000, 32]⟩
abbrev S1x32 : Shape := ⟨2, ![1, 32]⟩
abbrev S253952x64 : Shape := ⟨2, ![253952, 64]⟩
abbrev S8192x64 : Shape := ⟨2, ![8192, 64]⟩
abbrev S4000000x64 : Shape := ⟨2, ![4000000, 64]⟩
abbrev S1x64 : Shape := ⟨2, ![1, 64]⟩
abbrev S253952x50 : Shape := ⟨2, ![253952, 50]⟩
abbrev S8192x50 : Shape := ⟨2, ![8192, 50]⟩
abbrev S4000000x50 : Shape := ⟨2, ![4000000, 50]⟩
abbrev S1x50 : Shape := ⟨2, ![1, 50]⟩
abbrev S4096x50 : Shape := ⟨2, ![4096, 50]⟩
abbrev S253952x1 : Shape := ⟨2, ![253952, 1]⟩
abbrev S1x30 : Shape := ⟨2, ![1, 30]⟩
abbrev S1x20 : Shape := ⟨2, ![1, 20]⟩
abbrev S1x2 : Shape := ⟨2, ![1, 2]⟩
abbrev S4096x2 : Shape := ⟨2, ![4096, 2]⟩
abbrev S4096x30 : Shape := ⟨2, ![4096, 30]⟩
abbrev S4096x20 : Shape := ⟨2, ![4096, 20]⟩

abbrev nBuf : Space → Nat
  | .hbm => 159
  | .vmem => 36
  | .smem => 0
  | _ => 0

abbrev hbmTy0_0 (i : Nat) : BufTy := match i % 128 with
  | 0 => ⟨S253952x6, .f32⟩
  | 1 => ⟨S2x4000000, .i32⟩
  | 2 => ⟨S4000000, .f32⟩
  | 3 => ⟨S253952, .i32⟩
  | 4 => ⟨S6x16, .f32⟩
  | 5 => ⟨S16, .f32⟩
  | 6 => ⟨S16x32, .f32⟩
  | 7 => ⟨S32, .f32⟩
  | 8 => ⟨S32x64, .f32⟩
  | 9 => ⟨S64, .f32⟩
  | 10 => ⟨S64x50, .f32⟩
  | 11 => ⟨S50, .f32⟩
  | 12 => ⟨S50x30, .f32⟩
  | 13 => ⟨S30, .f32⟩
  | 14 => ⟨S30x20, .f32⟩
  | 15 => ⟨S20, .f32⟩
  | 16 => ⟨S20x2, .f32⟩
  | 17 => ⟨S2, .f32⟩
  | 18 => ⟨S1x4000000, .i32⟩
  | 19 => ⟨S4000000, .i32⟩
  | 20 => ⟨S1x4000000, .i32⟩
  | 21 => ⟨S4000000, .i32⟩
  | 22 => ⟨S253952x16, .f32⟩
  | 23 => ⟨S_, .i32⟩
  | 24 => ⟨S4000000, .i32⟩
  | 25 => ⟨S4000000, .i1⟩
  | 26 => ⟨S_, .i32⟩
  | 27 => ⟨S4000000, .i32⟩
  | 28 => ⟨S4000000, .i32⟩
  | 29 => ⟨S4000000, .i32⟩
  | 30 => ⟨S4000000x1, .i32⟩
  | 31 => ⟨S1, .i32⟩
  | 32 => ⟨S_, .i32⟩
  | 33 => ⟨S4000000x1, .i32⟩
  | 34 => ⟨S4000000x1, .i1⟩
  | 35 => ⟨S1x1, .i32⟩
  | 36 => ⟨S4000000x1, .i32⟩
  | 37 => ⟨S4000000x1, .i1⟩
  | 38 => ⟨S4000000x1, .i1⟩
  | 39 => ⟨S_, .i1⟩
  | 40 => ⟨S4000000, .i1⟩
  | 41 => ⟨S4000000x16, .f32⟩
  | 42 => ⟨S4000000x16, .i1⟩
  | 43 => ⟨S_, .f32⟩
  | 44 => ⟨S4000000x16, .f32⟩
  | 45 => ⟨S4000000x16, .f32⟩
  | 46 => ⟨S4000000x1, .f32⟩
  | 47 => ⟨S4000000x16, .f32⟩
  | 48 => ⟨S4000000x16, .f32⟩
  | 49 => ⟨S_, .f32⟩
  | 50 => ⟨S253952x16, .f32⟩
  | 51 => ⟨S4000000x1, .i32⟩
  | 52 => ⟨S253952x16, .f32⟩
  | 53 => ⟨S1x16, .f32⟩
  | 54 => ⟨S253952x32, .f32⟩
  | 55 => ⟨S_, .i32⟩
  | 56 => ⟨S4000000, .i32⟩
  | 57 => ⟨S4000000, .i1⟩
  | 58 => ⟨S_, .i32⟩
  | 59 => ⟨S4000000, .i32⟩
  | 60 => ⟨S4000000, .i32⟩
  | 61 => ⟨S4000000, .i32⟩
  | 62 => ⟨S4000000x1, .i32⟩
  | 63 => ⟨S1, .i32⟩
  | 64 => ⟨S_, .i32⟩
  | 65 => ⟨S4000000x1, .i32⟩
  | 66 => ⟨S4000000x1, .i1⟩
  | 67 => ⟨S1x1, .i32⟩
  | 68 => ⟨S4000000x1, .i32⟩
  | 69 => ⟨S4000000x1, .i1⟩
  | 70 => ⟨S4000000x1, .i1⟩
  | 71 => ⟨S_, .i1⟩
  | 72 => ⟨S4000000, .i1⟩
  | 73 => ⟨S4000000x32, .f32⟩
  | 74 => ⟨S4000000x32, .i1⟩
  | 75 => ⟨S_, .f32⟩
  | 76 => ⟨S4000000x32, .f32⟩
  | 77 => ⟨S4000000x32, .f32⟩
  | 78 => ⟨S4000000x1, .f32⟩
  | 79 => ⟨S4000000x32, .f32⟩
  | 80 => ⟨S4000000x32, .f32⟩
  | 81 => ⟨S_, .f32⟩
  | 82 => ⟨S253952x32, .f32⟩
  | 83 => ⟨S4000000x1, .i32⟩
  | 84 => ⟨S253952x32, .f32⟩
  | 85 => ⟨S1x32, .f32⟩
  | 86 => ⟨S253952x64, .f32⟩
  | 87 => ⟨S_, .i32⟩
  | 88 => ⟨S4000000, .i32⟩
  | 89 => ⟨S4000000, .i1⟩
  | 90 => ⟨S_, .i32⟩
  | 91 => ⟨S4000000, .i32⟩
  | 92 => ⟨S4000000, .i32⟩
  | 93 => ⟨S4000000, .i32⟩
  | 94 => ⟨S4000000x1, .i32⟩
  | 95 => ⟨S1, .i32⟩
  | 96 => ⟨S_, .i32⟩
  | 97 => ⟨S4000000x1, .i32⟩
  | 98 => ⟨S4000000x1, .i1⟩
  | 99 => ⟨S1x1, .i32⟩
  | 100 => ⟨S4000000x1, .i32⟩
  | 101 => ⟨S4000000x1, .i1⟩
  | 102 => ⟨S4000000x1, .i1⟩
  | 103 => ⟨S_, .i1⟩
  | 104 => ⟨S4000000, .i1⟩
  | 105 => ⟨S4000000x64, .f32⟩
  | 106 => ⟨S4000000x64, .i1⟩
  | 107 => ⟨S_, .f32⟩
  | 108 => ⟨S4000000x64, .f32⟩
  | 109 => ⟨S4000000x64, .f32⟩
  | 110 => ⟨S4000000x1, .f32⟩
  | 111 => ⟨S4000000x64, .f32⟩
  | 112 => ⟨S4000000x64, .f32⟩
  | 113 => ⟨S_, .f32⟩
  | 114 => ⟨S253952x64, .f32⟩
  | 115 => ⟨S4000000x1, .i32⟩
  | 116 => ⟨S253952x64, .f32⟩
  | 117 => ⟨S1x64, .f32⟩
  | 118 => ⟨S253952x50, .f32⟩
  | 119 => ⟨S_, .i32⟩
  | 120 => ⟨S4000000, .i32⟩
  | 121 => ⟨S4000000, .i1⟩
  | 122 => ⟨S_, .i32⟩
  | 123 => ⟨S4000000, .i32⟩
  | 124 => ⟨S4000000, .i32⟩
  | 125 => ⟨S4000000, .i32⟩
  | 126 => ⟨S4000000x1, .i32⟩
  | 127 => ⟨S1, .i32⟩
  | _ => ⟨S253952x6, .f32⟩

abbrev hbmTy0_1 (i : Nat) : BufTy := match i % 128 with
  | 0 => ⟨S_, .i32⟩
  | 1 => ⟨S4000000x1, .i32⟩
  | 2 => ⟨S4000000x1, .i1⟩
  | 3 => ⟨S1x1, .i32⟩
  | 4 => ⟨S4000000x1, .i32⟩
  | 5 => ⟨S4000000x1, .i1⟩
  | 6 => ⟨S4000000x1, .i1⟩
  | 7 => ⟨S_, .i1⟩
  | 8 => ⟨S4000000, .i1⟩
  | 9 => ⟨S4000000x50, .f32⟩
  | 10 => ⟨S4000000x50, .i1⟩
  | 11 => ⟨S_, .f32⟩
  | 12 => ⟨S4000000x50, .f32⟩
  | 13 => ⟨S4000000x50, .f32⟩
  | 14 => ⟨S4000000x1, .f32⟩
  | 15 => ⟨S4000000x50, .f32⟩
  | 16 => ⟨S4000000x50, .f32⟩
  | 17 => ⟨S_, .f32⟩
  | 18 => ⟨S253952x50, .f32⟩
  | 19 => ⟨S4000000x1, .i32⟩
  | 20 => ⟨S253952x50, .f32⟩
  | 21 => ⟨S1x50, .f32⟩
  | 22 => ⟨S253952x50, .f32⟩
  | 23 => ⟨S_, .f32⟩
  | 24 => ⟨S4096x50, .f32⟩
  | 25 => ⟨S253952x1, .i32⟩
  | 26 => ⟨S4096x50, .f32⟩
  | 27 => ⟨S1x30, .f32⟩
  | 28 => ⟨S1x20, .f32⟩
  | 29 => ⟨S1x2, .f32⟩
  | 30 => ⟨S4096x2, .f32⟩
  | _ => ⟨S253952x6, .f32⟩

abbrev hbmTy (i : Nat) : BufTy := match i / 128 with
  | 0 => hbmTy0_0 i
  | 1 => hbmTy0_1 i
  | _ => ⟨S253952x6, .f32⟩

abbrev bufTy : (tb : Table) → Fin (tcTables nBuf tb) → BufTy
  | .hbm, ⟨i, _⟩ => hbmTy i
  | .local _ .vmem, ⟨0, _⟩ => ⟨S8192x6, .f32⟩
  | .local _ .vmem, ⟨1, _⟩ => ⟨S8192x6, .f32⟩
  | .local _ .vmem, ⟨2, _⟩ => ⟨S6x16, .f32⟩
  | .local _ .vmem, ⟨3, _⟩ => ⟨S8192x16, .f32⟩
  | .local _ .vmem, ⟨4, _⟩ => ⟨S8192x16, .f32⟩
  | .local _ .vmem, ⟨5, _⟩ => ⟨S8192x16, .f32⟩
  | .local _ .vmem, ⟨6, _⟩ => ⟨S8192x16, .f32⟩
  | .local _ .vmem, ⟨7, _⟩ => ⟨S1x16, .f32⟩
  | .local _ .vmem, ⟨8, _⟩ => ⟨S16x32, .f32⟩
  | .local _ .vmem, ⟨9, _⟩ => ⟨S8192x32, .f32⟩
  | .local _ .vmem, ⟨10, _⟩ => ⟨S8192x32, .f32⟩
  | .local _ .vmem, ⟨11, _⟩ => ⟨S8192x32, .f32⟩
  | .local _ .vmem, ⟨12, _⟩ => ⟨S8192x32, .f32⟩
  | .local _ .vmem, ⟨13, _⟩ => ⟨S1x32, .f32⟩
  | .local _ .vmem, ⟨14, _⟩ => ⟨S32x64, .f32⟩
  | .local _ .vmem, ⟨15, _⟩ => ⟨S8192x64, .f32⟩
  | .local _ .vmem, ⟨16, _⟩ => ⟨S8192x64, .f32⟩
  | .local _ .vmem, ⟨17, _⟩ => ⟨S8192x64, .f32⟩
  | .local _ .vmem, ⟨18, _⟩ => ⟨S8192x64, .f32⟩
  | .local _ .vmem, ⟨19, _⟩ => ⟨S1x64, .f32⟩
  | .local _ .vmem, ⟨20, _⟩ => ⟨S64x50, .f32⟩
  | .local _ .vmem, ⟨21, _⟩ => ⟨S8192x50, .f32⟩
  | .local _ .vmem, ⟨22, _⟩ => ⟨S8192x50, .f32⟩
  | .local _ .vmem, ⟨23, _⟩ => ⟨S8192x50, .f32⟩
  | .local _ .vmem, ⟨24, _⟩ => ⟨S8192x50, .f32⟩
  | .local _ .vmem, ⟨25, _⟩ => ⟨S1x50, .f32⟩
  | .local _ .vmem, ⟨26, _⟩ => ⟨S8192x50, .f32⟩
  | .local _ .vmem, ⟨27, _⟩ => ⟨S8192x50, .f32⟩
  | .local _ .vmem, ⟨28, _⟩ => ⟨S4096x50, .f32⟩
  | .local _ .vmem, ⟨29, _⟩ => ⟨S50x30, .f32⟩
  | .local _ .vmem, ⟨30, _⟩ => ⟨S1x30, .f32⟩
  | .local _ .vmem, ⟨31, _⟩ => ⟨S30x20, .f32⟩
  | .local _ .vmem, ⟨32, _⟩ => ⟨S1x20, .f32⟩
  | .local _ .vmem, ⟨33, _⟩ => ⟨S20x2, .f32⟩
  | .local _ .vmem, ⟨34, _⟩ => ⟨S1x2, .f32⟩
  | .local _ .vmem, ⟨35, _⟩ => ⟨S4096x2, .f32⟩
  | _, _ => ⟨S253952x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_cst_0 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_cst_1 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_call3_c : Ref sig .tc := ⟨.hbm, 119, rfl⟩
abbrev main_call3_v0 : Ref sig .tc := ⟨.hbm, 120, rfl⟩
abbrev main_call3_v1 : Ref sig .tc := ⟨.hbm, 121, rfl⟩
abbrev main_call3_c_0 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_v5 : Ref sig .tc := ⟨.hbm, 126, rfl⟩
abbrev main_call3_c_1 : Ref sig .tc := ⟨.hbm, 127, rfl⟩
abbrev main_call3_c_2 : Ref sig .tc := ⟨.hbm, 128, rfl⟩
abbrev main_call3_v6 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_call3_v11 : Ref sig .tc := ⟨.hbm, 134, rfl⟩
abbrev main_call3_c_3 : Ref sig .tc := ⟨.hbm, 135, rfl⟩
abbrev main_call3_v12 : Ref sig .tc := ⟨.hbm, 136, rfl⟩
abbrev main_call3_v13 : Ref sig .tc := ⟨.hbm, 137, rfl⟩
abbrev main_call3_v14 : Ref sig .tc := ⟨.hbm, 138, rfl⟩
abbrev main_call3_cst : Ref sig .tc := ⟨.hbm, 139, rfl⟩
abbrev main_call3_v15 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩
abbrev main_cst_2 : Ref sig .tc := ⟨.hbm, 145, rfl⟩
abbrev main_v36 : Ref sig .tc := ⟨.hbm, 146, rfl⟩
abbrev main_v37 : Ref sig .tc := ⟨.hbm, 147, rfl⟩
abbrev main_v38 : Ref sig .tc := ⟨.hbm, 148, rfl⟩
abbrev main_v39 : Ref sig .tc := ⟨.hbm, 149, rfl⟩
abbrev main_v40 : Ref sig .tc := ⟨.hbm, 150, rfl⟩
abbrev main_cst_3 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg4_0 : Ref sig .tc := ⟨.vmem, 32, rfl⟩
abbrev cc5_stg5_0 : Ref sig .tc := ⟨.vmem, 33, rfl⟩
abbrev cc5_stg6_0 : Ref sig .tc := ⟨.vmem, 34, rfl⟩
abbrev cc5_stg7_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem5_0 : DmaSem sig := 33
abbrev cc5_sem6_0 : DmaSem sig := 34
abbrev cc5_sem7_0 : DmaSem sig := 35

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![31], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![31], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![31], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x50 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8192x50 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![31], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x50 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x50 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8192x50 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S4096x50 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S50x30 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x30 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S30x20 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x20 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S20x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x2 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S4096x2 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  inb_S8192x6_S8192x6_0_0 : ∀ a, (![0, 0] : Fin 2 → Nat) a + S8192x6.size a ≤ S8192x6.size a
  h_S8192x6 : 0 < S8192x6.numel
  bitsLt_bf16_f32 : FTy.bits .bf16 < FTy.bits .f32
  inb_S6x16_S6x16_0_0 : ∀ a, (![0, 0] : Fin 2 → Nat) a + S6x16.size a ≤ S6x16.size a
  h_S6x16 : 0 < S6x16.numel
  inb_S8192x16_S8192x16_0_0 : ∀ a, (![0, 0] : Fin 2 → Nat) a + S8192x16.size a ≤ S8192x16.size a
  h_S8192x16 : 0 < S8192x16.numel
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  reducesTo_S4000000x1_S4000000_d1 : S4000000x1.ReducesTo [1] S4000000
  h_S_ : 0 < S_.numel
  bcast_S4000000_S4000000x16_0 : S4000000.BroadcastsInDim S4000000x16 (![0] : Fin 1 → Fin S4000000x16.rank)
  bcast_S_S4000000x16 : S_.BroadcastsInDim S4000000x16 (![] : Fin 0 → Fin S4000000x16.rank)
  bcast_S4000000x1_S4000000x16_0_1 : S4000000x1.BroadcastsInDim S4000000x16 (![0, 1] : Fin 2 → Fin S4000000x16.rank)
  bcast_S_S253952x16 : S_.BroadcastsInDim S253952x16 (![] : Fin 0 → Fin S253952x16.rank)
  shapeCasts_S16_S1x16 : S16.ShapeCasts S1x16
  shapeCasts_S8192x16_S8192x16 : S8192x16.ShapeCasts S8192x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S16x32_S16x32_0_0 : ∀ a, (![0, 0] : Fin 2 → Nat) a + S16x32.size a ≤ S16x32.size a
  h_S16x32 : 0 < S16x32.numel
  inb_S8192x32_S8192x32_0_0 : ∀ a, (![0, 0] : Fin 2 → Nat) a + S8192x32.size a ≤ S8192x32.size a
  h_S8192x32 : 0 < S8192x32.numel
  bcast_S4000000_S4000000x32_0 : S4000000.BroadcastsInDim S4000000x32 (![0] : Fin 1 → Fin S4000000x32.rank)
  bcast_S_S4000000x32 : S_.BroadcastsInDim S4000000x32 (![] : Fin 0 → Fin S4000000x32.rank)
  bcast_S4000000x1_S4000000x32_0_1 : S4000000x1.BroadcastsInDim S4000000x32 (![0, 1] : Fin 2 → Fin S4000000x32.rank)
  bcast_S_S253952x32 : S_.BroadcastsInDim S253952x32 (![] : Fin 0 → Fin S253952x32.rank)
  shapeCasts_S32_S1x32 : S32.ShapeCasts S1x32
  shapeCasts_S8192x32_S8192x32 : S8192x32.ShapeCasts S8192x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S32x64_S32x64_0_0 : ∀ a, (![0, 0] : Fin 2 → Nat) a + S32x64.size a ≤ S32x64.size a
  h_S32x64 : 0 < S32x64.numel
  inb_S8192x64_S8192x64_0_0 : ∀ a, (![0, 0] : Fin 2 → Nat) a + S8192x64.size a ≤ S8192x64.size a
  h_S8192x64 : 0 < S8192x64.numel
  bcast_S4000000_S4000000x64_0 : S4000000.BroadcastsInDim S4000000x64 (![0] : Fin 1 → Fin S4000000x64.rank)
  bcast_S_S4000000x64 : S_.BroadcastsInDim S4000000x64 (![] : Fin 0 → Fin S4000000x64.rank)
  bcast_S4000000x1_S4000000x64_0_1 : S4000000x1.BroadcastsInDim S4000000x64 (![0, 1] : Fin 2 → Fin S4000000x64.rank)
  bcast_S_S253952x64 : S_.BroadcastsInDim S253952x64 (![] : Fin 0 → Fin S253952x64.rank)
  shapeCasts_S64_S1x64 : S64.ShapeCasts S1x64
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x50_S64x50_0_0 : ∀ a, (![0, 0] : Fin 2 → Nat) a + S64x50.size a ≤ S64x50.size a
  h_S64x50 : 0 < S64x50.numel
  inb_S8192x50_S8192x50_0_0 : ∀ a, (![0, 0] : Fin 2 → Nat) a + S8192x50.size a ≤ S8192x50.size a
  h_S8192x50 : 0 < S8192x50.numel
  bcast_S4000000_S4000000x50_0 : S4000000.BroadcastsInDim S4000000x50 (![0] : Fin 1 → Fin S4000000x50.rank)
  bcast_S_S4000000x50 : S_.BroadcastsInDim S4000000x50 (![] : Fin 0 → Fin S4000000x50.rank)
  bcast_S4000000x1_S4000000x50_0_1 : S4000000x1.BroadcastsInDim S4000000x50 (![0, 1] : Fin 2 → Fin S4000000x50.rank)
  bcast_S_S253952x50 : S_.BroadcastsInDim S253952x50 (![] : Fin 0 → Fin S253952x50.rank)
  shapeCasts_S50_S1x50 : S50.ShapeCasts S1x50
  shapeCasts_S8192x50_S8192x50 : S8192x50.ShapeCasts S8192x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S8192x50 : S1x50.Broadcasts S8192x50
  bcast_S_S4096x50 : S_.BroadcastsInDim S4096x50 (![] : Fin 0 → Fin S4096x50.rank)
  bcast_S253952_S253952x1_0 : S253952.BroadcastsInDim S253952x1 (![0] : Fin 1 → Fin S253952x1.rank)
  shapeCasts_S30_S1x30 : S30.ShapeCasts S1x30
  shapeCasts_S20_S1x20 : S20.ShapeCasts S1x20
  shapeCasts_S2_S1x2 : S2.ShapeCasts S1x2
  inb_S4096x50_S4096x50_0_0 : ∀ a, (![0, 0] : Fin 2 → Nat) a + S4096x50.size a ≤ S4096x50.size a
  h_S4096x50 : 0 < S4096x50.numel
  shapeCasts_S4096x50_S4096x50 : S4096x50.ShapeCasts S4096x50
  inb_S50x30_S50x30_0_0 : ∀ a, (![0, 0] : Fin 2 → Nat) a + S50x30.size a ≤ S50x30.size a
  h_S50x30 : 0 < S50x30.numel
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S4096x30 : S1x30.Broadcasts S4096x30
  inb_S30x20_S30x20_0_0 : ∀ a, (![0, 0] : Fin 2 → Nat) a + S30x20.size a ≤ S30x20.size a
  h_S30x20 : 0 < S30x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S4096x20 : S1x20.Broadcasts S4096x20
  inb_S20x2_S20x2_0_0 : ∀ a, (![0, 0] : Fin 2 → Nat) a + S20x2.size a ≤ S20x2.size a
  h_S20x2 : 0 < S20x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  inb_S4096x2_S4096x2_0_0 : ∀ a, (![0, 0] : Fin 2 → Nat) a + S4096x2.size a ≤ S4096x2.size a
  h_S4096x2 : 0 < S4096x2.numel
  dot_S8192x6_S6x16_S8192x16_1_0_0_1_n_n_wf : DotDims.WF S8192x6 S6x16 S8192x16 [1] [0] [0] [1] [] []
  gather_S253952x16_S4000000x1_S4000000x16_1_0_n_n_0_1_116_wf : GatherDims.WF S253952x16 S4000000x1 S4000000x16 [1] [0] [] [0] [] 1 ![1, 16]
  scatter_S253952x16_S4000000x1_S4000000x16_1_0_0_1_wf : ScatterDims.WF S253952x16 S4000000x1 S4000000x16 [1] [0] [0] 1
  dot_S8192x16_S16x32_S8192x32_1_0_0_1_n_n_wf : DotDims.WF S8192x16 S16x32 S8192x32 [1] [0] [0] [1] [] []
  gather_S253952x32_S4000000x1_S4000000x32_1_0_n_n_0_1_132_wf : GatherDims.WF S253952x32 S4000000x1 S4000000x32 [1] [0] [] [0] [] 1 ![1, 32]
  scatter_S253952x32_S4000000x1_S4000000x32_1_0_0_1_wf : ScatterDims.WF S253952x32 S4000000x1 S4000000x32 [1] [0] [0] 1
  dot_S8192x32_S32x64_S8192x64_1_0_0_1_n_n_wf : DotDims.WF S8192x32 S32x64 S8192x64 [1] [0] [0] [1] [] []
  gather_S253952x64_S4000000x1_S4000000x64_1_0_n_n_0_1_164_wf : GatherDims.WF S253952x64 S4000000x1 S4000000x64 [1] [0] [] [0] [] 1 ![1, 64]
  scatter_S253952x64_S4000000x1_S4000000x64_1_0_0_1_wf : ScatterDims.WF S253952x64 S4000000x1 S4000000x64 [1] [0] [0] 1
  dot_S8192x64_S64x50_S8192x50_1_0_0_1_n_n_wf : DotDims.WF S8192x64 S64x50 S8192x50 [1] [0] [0] [1] [] []
  gather_S253952x50_S4000000x1_S4000000x50_1_0_n_n_0_1_150_wf : GatherDims.WF S253952x50 S4000000x1 S4000000x50 [1] [0] [] [0] [] 1 ![1, 50]
  scatter_S253952x50_S4000000x1_S4000000x50_1_0_0_1_wf : ScatterDims.WF S253952x50 S4000000x1 S4000000x50 [1] [0] [0] 1
  scatter_S4096x50_S253952x1_S253952x50_1_0_0_1_wf : ScatterDims.WF S4096x50 S253952x1 S253952x50 [1] [0] [0] 1
  dot_S4096x50_S50x30_S4096x30_1_0_0_1_n_n_wf : DotDims.WF S4096x50 S50x30 S4096x30 [1] [0] [0] [1] [] []
  dot_S4096x30_S30x20_S4096x20_1_0_0_1_n_n_wf : DotDims.WF S4096x30 S30x20 S4096x20 [1] [0] [0] [1] [] []
  dot_S4096x20_S20x2_S4096x2_1_0_0_1_n_n_wf : DotDims.WF S4096x20 S20x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x6.size a ≤ S253952x6.size a
  hwx0_0 : ∀ i : grid0.Coords, EltTy.bits .f32 = 32 ∨ (Rect.block (s := S253952x6) S8192x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x16.size a ≤ S6x16.size a
  hwx0_1 : ∀ i : grid0.Coords, EltTy.bits .f32 = 32 ∨ (Rect.block (s := S6x16) S6x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x16.size a ≤ S253952x16.size a
  hwx0_2 : ∀ i : grid0.Coords, EltTy.bits .f32 = 32 ∨ (Rect.block (s := S253952x16) S8192x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x16.size a ≤ S253952x16.size a
  hwx1_0 : ∀ i : grid1.Coords, EltTy.bits .f32 = 32 ∨ (Rect.block (s := S253952x16) S8192x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x32.size a ≤ S253952x32.size a
  hwx1_3 : ∀ i : grid1.Coords, EltTy.bits .f32 = 32 ∨ (Rect.block (s := S253952x32) S8192x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x32.size a ≤ S253952x32.size a
  hwx2_0 : ∀ i : grid2.Coords, EltTy.bits .f32 = 32 ∨ (Rect.block (s := S253952x32) S8192x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x64.size a ≤ S253952x64.size a
  hwx2_3 : ∀ i : grid2.Coords, EltTy.bits .f32 = 32 ∨ (Rect.block (s := S253952x64) S8192x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S253952x64.size a
  hwx3_0 : ∀ i : grid3.Coords, EltTy.bits .f32 = 32 ∨ (Rect.block (s := S253952x64) S8192x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x50.size a ≤ S64x50.size a
  hwx3_2 : ∀ i : grid3.Coords, EltTy.bits .f32 = 32 ∨ (Rect.block (s := S64x50) S64x50.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x50.size a ≤ S253952x50.size a
  hwx3_3 : ∀ i : grid3.Coords, EltTy.bits .f32 = 32 ∨ (Rect.block (s := S253952x50) S8192x50.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x50.size a ≤ S253952x50.size a
  hwx4_0 : ∀ i : grid4.Coords, EltTy.bits .f32 = 32 ∨ (Rect.block (s := S253952x50) S8192x50.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x50.size a ≤ S1x50.size a
  hwx4_1 : ∀ i : grid4.Coords, EltTy.bits .f32 = 32 ∨ (Rect.block (s := S1x50) S1x50.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x50.size a ≤ S253952x50.size a
  hwx4_2 : ∀ i : grid4.Coords, EltTy.bits .f32 = 32 ∨ (Rect.block (s := S253952x50) S8192x50.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S4096x50.size a ≤ S4096x50.size a
  hwx5_0 : ∀ i : grid5.Coords, EltTy.bits .f32 = 32 ∨ (Rect.block (s := S4096x50) S4096x50.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S50x30.size a ≤ S50x30.size a
  hwx5_1 : ∀ i : grid5.Coords, EltTy.bits .f32 = 32 ∨ (Rect.block (s := S50x30) S50x30.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x30.size a ≤ S1x30.size a
  hwx5_2 : ∀ i : grid5.Coords, EltTy.bits .f32 = 32 ∨ (Rect.block (s := S1x30) S1x30.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S30x20.size a ≤ S30x20.size a
  hwx5_3 : ∀ i : grid5.Coords, EltTy.bits .f32 = 32 ∨ (Rect.block (s := S30x20) S30x20.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x20.size a ≤ S1x20.size a
  hwx5_4 : ∀ i : grid5.Coords, EltTy.bits .f32 = 32 ∨ (Rect.block (s := S1x20) S1x20.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S20x2.size a ≤ S20x2.size a
  hwx5_5 : ∀ i : grid5.Coords, EltTy.bits .f32 = 32 ∨ (Rect.block (s := S20x2) S20x2.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x2.size a ≤ S1x2.size a
  hwx5_6 : ∀ i : grid5.Coords, EltTy.bits .f32 = 32 ∨ (Rect.block (s := S1x2) S1x2.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S4096x2.size a ≤ S4096x2.size a
  hwx5_7 : ∀ i : grid5.Coords, EltTy.bits .f32 = 32 ∨ (Rect.block (s := S4096x2) S4096x2.size (cc5_transform_7 i) (hinb5_7 i)).WholeWords (EltTy.packing .f32)

variable [Facts₀]

def dot_S8192x6_S6x16_S8192x16_1_0_0_1_n_n : DotDims S8192x6 S6x16 S8192x16 where
  lhsContracting := [1]
  rhsContracting := [0]
  lhsNonContracting := [0]
  rhsNonContracting := [1]
  lhsBatch := []
  rhsBatch := []
  wf := dot_S8192x6_S6x16_S8192x16_1_0_0_1_n_n_wf
def gather_S253952x16_S4000000x1_S4000000x16_1_0_n_n_0_1_116 : GatherDims S253952x16 S4000000x1 S4000000x16 where
  offsetDims := [1]
  collapsedSliceDims := [0]
  operandBatchingDims := []
  startIndicesBatchingDims := []
  startIndexMap := [0]
  indexVectorDim := 1
  sliceSizes := ![1, 16]
  wf := gather_S253952x16_S4000000x1_S4000000x16_1_0_n_n_0_1_116_wf
def scatter_S253952x16_S4000000x1_S4000000x16_1_0_0_1 : ScatterDims S253952x16 S4000000x1 S4000000x16 where
  updateWindowDims := [1]
  insertedWindowDims := [0]
  scatterDimsToOperandDims := [0]
  indexVectorDim := 1
  wf := scatter_S253952x16_S4000000x1_S4000000x16_1_0_0_1_wf
def dot_S8192x16_S16x32_S8192x32_1_0_0_1_n_n : DotDims S8192x16 S16x32 S8192x32 where
  lhsContracting := [1]
  rhsContracting := [0]
  lhsNonContracting := [0]
  rhsNonContracting := [1]
  lhsBatch := []
  rhsBatch := []
  wf := dot_S8192x16_S16x32_S8192x32_1_0_0_1_n_n_wf
def gather_S253952x32_S4000000x1_S4000000x32_1_0_n_n_0_1_132 : GatherDims S253952x32 S4000000x1 S4000000x32 where
  offsetDims := [1]
  collapsedSliceDims := [0]
  operandBatchingDims := []
  startIndicesBatchingDims := []
  startIndexMap := [0]
  indexVectorDim := 1
  sliceSizes := ![1, 32]
  wf := gather_S253952x32_S4000000x1_S4000000x32_1_0_n_n_0_1_132_wf
def scatter_S253952x32_S4000000x1_S4000000x32_1_0_0_1 : ScatterDims S253952x32 S4000000x1 S4000000x32 where
  updateWindowDims := [1]
  insertedWindowDims := [0]
  scatterDimsToOperandDims := [0]
  indexVectorDim := 1
  wf := scatter_S253952x32_S4000000x1_S4000000x32_1_0_0_1_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def gather_S253952x64_S4000000x1_S4000000x64_1_0_n_n_0_1_164 : GatherDims S253952x64 S4000000x1 S4000000x64 where
  offsetDims := [1]
  collapsedSliceDims := [0]
  operandBatchingDims := []
  startIndicesBatchingDims := []
  startIndexMap := [0]
  indexVectorDim := 1
  sliceSizes := ![1, 64]
  wf := gather_S253952x64_S4000000x1_S4000000x64_1_0_n_n_0_1_164_wf
def scatter_S253952x64_S4000000x1_S4000000x64_1_0_0_1 : ScatterDims S253952x64 S4000000x1 S4000000x64 where
  updateWindowDims := [1]
  insertedWindowDims := [0]
  scatterDimsToOperandDims := [0]
  indexVectorDim := 1
  wf := scatter_S253952x64_S4000000x1_S4000000x64_1_0_0_1_wf
def dot_S8192x64_S64x50_S8192x50_1_0_0_1_n_n : DotDims S8192x64 S64x50 S8192x50 where
  lhsContracting := [1]
  rhsContracting := [0]
  lhsNonContracting := [0]
  rhsNonContracting := [1]
  lhsBatch := []
  rhsBatch := []
  wf := dot_S8192x64_S64x50_S8192x50_1_0_0_1_n_n_wf
def gather_S253952x50_S4000000x1_S4000000x50_1_0_n_n_0_1_150 : GatherDims S253952x50 S4000000x1 S4000000x50 where
  offsetDims := [1]
  collapsedSliceDims := [0]
  operandBatchingDims := []
  startIndicesBatchingDims := []
  startIndexMap := [0]
  indexVectorDim := 1
  sliceSizes := ![1, 50]
  wf := gather_S253952x50_S4000000x1_S4000000x50_1_0_n_n_0_1_150_wf
def scatter_S253952x50_S4000000x1_S4000000x50_1_0_0_1 : ScatterDims S253952x50 S4000000x1 S4000000x50 where
  updateWindowDims := [1]
  insertedWindowDims := [0]
  scatterDimsToOperandDims := [0]
  indexVectorDim := 1
  wf := scatter_S253952x50_S4000000x1_S4000000x50_1_0_0_1_wf
def scatter_S4096x50_S253952x1_S253952x50_1_0_0_1 : ScatterDims S4096x50 S253952x1 S253952x50 where
  updateWindowDims := [1]
  insertedWindowDims := [0]
  scatterDimsToOperandDims := [0]
  indexVectorDim := 1
  wf := scatter_S4096x50_S253952x1_S253952x50_1_0_0_1_wf
def dot_S4096x50_S50x30_S4096x30_1_0_0_1_n_n : DotDims S4096x50 S50x30 S4096x30 where
  lhsContracting := [1]
  rhsContracting := [0]
  lhsNonContracting := [0]
  rhsNonContracting := [1]
  lhsBatch := []
  rhsBatch := []
  wf := dot_S4096x50_S50x30_S4096x30_1_0_0_1_n_n_wf
def dot_S4096x30_S30x20_S4096x20_1_0_0_1_n_n : DotDims S4096x30 S30x20 S4096x20 where
  lhsContracting := [1]
  rhsContracting := [0]
  lhsNonContracting := [0]
  rhsNonContracting := [1]
  lhsBatch := []
  rhsBatch := []
  wf := dot_S4096x30_S30x20_S4096x20_1_0_0_1_n_n_wf
def dot_S4096x20_S20x2_S4096x2_1_0_0_1_n_n : DotDims S4096x20 S20x2 S4096x2 where
  lhsContracting := [1]
  rhsContracting := [0]
  lhsNonContracting := [0]
  rhsNonContracting := [1]
  lhsBatch := []
  rhsBatch := []
  wf := dot_S4096x20_S20x2_S4096x2_1_0_0_1_n_n_wf

abbrev win0_0 : Pipeline.Window sig grid0 :=
  Pipeline.Window.ofSpec (Memref.whole main_arg0) S8192x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S6x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8192x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S8192x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S8192x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S8192x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S8192x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v29) S8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64x50.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S8192x50.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v38) S8192x50.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S1x50.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v40) S8192x50.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v43) S4096x50.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S50x30.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v44) S1x30.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg14) S30x20.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v45) S1x20.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg16) S20x2.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v46) S1x2.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v47) S4096x2.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S253952x6 : Shape := ⟨2, ![253952, 6]⟩
abbrev S2x4000000 : Shape := ⟨2, ![2, 4000000]⟩
abbrev S4000000 : Shape := ⟨1, ![4000000]⟩
abbrev S253952 : Shape := ⟨1, ![253952]⟩
abbrev S6x16 : Shape := ⟨2, ![6, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x50 : Shape := ⟨2, ![64, 50]⟩
abbrev S50 : Shape := ⟨1, ![50]⟩
abbrev S50x30 : Shape := ⟨2, ![50, 30]⟩
abbrev S30 : Shape := ⟨1, ![30]⟩
abbrev S30x20 : Shape := ⟨2, ![30, 20]⟩
abbrev S20 : Shape := ⟨1, ![20]⟩
abbrev S20x2 : Shape := ⟨2, ![20, 2]⟩
abbrev S2 : Shape := ⟨1, ![2]⟩
abbrev S1x4000000 : Shape := ⟨2, ![1, 4000000]⟩
abbrev S253952x16 : Shape := ⟨2, ![253952, 16]⟩
abbrev S_ : Shape := ⟨0, ![]⟩
abbrev S4000000x1 : Shape := ⟨2, ![4000000, 1]⟩
abbrev S4000000x16 : Shape := ⟨2, ![4000000, 16]⟩
abbrev S1x16 : Shape := ⟨2, ![1, 16]⟩
abbrev S253952x32 : Shape := ⟨2, ![253952, 32]⟩
abbrev S4000000x32 : Shape := ⟨2, ![4000000, 32]⟩
abbrev S1x32 : Shape := ⟨2, ![1, 32]⟩
abbrev S253952x64 : Shape := ⟨2, ![253952, 64]⟩
abbrev S4000000x64 : Shape := ⟨2, ![4000000, 64]⟩
abbrev S1x64 : Shape := ⟨2, ![1, 64]⟩
abbrev S253952x50 : Shape := ⟨2, ![253952, 50]⟩
abbrev S4000000x50 : Shape := ⟨2, ![4000000, 50]⟩
abbrev S1x50 : Shape := ⟨2, ![1, 50]⟩
abbrev S4096x50 : Shape := ⟨2, ![4096, 50]⟩
abbrev S253952x1 : Shape := ⟨2, ![253952, 1]⟩
abbrev S4096x30 : Shape := ⟨2, ![4096, 30]⟩
abbrev S1x30 : Shape := ⟨2, ![1, 30]⟩
abbrev S4096x20 : Shape := ⟨2, ![4096, 20]⟩
abbrev S1x20 : Shape := ⟨2, ![1, 20]⟩
abbrev S4096x2 : Shape := ⟨2, ![4096, 2]⟩
abbrev S1x2 : Shape := ⟨2, ![1, 2]⟩

abbrev nBuf : Space → Nat
  | .hbm => 182
  | .vmem => 0
  | .smem => 0
  | _ => 0

abbrev hbmTy0_0 (i : Nat) : BufTy := match i % 128 with
  | 0 => ⟨S253952x6, .f32⟩
  | 1 => ⟨S2x4000000, .i32⟩
  | 2 => ⟨S4000000, .f32⟩
  | 3 => ⟨S253952, .i32⟩
  | 4 => ⟨S6x16, .f32⟩
  | 5 => ⟨S16, .f32⟩
  | 6 => ⟨S16x32, .f32⟩
  | 7 => ⟨S32, .f32⟩
  | 8 => ⟨S32x64, .f32⟩
  | 9 => ⟨S64, .f32⟩
  | 10 => ⟨S64x50, .f32⟩
  | 11 => ⟨S50, .f32⟩
  | 12 => ⟨S50x30, .f32⟩
  | 13 => ⟨S30, .f32⟩
  | 14 => ⟨S30x20, .f32⟩
  | 15 => ⟨S20, .f32⟩
  | 16 => ⟨S20x2, .f32⟩
  | 17 => ⟨S2, .f32⟩
  | 18 => ⟨S1x4000000, .i32⟩
  | 19 => ⟨S4000000, .i32⟩
  | 20 => ⟨S1x4000000, .i32⟩
  | 21 => ⟨S4000000, .i32⟩
  | 22 => ⟨S253952x16, .f32⟩
  | 23 => ⟨S_, .i32⟩
  | 24 => ⟨S4000000, .i32⟩
  | 25 => ⟨S4000000, .i1⟩
  | 26 => ⟨S_, .i32⟩
  | 27 => ⟨S4000000, .i32⟩
  | 28 => ⟨S4000000, .i32⟩
  | 29 => ⟨S4000000, .i32⟩
  | 30 => ⟨S4000000x1, .i32⟩
  | 31 => ⟨S4000000x16, .f32⟩
  | 32 => ⟨S4000000x1, .f32⟩
  | 33 => ⟨S4000000x16, .f32⟩
  | 34 => ⟨S4000000x16, .f32⟩
  | 35 => ⟨S_, .f32⟩
  | 36 => ⟨S253952x16, .f32⟩
  | 37 => ⟨S4000000x1, .i32⟩
  | 38 => ⟨S253952x16, .f32⟩
  | 39 => ⟨S1x16, .f32⟩
  | 40 => ⟨S253952x16, .f32⟩
  | 41 => ⟨S253952x16, .f32⟩
  | 42 => ⟨S_, .f32⟩
  | 43 => ⟨S_, .f32⟩
  | 44 => ⟨S253952x16, .f32⟩
  | 45 => ⟨S253952x16, .i1⟩
  | 46 => ⟨S_, .f32⟩
  | 47 => ⟨S253952x16, .f32⟩
  | 48 => ⟨S253952x16, .f32⟩
  | 49 => ⟨S253952x16, .f32⟩
  | 50 => ⟨S253952x32, .f32⟩
  | 51 => ⟨S_, .i32⟩
  | 52 => ⟨S4000000, .i32⟩
  | 53 => ⟨S4000000, .i1⟩
  | 54 => ⟨S_, .i32⟩
  | 55 => ⟨S4000000, .i32⟩
  | 56 => ⟨S4000000, .i32⟩
  | 57 => ⟨S4000000, .i32⟩
  | 58 => ⟨S4000000x1, .i32⟩
  | 59 => ⟨S4000000x32, .f32⟩
  | 60 => ⟨S4000000x1, .f32⟩
  | 61 => ⟨S4000000x32, .f32⟩
  | 62 => ⟨S4000000x32, .f32⟩
  | 63 => ⟨S_, .f32⟩
  | 64 => ⟨S253952x32, .f32⟩
  | 65 => ⟨S4000000x1, .i32⟩
  | 66 => ⟨S253952x32, .f32⟩
  | 67 => ⟨S1x32, .f32⟩
  | 68 => ⟨S253952x32, .f32⟩
  | 69 => ⟨S253952x32, .f32⟩
  | 70 => ⟨S_, .f32⟩
  | 71 => ⟨S_, .f32⟩
  | 72 => ⟨S253952x32, .f32⟩
  | 73 => ⟨S253952x32, .i1⟩
  | 74 => ⟨S_, .f32⟩
  | 75 => ⟨S253952x32, .f32⟩
  | 76 => ⟨S253952x32, .f32⟩
  | 77 => ⟨S253952x32, .f32⟩
  | 78 => ⟨S253952x64, .f32⟩
  | 79 => ⟨S_, .i32⟩
  | 80 => ⟨S4000000, .i32⟩
  | 81 => ⟨S4000000, .i1⟩
  | 82 => ⟨S_, .i32⟩
  | 83 => ⟨S4000000, .i32⟩
  | 84 => ⟨S4000000, .i32⟩
  | 85 => ⟨S4000000, .i32⟩
  | 86 => ⟨S4000000x1, .i32⟩
  | 87 => ⟨S4000000x64, .f32⟩
  | 88 => ⟨S4000000x1, .f32⟩
  | 89 => ⟨S4000000x64, .f32⟩
  | 90 => ⟨S4000000x64, .f32⟩
  | 91 => ⟨S_, .f32⟩
  | 92 => ⟨S253952x64, .f32⟩
  | 93 => ⟨S4000000x1, .i32⟩
  | 94 => ⟨S253952x64, .f32⟩
  | 95 => ⟨S1x64, .f32⟩
  | 96 => ⟨S253952x64, .f32⟩
  | 97 => ⟨S253952x64, .f32⟩
  | 98 => ⟨S_, .f32⟩
  | 99 => ⟨S_, .f32⟩
  | 100 => ⟨S253952x64, .f32⟩
  | 101 => ⟨S253952x64, .i1⟩
  | 102 => ⟨S_, .f32⟩
  | 103 => ⟨S253952x64, .f32⟩
  | 104 => ⟨S253952x64, .f32⟩
  | 105 => ⟨S253952x64, .f32⟩
  | 106 => ⟨S253952x50, .f32⟩
  | 107 => ⟨S_, .i32⟩
  | 108 => ⟨S4000000, .i32⟩
  | 109 => ⟨S4000000, .i1⟩
  | 110 => ⟨S_, .i32⟩
  | 111 => ⟨S4000000, .i32⟩
  | 112 => ⟨S4000000, .i32⟩
  | 113 => ⟨S4000000, .i32⟩
  | 114 => ⟨S4000000x1, .i32⟩
  | 115 => ⟨S4000000x50, .f32⟩
  | 116 => ⟨S4000000x1, .f32⟩
  | 117 => ⟨S4000000x50, .f32⟩
  | 118 => ⟨S4000000x50, .f32⟩
  | 119 => ⟨S_, .f32⟩
  | 120 => ⟨S253952x50, .f32⟩
  | 121 => ⟨S4000000x1, .i32⟩
  | 122 => ⟨S253952x50, .f32⟩
  | 123 => ⟨S1x50, .f32⟩
  | 124 => ⟨S253952x50, .f32⟩
  | 125 => ⟨S253952x50, .f32⟩
  | 126 => ⟨S_, .f32⟩
  | 127 => ⟨S_, .f32⟩
  | _ => ⟨S253952x6, .f32⟩

abbrev hbmTy0_1 (i : Nat) : BufTy := match i % 128 with
  | 0 => ⟨S253952x50, .f32⟩
  | 1 => ⟨S253952x50, .i1⟩
  | 2 => ⟨S_, .f32⟩
  | 3 => ⟨S253952x50, .f32⟩
  | 4 => ⟨S253952x50, .f32⟩
  | 5 => ⟨S253952x50, .f32⟩
  | 6 => ⟨S_, .f32⟩
  | 7 => ⟨S_, .f32⟩
  | 8 => ⟨S253952x50, .f32⟩
  | 9 => ⟨S253952x50, .i1⟩
  | 10 => ⟨S_, .f32⟩
  | 11 => ⟨S253952x50, .f32⟩
  | 12 => ⟨S253952x50, .f32⟩
  | 13 => ⟨S253952x50, .f32⟩
  | 14 => ⟨S_, .f32⟩
  | 15 => ⟨S4096x50, .f32⟩
  | 16 => ⟨S253952x1, .i32⟩
  | 17 => ⟨S4096x50, .f32⟩
  | 18 => ⟨S4096x30, .f32⟩
  | 19 => ⟨S1x30, .f32⟩
  | 20 => ⟨S4096x30, .f32⟩
  | 21 => ⟨S4096x30, .f32⟩
  | 22 => ⟨S_, .f32⟩
  | 23 => ⟨S_, .f32⟩
  | 24 => ⟨S4096x30, .f32⟩
  | 25 => ⟨S4096x30, .i1⟩
  | 26 => ⟨S_, .f32⟩
  | 27 => ⟨S4096x30, .f32⟩
  | 28 => ⟨S4096x30, .f32⟩
  | 29 => ⟨S4096x30, .f32⟩
  | 30 => ⟨S4096x20, .f32⟩
  | 31 => ⟨S1x20, .f32⟩
  | 32 => ⟨S4096x20, .f32⟩
  | 33 => ⟨S4096x20, .f32⟩
  | 34 => ⟨S_, .f32⟩
  | 35 => ⟨S_, .f32⟩
  | 36 => ⟨S4096x20, .f32⟩
  | 37 => ⟨S4096x20, .i1⟩
  | 38 => ⟨S_, .f32⟩
  | 39 => ⟨S4096x20, .f32⟩
  | 40 => ⟨S4096x20, .f32⟩
  | 41 => ⟨S4096x20, .f32⟩
  | 42 => ⟨S4096x2, .f32⟩
  | 43 => ⟨S1x2, .f32⟩
  | 44 => ⟨S4096x2, .f32⟩
  | 45 => ⟨S4096x2, .f32⟩
  | 46 => ⟨S_, .f32⟩
  | 47 => ⟨S_, .f32⟩
  | 48 => ⟨S4096x2, .f32⟩
  | 49 => ⟨S4096x2, .i1⟩
  | 50 => ⟨S_, .f32⟩
  | 51 => ⟨S4096x2, .f32⟩
  | 52 => ⟨S4096x2, .f32⟩
  | 53 => ⟨S4096x2, .f32⟩
  | _ => ⟨S253952x6, .f32⟩

abbrev hbmTy (i : Nat) : BufTy := match i / 128 with
  | 0 => hbmTy0_0 i
  | 1 => hbmTy0_1 i
  | _ => ⟨S253952x6, .f32⟩

abbrev bufTy : (tb : Table) → Fin (tcTables nBuf tb) → BufTy
  | .hbm, ⟨i, _⟩ => hbmTy i
  | _, _ => ⟨S253952x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v21 : Ref sig .tc := ⟨.hbm, 49, rfl⟩
abbrev main_v22 : Ref sig .tc := ⟨.hbm, 50, rfl⟩
abbrev main_c_2 : Ref sig .tc := ⟨.hbm, 51, rfl⟩
abbrev main_v23 : Ref sig .tc := ⟨.hbm, 52, rfl⟩
abbrev main_v24 : Ref sig .tc := ⟨.hbm, 53, rfl⟩
abbrev main_c_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_5 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v39 : Ref sig .tc := ⟨.hbm, 77, rfl⟩
abbrev main_v40 : Ref sig .tc := ⟨.hbm, 78, rfl⟩
abbrev main_c_6 : Ref sig .tc := ⟨.hbm, 79, rfl⟩
abbrev main_v41 : Ref sig .tc := ⟨.hbm, 80, rfl⟩
abbrev main_v42 : Ref sig .tc := ⟨.hbm, 81, rfl⟩
abbrev main_c_7 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_8 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_9 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v57 : Ref sig .tc := ⟨.hbm, 105, rfl⟩
abbrev main_v58 : Ref sig .tc := ⟨.hbm, 106, rfl⟩
abbrev main_c_10 : Ref sig .tc := ⟨.hbm, 107, rfl⟩
abbrev main_v59 : Ref sig .tc := ⟨.hbm, 108, rfl⟩
abbrev main_v60 : Ref sig .tc := ⟨.hbm, 109, rfl⟩
abbrev main_c_11 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_12 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_cst_13 : Ref sig .tc := ⟨.hbm, 126, rfl⟩
abbrev main_call3_cst : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_v75 : Ref sig .tc := ⟨.hbm, 133, rfl⟩
abbrev main_cst_14 : Ref sig .tc := ⟨.hbm, 134, rfl⟩
abbrev main_call4_cst : Ref sig .tc := ⟨.hbm, 135, rfl⟩
abbrev main_call4_v0 : Ref sig .tc := ⟨.hbm, 136, rfl⟩
abbrev main_call4_v1 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_v76 : Ref sig .tc := ⟨.hbm, 141, rfl⟩
abbrev main_cst_15 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_cst_16 : Ref sig .tc := ⟨.hbm, 150, rfl⟩
abbrev main_call5_cst : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_cst_17 : Ref sig .tc := ⟨.hbm, 162, rfl⟩
abbrev main_call6_cst : Ref sig .tc := ⟨.hbm, 163, rfl⟩
abbrev main_call6_v0 : Ref sig .tc := ⟨.hbm, 164, rfl⟩
abbrev main_call6_v1 : Ref sig .tc := ⟨.hbm, 165, rfl⟩
abbrev main_call6_v2 : Ref sig .tc := ⟨.hbm, 166, rfl⟩
abbrev main_call6_v3 : Ref sig .tc := ⟨.hbm, 167, rfl⟩
abbrev main_call6_v4 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_cst_18 : Ref sig .tc := ⟨.hbm, 174, rfl⟩
abbrev main_call7_cst : Ref sig .tc := ⟨.hbm, 175, rfl⟩
abbrev main_call7_v0 : Ref sig .tc := ⟨.hbm, 176, rfl⟩
abbrev main_call7_v1 : Ref sig .tc := ⟨.hbm, 177, rfl⟩
abbrev main_call7_v2 : Ref sig .tc := ⟨.hbm, 178, rfl⟩
abbrev main_call7_v3 : Ref sig .tc := ⟨.hbm, 179, rfl⟩
abbrev main_call7_v4 : Ref sig .tc := ⟨.hbm, 180, rfl⟩
abbrev main_v94 : Ref sig .tc := ⟨.hbm, 181, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x16_0_1 : S4000000x1.BroadcastsInDim S4000000x16 (![0, 1] : Fin 2 → Fin S4000000x16.rank)
  bcast_S_S253952x16 : S_.BroadcastsInDim S253952x16 (![] : Fin 0 → Fin S253952x16.rank)
  bcast_S16_S1x16_1 : S16.BroadcastsInDim S1x16 (![1] : Fin 1 → Fin S1x16.rank)
  bcast_S1x16_S253952x16_0_1 : S1x16.BroadcastsInDim S253952x16 (![0, 1] : Fin 2 → Fin S253952x16.rank)
  bcast_S4000000x1_S4000000x32_0_1 : S4000000x1.BroadcastsInDim S4000000x32 (![0, 1] : Fin 2 → Fin S4000000x32.rank)
  bcast_S_S253952x32 : S_.BroadcastsInDim S253952x32 (![] : Fin 0 → Fin S253952x32.rank)
  bcast_S32_S1x32_1 : S32.BroadcastsInDim S1x32 (![1] : Fin 1 → Fin S1x32.rank)
  bcast_S1x32_S253952x32_0_1 : S1x32.BroadcastsInDim S253952x32 (![0, 1] : Fin 2 → Fin S253952x32.rank)
  bcast_S4000000x1_S4000000x64_0_1 : S4000000x1.BroadcastsInDim S4000000x64 (![0, 1] : Fin 2 → Fin S4000000x64.rank)
  bcast_S_S253952x64 : S_.BroadcastsInDim S253952x64 (![] : Fin 0 → Fin S253952x64.rank)
  bcast_S64_S1x64_1 : S64.BroadcastsInDim S1x64 (![1] : Fin 1 → Fin S1x64.rank)
  bcast_S1x64_S253952x64_0_1 : S1x64.BroadcastsInDim S253952x64 (![0, 1] : Fin 2 → Fin S253952x64.rank)
  bcast_S4000000x1_S4000000x50_0_1 : S4000000x1.BroadcastsInDim S4000000x50 (![0, 1] : Fin 2 → Fin S4000000x50.rank)
  bcast_S_S253952x50 : S_.BroadcastsInDim S253952x50 (![] : Fin 0 → Fin S253952x50.rank)
  bcast_S50_S1x50_1 : S50.BroadcastsInDim S1x50 (![1] : Fin 1 → Fin S1x50.rank)
  bcast_S1x50_S253952x50_0_1 : S1x50.BroadcastsInDim S253952x50 (![0, 1] : Fin 2 → Fin S253952x50.rank)
  bcast_S_S4096x50 : S_.BroadcastsInDim S4096x50 (![] : Fin 0 → Fin S4096x50.rank)
  bcast_S253952_S253952x1_0 : S253952.BroadcastsInDim S253952x1 (![0] : Fin 1 → Fin S253952x1.rank)
  bcast_S30_S1x30_1 : S30.BroadcastsInDim S1x30 (![1] : Fin 1 → Fin S1x30.rank)
  bcast_S1x30_S4096x30_0_1 : S1x30.BroadcastsInDim S4096x30 (![0, 1] : Fin 2 → Fin S4096x30.rank)
  bcast_S_S4096x30 : S_.BroadcastsInDim S4096x30 (![] : Fin 0 → Fin S4096x30.rank)
  bcast_S20_S1x20_1 : S20.BroadcastsInDim S1x20 (![1] : Fin 1 → Fin S1x20.rank)
  bcast_S1x20_S4096x20_0_1 : S1x20.BroadcastsInDim S4096x20 (![0, 1] : Fin 2 → Fin S4096x20.rank)
  bcast_S_S4096x20 : S_.BroadcastsInDim S4096x20 (![] : Fin 0 → Fin S4096x20.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  bcast_S_S4096x2 : S_.BroadcastsInDim S4096x2 (![] : Fin 0 → Fin S4096x2.rank)
  dot_S253952x6_S6x16_S253952x16_1_0_0_1_n_n_wf : DotDims.WF S253952x6 S6x16 S253952x16 [1] [0] [0] [1] [] []
  gather_S253952x16_S4000000x1_S4000000x16_1_0_n_n_0_1_116_wf : GatherDims.WF S253952x16 S4000000x1 S4000000x16 [1] [0] [] [0] [] 1 ![1, 16]
  scatter_S253952x16_S4000000x1_S4000000x16_1_0_0_1_wf : ScatterDims.WF S253952x16 S4000000x1 S4000000x16 [1] [0] [0] 1
  dot_S253952x16_S16x32_S253952x32_1_0_0_1_n_n_wf : DotDims.WF S253952x16 S16x32 S253952x32 [1] [0] [0] [1] [] []
  gather_S253952x32_S4000000x1_S4000000x32_1_0_n_n_0_1_132_wf : GatherDims.WF S253952x32 S4000000x1 S4000000x32 [1] [0] [] [0] [] 1 ![1, 32]
  scatter_S253952x32_S4000000x1_S4000000x32_1_0_0_1_wf : ScatterDims.WF S253952x32 S4000000x1 S4000000x32 [1] [0] [0] 1
  dot_S253952x32_S32x64_S253952x64_1_0_0_1_n_n_wf : DotDims.WF S253952x32 S32x64 S253952x64 [1] [0] [0] [1] [] []
  gather_S253952x64_S4000000x1_S4000000x64_1_0_n_n_0_1_164_wf : GatherDims.WF S253952x64 S4000000x1 S4000000x64 [1] [0] [] [0] [] 1 ![1, 64]
  scatter_S253952x64_S4000000x1_S4000000x64_1_0_0_1_wf : ScatterDims.WF S253952x64 S4000000x1 S4000000x64 [1] [0] [0] 1
  dot_S253952x64_S64x50_S253952x50_1_0_0_1_n_n_wf : DotDims.WF S253952x64 S64x50 S253952x50 [1] [0] [0] [1] [] []
  gather_S253952x50_S4000000x1_S4000000x50_1_0_n_n_0_1_150_wf : GatherDims.WF S253952x50 S4000000x1 S4000000x50 [1] [0] [] [0] [] 1 ![1, 50]
  scatter_S253952x50_S4000000x1_S4000000x50_1_0_0_1_wf : ScatterDims.WF S253952x50 S4000000x1 S4000000x50 [1] [0] [0] 1
  scatter_S4096x50_S253952x1_S253952x50_1_0_0_1_wf : ScatterDims.WF S4096x50 S253952x1 S253952x50 [1] [0] [0] 1
  dot_S4096x50_S50x30_S4096x30_1_0_0_1_n_n_wf : DotDims.WF S4096x50 S50x30 S4096x30 [1] [0] [0] [1] [] []
  dot_S4096x30_S30x20_S4096x20_1_0_0_1_n_n_wf : DotDims.WF S4096x30 S30x20 S4096x20 [1] [0] [0] [1] [] []
  dot_S4096x20_S20x2_S4096x2_1_0_0_1_n_n_wf : DotDims.WF S4096x20 S20x2 S4096x2 [1] [0] [0] [1] [] []

variable [Facts₀]

def dot_S253952x6_S6x16_S253952x16_1_0_0_1_n_n : DotDims S253952x6 S6x16 S253952x16 where
  lhsContracting := [1]
  rhsContracting := [0]
  lhsNonContracting := [0]
  rhsNonContracting := [1]
  lhsBatch := []
  rhsBatch := []
  wf := dot_S253952x6_S6x16_S253952x16_1_0_0_1_n_n_wf
def gather_S253952x16_S4000000x1_S4000000x16_1_0_n_n_0_1_116 : GatherDims S253952x16 S4000000x1 S4000000x16 where
  offsetDims := [1]
  collapsedSliceDims := [0]
  operandBatchingDims := []
  startIndicesBatchingDims := []
  startIndexMap := [0]
  indexVectorDim := 1
  sliceSizes := ![1, 16]
  wf := gather_S253952x16_S4000000x1_S4000000x16_1_0_n_n_0_1_116_wf
def scatter_S253952x16_S4000000x1_S4000000x16_1_0_0_1 : ScatterDims S253952x16 S4000000x1 S4000000x16 where
  updateWindowDims := [1]
  insertedWindowDims := [0]
  scatterDimsToOperandDims := [0]
  indexVectorDim := 1
  wf := scatter_S253952x16_S4000000x1_S4000000x16_1_0_0_1_wf
def dot_S253952x16_S16x32_S253952x32_1_0_0_1_n_n : DotDims S253952x16 S16x32 S253952x32 where
  lhsContracting := [1]
  rhsContracting := [0]
  lhsNonContracting := [0]
  rhsNonContracting := [1]
  lhsBatch := []
  rhsBatch := []
  wf := dot_S253952x16_S16x32_S253952x32_1_0_0_1_n_n_wf
def gather_S253952x32_S4000000x1_S4000000x32_1_0_n_n_0_1_132 : GatherDims S253952x32 S4000000x1 S4000000x32 where
  offsetDims := [1]
  collapsedSliceDims := [0]
  operandBatchingDims := []
  startIndicesBatchingDims := []
  startIndexMap := [0]
  indexVectorDim := 1
  sliceSizes := ![1, 32]
  wf := gather_S253952x32_S4000000x1_S4000000x32_1_0_n_n_0_1_132_wf
def scatter_S253952x32_S4000000x1_S4000000x32_1_0_0_1 : ScatterDims S253952x32 S4000000x1 S4000000x32 where
  updateWindowDims := [1]
  insertedWindowDims := [0]
  scatterDimsToOperandDims := [0]
  indexVectorDim := 1
  wf := scatter_S253952x32_S4000000x1_S4000000x32_1_0_0_1_wf
def dot_S253952x32_S32x64_S253952x64_1_0_0_1_n_n : DotDims S253952x32 S32x64 S253952x64 where
  lhsContracting := [1]
  rhsContracting := [0]
  lhsNonContracting := [0]
  rhsNonContracting := [1]
  lhsBatch := []
  rhsBatch := []
  wf := dot_S253952x32_S32x64_S253952x64_1_0_0_1_n_n_wf
def gather_S253952x64_S4000000x1_S4000000x64_1_0_n_n_0_1_164 : GatherDims S253952x64 S4000000x1 S4000000x64 where
  offsetDims := [1]
  collapsedSliceDims := [0]
  operandBatchingDims := []
  startIndicesBatchingDims := []
  startIndexMap := [0]
  indexVectorDim := 1
  sliceSizes := ![1, 64]
  wf := gather_S253952x64_S4000000x1_S4000000x64_1_0_n_n_0_1_164_wf
def scatter_S253952x64_S4000000x1_S4000000x64_1_0_0_1 : ScatterDims S253952x64 S4000000x1 S4000000x64 where
  updateWindowDims := [1]
  insertedWindowDims := [0]
  scatterDimsToOperandDims := [0]
  indexVectorDim := 1
  wf := scatter_S253952x64_S4000000x1_S4000000x64_1_0_0_1_wf
def dot_S253952x64_S64x50_S253952x50_1_0_0_1_n_n : DotDims S253952x64 S64x50 S253952x50 where
  lhsContracting := [1]
  rhsContracting := [0]
  lhsNonContracting := [0]
  rhsNonContracting := [1]
  lhsBatch := []
  rhsBatch := []
  wf := dot_S253952x64_S64x50_S253952x50_1_0_0_1_n_n_wf
def gather_S253952x50_S4000000x1_S4000000x50_1_0_n_n_0_1_150 : GatherDims S253952x50 S4000000x1 S4000000x50 where
  offsetDims := [1]
  collapsedSliceDims := [0]
  operandBatchingDims := []
  startIndicesBatchingDims := []
  startIndexMap := [0]
  indexVectorDim := 1
  sliceSizes := ![1, 50]
  wf := gather_S253952x50_S4000000x1_S4000000x50_1_0_n_n_0_1_150_wf
def scatter_S253952x50_S4000000x1_S4000000x50_1_0_0_1 : ScatterDims S253952x50 S4000000x1 S4000000x50 where
  updateWindowDims := [1]
  insertedWindowDims := [0]
  scatterDimsToOperandDims := [0]
  indexVectorDim := 1
  wf := scatter_S253952x50_S4000000x1_S4000000x50_1_0_0_1_wf
def scatter_S4096x50_S253952x1_S253952x50_1_0_0_1 : ScatterDims S4096x50 S253952x1 S253952x50 where
  updateWindowDims := [1]
  insertedWindowDims := [0]
  scatterDimsToOperandDims := [0]
  indexVectorDim := 1
  wf := scatter_S4096x50_S253952x1_S253952x50_1_0_0_1_wf
def dot_S4096x50_S50x30_S4096x30_1_0_0_1_n_n : DotDims S4096x50 S50x30 S4096x30 where
  lhsContracting := [1]
  rhsContracting := [0]
  lhsNonContracting := [0]
  rhsNonContracting := [1]
  lhsBatch := []
  rhsBatch := []
  wf := dot_S4096x50_S50x30_S4096x30_1_0_0_1_n_n_wf
def dot_S4096x30_S30x20_S4096x20_1_0_0_1_n_n : DotDims S4096x30 S30x20 S4096x20 where
  lhsContracting := [1]
  rhsContracting := [0]
  lhsNonContracting := [0]
  rhsNonContracting := [1]
  lhsBatch := []
  rhsBatch := []
  wf := dot_S4096x30_S30x20_S4096x20_1_0_0_1_n_n_wf
def dot_S4096x20_S20x2_S4096x2_1_0_0_1_n_n : DotDims S4096x20 S20x2 S4096x2 where
  lhsContracting := [1]
  rhsContracting := [0]
  lhsNonContracting := [0]
  rhsNonContracting := [1]
  lhsBatch := []
  rhsBatch := []
  wf := dot_S4096x20_S20x2_S4096x2_1_0_0_1_n_n_wf

class Facts : Prop extends Facts₀ where

variable [Facts]
-- ==== Proof.KRun.lean ====
/-
  The idealized kernel's run with its result kept.

  The program is six pipelined regions among stretches of host operations. Its buffers at each boundary are a fold
  from the launch memory: a stretch applies its host operations, a region replaces its own arrays by what its
  write-backs leave and keeps every other buffer. Every weakly fair execution ends with each unscoped buffer at the
  fold's last valuation; read at the result buffer this is the program's result, and read at an argument it is the
  argument as launched.
-/
import proofs.«105258_j23639499997343_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last valuation of the fold
    through the sixteen segments, and every argument ends as launched. -/
theorem run_result : θ_run defs (onTc (τ := τ) (main (F := F))) ⟨m, fun _ => 0, ρ⟩ (fun r => ∀ c : Dev nD,
      r.2.mem ((c.tc : Thread nD τ).loc main_v47) = W16 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v47 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c)⟩)

end Cert.KernelIdeal.RunValue

end
-- ==== Proof.KKeep.lean ====
/-
  The buffers the run never rewrites.

  No region and no host operation writes an argument, and after the first stretch (which cuts the edge list into
  its two rows) nothing writes the rows of source and destination nodes either. So at every boundary of the fold
  each of these buffers still holds what it held after the first stretch, and an argument what it held at launch.
  A stretch of host operations keeps a buffer none of its operations writes; a region keeps a buffer that is not
  one of its arrays, and an array it only reads.
-/
import proofs.«105258_j23639499997343_1_alg».proof.Proof.Gen.KernelIdeal.Frame

set_option maxRecDepth 16384

noncomputable section

namespace Cert.KernelIdeal.FoldValue

open Idealize.ShloMosaic Idealize.ShloMosaic.TcCoe Idealize.ShloMosaic.StableHlo
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg) (c : Dev nD)

/-- The eighteen argument buffers. -/
def args : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17]

/-- The arguments together with the rows of source and destination nodes. -/
def kept : List (Ref sig .tc) := args ++ [main_v1, main_v3]

/-- Split the membership in `args` into its eighteen cases. -/
local macro "args_cases" hb:ident : tactic => `(tactic| (
  simp only [args, List.mem_cons, List.not_mem_nil, or_false] at $hb:ident
  rcases $hb:ident with h | h | h | h | h | h | h | h | h | h | h | h | h | h | h | h | h | h <;> subst h))

/-- Split the membership in `kept` into its twenty cases. -/
local macro "kept_cases" hb:ident : tactic => `(tactic| (
  simp only [kept, args, List.mem_append, List.mem_cons, List.not_mem_nil, or_false] at $hb:ident
  rcases $hb:ident with (h | h | h | h | h | h | h | h | h | h | h | h | h | h | h | h | h | h) | (h | h) <;> subst h))

/-- None of a stretch's operations writes the buffer: the stretch keeps it. -/
local macro "stretch_keeps" : tactic => `(tactic| exact StableHlo.after_of_forall_not_mem _ _ (List.forall_iff_forall_mem.mp (by
  simp only [hostOps0, hostOps1, hostOps1_1, hostOps2, hostOps2_1, hostOps3, hostOps3_1, hostOps4, hostOps4_1, hostOps5,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## One boundary to the next -/

theorem keep1 (b : Ref sig .tc) (hb : b ∈ args) : W1 m ρ c (Proc.devRef .tc b) = m ((c : Thread nD τ).loc b) := by
  args_cases hb
  all_goals exact (show W1 m ρ c (Proc.devRef .tc _) = W0 m ρ c (Proc.devRef .tc _) by stretch_keeps)

theorem keep2 (b : Ref sig .tc) (hb : b ∈ kept) : W2 m ρ c (Proc.devRef .tc b) = W1 m ρ c (Proc.devRef .tc b) := by
  kept_cases hb
  all_goals first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))

theorem keep3 (b : Ref sig .tc) (hb : b ∈ kept) : W3 m ρ c (Proc.devRef .tc b) = W2 m ρ c (Proc.devRef .tc b) := by
  kept_cases hb
  all_goals stretch_keeps

theorem keep4 (b : Ref sig .tc) (hb : b ∈ kept) : W4 m ρ c (Proc.devRef .tc b) = W3 m ρ c (Proc.devRef .tc b) := by
  kept_cases hb
  all_goals stretch_keeps

theorem keep5 (b : Ref sig .tc) (hb : b ∈ kept) : W5 m ρ c (Proc.devRef .tc b) = W4 m ρ c (Proc.devRef .tc b) := by
  kept_cases hb
  all_goals first
    | exact W5_of_ne m ρ c _ (by decide)
    | exact (W5_arr m ρ c 2).trans (((dat1 (V4 m ρ) c).arrAt_in 2 rfl _).trans (A_eq1 (V4 m ρ) c 2))

theorem keep6 (b : Ref sig .tc) (hb : b ∈ kept) : W6 m ρ c (Proc.devRef .tc b) = W5 m ρ c (Proc.devRef .tc b) := by
  kept_cases hb
  all_goals stretch_keeps

theorem keep7 (b : Ref sig .tc) (hb : b ∈ kept) : W7 m ρ c (Proc.devRef .tc b) = W6 m ρ c (Proc.devRef .tc b) := by
  kept_cases hb
  all_goals stretch_keeps

theorem keep8 (b : Ref sig .tc) (hb : b ∈ kept) : W8 m ρ c (Proc.devRef .tc b) = W7 m ρ c (Proc.devRef .tc b) := by
  kept_cases hb
  all_goals first
    | exact W8_of_ne m ρ c _ (by decide)
    | exact (W8_arr m ρ c 2).trans (((dat2 (V7 m ρ) c).arrAt_in 2 rfl _).trans (A_eq2 (V7 m ρ) c 2))

theorem keep9 (b : Ref sig .tc) (hb : b ∈ kept) : W9 m ρ c (Proc.devRef .tc b) = W8 m ρ c (Proc.devRef .tc b) := by
  kept_cases hb
  all_goals stretch_keeps

theorem keep10 (b : Ref sig .tc) (hb : b ∈ kept) : W10 m ρ c (Proc.devRef .tc b) = W9 m ρ c (Proc.devRef .tc b) := by
  kept_cases hb
  all_goals stretch_keeps

theorem keep11 (b : Ref sig .tc) (hb : b ∈ kept) : W11 m ρ c (Proc.devRef .tc b) = W10 m ρ c (Proc.devRef .tc b) := by
  kept_cases hb
  all_goals first
    | exact W11_of_ne m ρ c _ (by decide)
    | exact (W11_arr m ρ c 2).trans (((dat3 (V10 m ρ) c).arrAt_in 2 rfl _).trans (A_eq3 (V10 m ρ) c 2))

theorem keep12 (b : Ref sig .tc) (hb : b ∈ kept) : W12 m ρ c (Proc.devRef .tc b) = W11 m ρ c (Proc.devRef .tc b) := by
  kept_cases hb
  all_goals stretch_keeps

theorem keep13 (b : Ref sig .tc) (hb : b ∈ kept) : W13 m ρ c (Proc.devRef .tc b) = W12 m ρ c (Proc.devRef .tc b) := by
  kept_cases hb
  all_goals stretch_keeps

theorem keep14 (b : Ref sig .tc) (hb : b ∈ kept) : W14 m ρ c (Proc.devRef .tc b) = W13 m ρ c (Proc.devRef .tc b) := by
  kept_cases hb
  all_goals exact W14_of_ne m ρ c _ (by decide)

theorem keep15 (b : Ref sig .tc) (hb : b ∈ kept) : W15 m ρ c (Proc.devRef .tc b) = W14 m ρ c (Proc.devRef .tc b) := by
  kept_cases hb
  all_goals stretch_keeps

/-! ## From any boundary back to the first stretch -/

theorem at2 (b : Ref sig .tc) (hb : b ∈ kept) : W2 m ρ c (Proc.devRef .tc b) = W1 m ρ c (Proc.devRef .tc b) := keep2 m ρ c b hb
theorem at3 (b : Ref sig .tc) (hb : b ∈ kept) : W3 m ρ c (Proc.devRef .tc b) = W1 m ρ c (Proc.devRef .tc b) := (keep3 m ρ c b hb).trans (at2 m ρ c b hb)
theorem at4 (b : Ref sig .tc) (hb : b ∈ kept) : W4 m ρ c (Proc.devRef .tc b) = W1 m ρ c (Proc.devRef .tc b) := (keep4 m ρ c b hb).trans (at3 m ρ c b hb)
theorem at5 (b : Ref sig .tc) (hb : b ∈ kept) : W5 m ρ c (Proc.devRef .tc b) = W1 m ρ c (Proc.devRef .tc b) := (keep5 m ρ c b hb).trans (at4 m ρ c b hb)
theorem at6 (b : Ref sig .tc) (hb : b ∈ kept) : W6 m ρ c (Proc.devRef .tc b) = W1 m ρ c (Proc.devRef .tc b) := (keep6 m ρ c b hb).trans (at5 m ρ c b hb)
theorem at7 (b : Ref sig .tc) (hb : b ∈ kept) : W7 m ρ c (Proc.devRef .tc b) = W1 m ρ c (Proc.devRef .tc b) := (keep7 m ρ c b hb).trans (at6 m ρ c b hb)
theorem at8 (b : Ref sig .tc) (hb : b ∈ kept) : W8 m ρ c (Proc.devRef .tc b) = W1 m ρ c (Proc.devRef .tc b) := (keep8 m ρ c b hb).trans (at7 m ρ c b hb)
theorem at9 (b : Ref sig .tc) (hb : b ∈ kept) : W9 m ρ c (Proc.devRef .tc b) = W1 m ρ c (Proc.devRef .tc b) := (keep9 m ρ c b hb).trans (at8 m ρ c b hb)
theorem at10 (b : Ref sig .tc) (hb : b ∈ kept) : W10 m ρ c (Proc.devRef .tc b) = W1 m ρ c (Proc.devRef .tc b) := (keep10 m ρ c b hb).trans (at9 m ρ c b hb)
theorem at11 (b : Ref sig .tc) (hb : b ∈ kept) : W11 m ρ c (Proc.devRef .tc b) = W1 m ρ c (Proc.devRef .tc b) := (keep11 m ρ c b hb).trans (at10 m ρ c b hb)
theorem at12 (b : Ref sig .tc) (hb : b ∈ kept) : W12 m ρ c (Proc.devRef .tc b) = W1 m ρ c (Proc.devRef .tc b) := (keep12 m ρ c b hb).trans (at11 m ρ c b hb)
theorem at13 (b : Ref sig .tc) (hb : b ∈ kept) : W13 m ρ c (Proc.devRef .tc b) = W1 m ρ c (Proc.devRef .tc b) := (keep13 m ρ c b hb).trans (at12 m ρ c b hb)
theorem at14 (b : Ref sig .tc) (hb : b ∈ kept) : W14 m ρ c (Proc.devRef .tc b) = W1 m ρ c (Proc.devRef .tc b) := (keep14 m ρ c b hb).trans (at13 m ρ c b hb)
theorem at15 (b : Ref sig .tc) (hb : b ∈ kept) : W15 m ρ c (Proc.devRef .tc b) = W1 m ρ c (Proc.devRef .tc b) := (keep15 m ρ c b hb).trans (at14 m ρ c b hb)

theorem args_sub_kept {b : Ref sig .tc} (hb : b ∈ args) : b ∈ kept := List.mem_append_left _ hb

end Cert.KernelIdeal.FoldValue

end
-- ==== Proof.KHost.lean ====
/-
  The host steps between the kernel's regions, as functions of arrays.

  Between two regions the program does the sparse half of a graph convolution on the host: it takes, for every
  edge, the row of the layer's product at the edge's source node (`take16` … `take50`: the source index is first
  wrapped by the row count where negative; a row whose wrapped index falls outside the array is filled with a fixed
  word instead of being gathered), scales the row by the edge's weight and adds it onto the row of the edge's
  destination node, starting from zeros (`agg16` … `agg50`). After the last region it adds every node's row onto
  the row of the node's graph (`pool`). Each stretch of host operations, run from ANY buffer contents `W`, leaves
  the buffer it writes at the corresponding function of the buffers it reads.
-/
import proofs.«105258_j23639499997343_1_alg».proof.Proof.Gen.KernelIdeal.Frame

set_option maxRecDepth 16384

noncomputable section

namespace Cert.KernelIdeal.HostValue

open Idealize.ShloMosaic Idealize.ShloMosaic.TcCoe Idealize.ShloMosaic.StableHlo
open Cert.KernelIdeal Cert.KernelIdeal.Gen

variable {F : FTy → Type} [FloatOps F]

/-- Row 0 of the edge list: every edge's source node. -/
def srcRow (e : IVec S2x4000000 32) : IVec S4000000 32 :=
  shapeCast S4000000 (extractStridedSlice S1x4000000 ![0, 0] e slices_S2x4000000_S1x4000000_0_0) shapeCasts_S1x4000000_S4000000

/-- Row 1 of the edge list: every edge's destination node. -/
def dstRow (e : IVec S2x4000000 32) : IVec S4000000 32 :=
  shapeCast S4000000 (extractStridedSlice S1x4000000 ![1, 0] e slices_S2x4000000_S1x4000000_1_0) shapeCasts_S1x4000000_S4000000

/-- The source indices as a column, a negative one wrapped by the number of rows. -/
def wrapCol (s : IVec S4000000 32) : IVec S4000000x1 32 :=
  broadcastInDim S4000000x1 ![0] bcast_S4000000_S4000000x1_0
    (select (cmpi .slt s (broadcastInDim S4000000 ![] bcast_S_S4000000 (constantI S_ 32 0#32)))
      (addi s (broadcastInDim S4000000 ![] bcast_S_S4000000 (constantI S_ 32 253952#32))) s)

/-- Per edge: does the wrapped source index lie among the rows, 0 ≤ index ≤ 253951? -/
def inRows (idx : IVec S4000000x1 32) : IVec S4000000 1 :=
  Host.reduce IntOp.andi
    (andi (cmpi .sge idx (broadcastInDim S4000000x1 ![] bcast_S_S4000000x1 (constantI S_ 32 0#32)))
      (cmpi .sle idx (broadcastInDim S4000000x1 ![0, 1] bcast_S1x1_S4000000x1_0_1
        (broadcastInDim S1x1 ![1] bcast_S1_S1x1_1 (constantI S1 32 253951#32)))))
    (constantI S_ 1 1#1) reducesTo_S4000000x1_S4000000_d1 h_S_

/-- The rows of a 16-column array at the edges' source nodes; a row whose index is out of range is the fill word. -/
def take16 (h : FVec F S253952x16 .f32) (s : IVec S4000000 32) : FVec F S4000000x16 .f32 :=
  select (broadcastInDim S4000000x16 ![0] bcast_S4000000_S4000000x16_0 (inRows (wrapCol s)))
    (Host.gather gather_S253952x16_S4000000x1_S4000000x16_1_0_n_n_0_1_116 h (wrapCol s))
    (broadcastInDim S4000000x16 ![] bcast_S_S4000000x16 (constant S_ .f32 0x7FC00000#32))

/-- Each edge's row scaled by the edge's weight and added onto its destination node's row, from zeros. -/
def agg16 (t : FVec F S4000000x16 .f32) (d : IVec S4000000 32) (e : FVec F S4000000 .f32) : FVec F S253952x16 .f32 :=
  Host.scatterAdd scatter_S253952x16_S4000000x1_S4000000x16_1_0_0_1
    (broadcastInDim S253952x16 ![] bcast_S_S253952x16 (constant S_ .f32 0x00000000#32))
    (broadcastInDim S4000000x1 ![0] bcast_S4000000_S4000000x1_0 d)
    (mulf t (broadcastInDim S4000000x16 ![0, 1] bcast_S4000000x1_S4000000x16_0_1
      (broadcastInDim S4000000x1 ![0] bcast_S4000000_S4000000x1_0 e)))

/-- The same for a 32-column array. -/
def take32 (h : FVec F S253952x32 .f32) (s : IVec S4000000 32) : FVec F S4000000x32 .f32 :=
  select (broadcastInDim S4000000x32 ![0] bcast_S4000000_S4000000x32_0 (inRows (wrapCol s)))
    (Host.gather gather_S253952x32_S4000000x1_S4000000x32_1_0_n_n_0_1_132 h (wrapCol s))
    (broadcastInDim S4000000x32 ![] bcast_S_S4000000x32 (constant S_ .f32 0x7FC00000#32))

def agg32 (t : FVec F S4000000x32 .f32) (d : IVec S4000000 32) (e : FVec F S4000000 .f32) : FVec F S253952x32 .f32 :=
  Host.scatterAdd scatter_S253952x32_S4000000x1_S4000000x32_1_0_0_1
    (broadcastInDim S253952x32 ![] bcast_S_S253952x32 (constant S_ .f32 0x00000000#32))
    (broadcastInDim S4000000x1 ![0] bcast_S4000000_S4000000x1_0 d)
    (mulf t (broadcastInDim S4000000x32 ![0, 1] bcast_S4000000x1_S4000000x32_0_1
      (broadcastInDim S4000000x1 ![0] bcast_S4000000_S4000000x1_0 e)))

/-- The same for a 64-column array. -/
def take64 (h : FVec F S253952x64 .f32) (s : IVec S4000000 32) : FVec F S4000000x64 .f32 :=
  select (broadcastInDim S4000000x64 ![0] bcast_S4000000_S4000000x64_0 (inRows (wrapCol s)))
    (Host.gather gather_S253952x64_S4000000x1_S4000000x64_1_0_n_n_0_1_164 h (wrapCol s))
    (broadcastInDim S4000000x64 ![] bcast_S_S4000000x64 (constant S_ .f32 0x7FC00000#32))

def agg64 (t : FVec F S4000000x64 .f32) (d : IVec S4000000 32) (e : FVec F S4000000 .f32) : FVec F S253952x64 .f32 :=
  Host.scatterAdd scatter_S253952x64_S4000000x1_S4000000x64_1_0_0_1
    (broadcastInDim S253952x64 ![] bcast_S_S253952x64 (constant S_ .f32 0x00000000#32))
    (broadcastInDim S4000000x1 ![0] bcast_S4000000_S4000000x1_0 d)
    (mulf t (broadcastInDim S4000000x64 ![0, 1] bcast_S4000000x1_S4000000x64_0_1
      (broadcastInDim S4000000x1 ![0] bcast_S4000000_S4000000x1_0 e)))

/-- The same for a 50-column array. -/
def take50 (h : FVec F S253952x50 .f32) (s : IVec S4000000 32) : FVec F S4000000x50 .f32 :=
  select (broadcastInDim S4000000x50 ![0] bcast_S4000000_S4000000x50_0 (inRows (wrapCol s)))
    (Host.gather gather_S253952x50_S4000000x1_S4000000x50_1_0_n_n_0_1_150 h (wrapCol s))
    (broadcastInDim S4000000x50 ![] bcast_S_S4000000x50 (constant S_ .f32 0x7FC00000#32))

def agg50 (t : FVec F S4000000x50 .f32) (d : IVec S4000000 32) (e : FVec F S4000000 .f32) : FVec F S253952x50 .f32 :=
  Host.scatterAdd scatter_S253952x50_S4000000x1_S4000000x50_1_0_0_1
    (broadcastInDim S253952x50 ![] bcast_S_S253952x50 (constant S_ .f32 0x00000000#32))
    (broadcastInDim S4000000x1 ![0] bcast_S4000000_S4000000x1_0 d)
    (mulf t (broadcastInDim S4000000x50 ![0, 1] bcast_S4000000x1_S4000000x50_0_1
      (broadcastInDim S4000000x1 ![0] bcast_S4000000_S4000000x1_0 e)))

/-- Every node's row added onto the row of the node's graph, from zeros. -/
def pool (h : FVec F S253952x50 .f32) (b : IVec S253952 32) : FVec F S4096x50 .f32 :=
  Host.scatterAdd scatter_S4096x50_S253952x1_S253952x50_1_0_0_1
    (broadcastInDim S4096x50 ![] bcast_S_S4096x50 (constant S_ .f32 0x00000000#32))
    (broadcastInDim S253952x1 ![0] bcast_S253952_S253952x1_0 b) h

variable (W : Valuation τ sig (Elt F))

/-! ## What each stretch leaves in the buffers it writes -/

/-- A list of operations run in three consecutive parts. -/
theorem after_split3 (l : List (HloOp τ sig (Elt F))) (a b : Nat) (V : Valuation τ sig (Elt F)) :
    StableHlo.after l V = StableHlo.after ((l.drop a).drop b) (StableHlo.after ((l.drop a).take b) (StableHlo.after (l.take a) V)) := by
  conv_lhs => rw [← List.take_append_drop a l, StableHlo.after_append, ← List.take_append_drop b (l.drop a), StableHlo.after_append]

/-- None of the listed operations writes the buffer, so running them keeps it. -/
local macro "part_keeps" : tactic => `(tactic| (
  dsimp only [hostOps1, hostOps2, hostOps3, hostOps4, List.take, List.drop]
  exact StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))))

theorem src_after : StableHlo.after (hostOps0 (F := F)) W (Proc.devRef .tc main_v1) = srcRow (W (Proc.devRef .tc main_arg1)) := by
  after_results; rfl

theorem dst_after : StableHlo.after (hostOps0 (F := F)) W (Proc.devRef .tc main_v3) = dstRow (W (Proc.devRef .tc main_arg1)) := by
  after_results; rfl

/-! The row lookup's stretch in three parts: the first eight operations build the wrapped index column, the next ten the
    range mask of that column, the last five gather the rows and select between them and the fill word. -/

theorem col16 : StableHlo.after ((hostOps1 (F := F)).take 8) W (Proc.devRef .tc main_call0_v5) = wrapCol (W (Proc.devRef .tc main_v1)) := by
  dsimp only [hostOps1, List.take]
  after_results; exact rfl

theorem mask16 : StableHlo.after (((hostOps1 (F := F)).drop 8).take 10) W (Proc.devRef .tc main_call0_v12)
    = inRows (W (Proc.devRef .tc main_call0_v5)) := by
  dsimp only [hostOps1, List.take, List.drop]
  after_results
  unfold inRows
  simp only [StableHlo.TRef.toBuf, StableHlo.TRef.ofBuf, cast_cast, cast_eq]

theorem sel16 : StableHlo.after (((hostOps1 (F := F)).drop 8).drop 10) W (Proc.devRef .tc main_v5)
    = select (broadcastInDim S4000000x16 ![0] bcast_S4000000_S4000000x16_0 (W (Proc.devRef .tc main_call0_v12)))
        (Host.gather gather_S253952x16_S4000000x1_S4000000x16_1_0_n_n_0_1_116 (W (Proc.devRef .tc main_v4)) (W (Proc.devRef .tc main_call0_v5)))
        (broadcastInDim S4000000x16 ![] bcast_S_S4000000x16 (constant S_ .f32 0x7FC00000#32)) := by
  dsimp only [hostOps1, List.drop]
  after_results; exact rfl

theorem keepB16_col : StableHlo.after (((hostOps1 (F := F)).drop 8).take 10) W (Proc.devRef .tc main_call0_v5) = W (Proc.devRef .tc main_call0_v5) := by
  part_keeps
theorem keepB16_h : StableHlo.after (((hostOps1 (F := F)).drop 8).take 10) W (Proc.devRef .tc main_v4) = W (Proc.devRef .tc main_v4) := by
  part_keeps
theorem keepA16_h : StableHlo.after ((hostOps1 (F := F)).take 8) W (Proc.devRef .tc main_v4) = W (Proc.devRef .tc main_v4) := by
  part_keeps

theorem take16_after : StableHlo.after (hostOps1 (F := F)) W (Proc.devRef .tc main_v5)
    = take16 (W (Proc.devRef .tc main_v4)) (W (Proc.devRef .tc main_v1)) := by
  rw [after_split3 (hostOps1 (F := F)) 8 10 W, sel16, mask16, keepB16_col, col16, keepB16_h, keepA16_h]
  rfl

theorem agg16_after : StableHlo.after (hostOps1_1 (F := F)) W (Proc.devRef .tc main_v11)
    = agg16 (W (Proc.devRef .tc main_v5)) (W (Proc.devRef .tc main_v3)) (W (Proc.devRef .tc main_arg2)) := by
  after_results; rfl

theorem row16_after : StableHlo.after (hostOps1_1 (F := F)) W (Proc.devRef .tc main_v12)
    = shapeCast S1x16 (W (Proc.devRef .tc main_arg5)) shapeCasts_S16_S1x16 := by
  after_results; rfl

theorem col32 : StableHlo.after ((hostOps2 (F := F)).take 8) W (Proc.devRef .tc main_call1_v5) = wrapCol (W (Proc.devRef .tc main_v1)) := by
  dsimp only [hostOps2, List.take]
  after_results; exact rfl

theorem mask32 : StableHlo.after (((hostOps2 (F := F)).drop 8).take 10) W (Proc.devRef .tc main_call1_v12)
    = inRows (W (Proc.devRef .tc main_call1_v5)) := by
  dsimp only [hostOps2, List.take, List.drop]
  after_results
  unfold inRows
  simp only [StableHlo.TRef.toBuf, StableHlo.TRef.ofBuf, cast_cast, cast_eq]

theorem sel32 : StableHlo.after (((hostOps2 (F := F)).drop 8).drop 10) W (Proc.devRef .tc main_v14)
    = select (broadcastInDim S4000000x32 ![0] bcast_S4000000_S4000000x32_0 (W (Proc.devRef .tc main_call1_v12)))
        (Host.gather gather_S253952x32_S4000000x1_S4000000x32_1_0_n_n_0_1_132 (W (Proc.devRef .tc main_v13)) (W (Proc.devRef .tc main_call1_v5)))
        (broadcastInDim S4000000x32 ![] bcast_S_S4000000x32 (constant S_ .f32 0x7FC00000#32)) := by
  dsimp only [hostOps2, List.drop]
  after_results; exact rfl

theorem keepB32_col : StableHlo.after (((hostOps2 (F := F)).drop 8).take 10) W (Proc.devRef .tc main_call1_v5) = W (Proc.devRef .tc main_call1_v5) := by
  part_keeps
theorem keepB32_h : StableHlo.after (((hostOps2 (F := F)).drop 8).take 10) W (Proc.devRef .tc main_v13) = W (Proc.devRef .tc main_v13) := by
  part_keeps
theorem keepA32_h : StableHlo.after ((hostOps2 (F := F)).take 8) W (Proc.devRef .tc main_v13) = W (Proc.devRef .tc main_v13) := by
  part_keeps

theorem take32_after : StableHlo.after (hostOps2 (F := F)) W (Proc.devRef .tc main_v14)
    = take32 (W (Proc.devRef .tc main_v13)) (W (Proc.devRef .tc main_v1)) := by
  rw [after_split3 (hostOps2 (F := F)) 8 10 W, sel32, mask32, keepB32_col, col32, keepB32_h, keepA32_h]
  rfl

theorem agg32_after : StableHlo.after (hostOps2_1 (F := F)) W (Proc.devRef .tc main_v20)
    = agg32 (W (Proc.devRef .tc main_v14)) (W (Proc.devRef .tc main_v3)) (W (Proc.devRef .tc main_arg2)) := by
  after_results; rfl

theorem row32_after : StableHlo.after (hostOps2_1 (F := F)) W (Proc.devRef .tc main_v21)
    = shapeCast S1x32 (W (Proc.devRef .tc main_arg7)) shapeCasts_S32_S1x32 := by
  after_results; rfl

theorem col64 : StableHlo.after ((hostOps3 (F := F)).take 8) W (Proc.devRef .tc main_call2_v5) = wrapCol (W (Proc.devRef .tc main_v1)) := by
  dsimp only [hostOps3, List.take]
  after_results; exact rfl

theorem mask64 : StableHlo.after (((hostOps3 (F := F)).drop 8).take 10) W (Proc.devRef .tc main_call2_v12)
    = inRows (W (Proc.devRef .tc main_call2_v5)) := by
  dsimp only [hostOps3, List.take, List.drop]
  after_results
  unfold inRows
  simp only [StableHlo.TRef.toBuf, StableHlo.TRef.ofBuf, cast_cast, cast_eq]

theorem sel64 : StableHlo.after (((hostOps3 (F := F)).drop 8).drop 10) W (Proc.devRef .tc main_v23)
    = select (broadcastInDim S4000000x64 ![0] bcast_S4000000_S4000000x64_0 (W (Proc.devRef .tc main_call2_v12)))
        (Host.gather gather_S253952x64_S4000000x1_S4000000x64_1_0_n_n_0_1_164 (W (Proc.devRef .tc main_v22)) (W (Proc.devRef .tc main_call2_v5)))
        (broadcastInDim S4000000x64 ![] bcast_S_S4000000x64 (constant S_ .f32 0x7FC00000#32)) := by
  dsimp only [hostOps3, List.drop]
  after_results; exact rfl

theorem keepB64_col : StableHlo.after (((hostOps3 (F := F)).drop 8).take 10) W (Proc.devRef .tc main_call2_v5) = W (Proc.devRef .tc main_call2_v5) := by
  part_keeps
theorem keepB64_h : StableHlo.after (((hostOps3 (F := F)).drop 8).take 10) W (Proc.devRef .tc main_v22) = W (Proc.devRef .tc main_v22) := by
  part_keeps
theorem keepA64_h : StableHlo.after ((hostOps3 (F := F)).take 8) W (Proc.devRef .tc main_v22) = W (Proc.devRef .tc main_v22) := by
  part_keeps

theorem take64_after : StableHlo.after (hostOps3 (F := F)) W (Proc.devRef .tc main_v23)
    = take64 (W (Proc.devRef .tc main_v22)) (W (Proc.devRef .tc main_v1)) := by
  rw [after_split3 (hostOps3 (F := F)) 8 10 W, sel64, mask64, keepB64_col, col64, keepB64_h, keepA64_h]
  rfl

theorem agg64_after : StableHlo.after (hostOps3_1 (F := F)) W (Proc.devRef .tc main_v29)
    = agg64 (W (Proc.devRef .tc main_v23)) (W (Proc.devRef .tc main_v3)) (W (Proc.devRef .tc main_arg2)) := by
  after_results; rfl

theorem row64_after : StableHlo.after (hostOps3_1 (F := F)) W (Proc.devRef .tc main_v30)
    = shapeCast S1x64 (W (Proc.devRef .tc main_arg9)) shapeCasts_S64_S1x64 := by
  after_results; rfl

theorem col50 : StableHlo.after ((hostOps4 (F := F)).take 8) W (Proc.devRef .tc main_call3_v5) = wrapCol (W (Proc.devRef .tc main_v1)) := by
  dsimp only [hostOps4, List.take]
  after_results; exact rfl

theorem mask50 : StableHlo.after (((hostOps4 (F := F)).drop 8).take 10) W (Proc.devRef .tc main_call3_v12)
    = inRows (W (Proc.devRef .tc main_call3_v5)) := by
  dsimp only [hostOps4, List.take, List.drop]
  after_results
  unfold inRows
  simp only [StableHlo.TRef.toBuf, StableHlo.TRef.ofBuf, cast_cast, cast_eq]

theorem sel50 : StableHlo.after (((hostOps4 (F := F)).drop 8).drop 10) W (Proc.devRef .tc main_v32)
    = select (broadcastInDim S4000000x50 ![0] bcast_S4000000_S4000000x50_0 (W (Proc.devRef .tc main_call3_v12)))
        (Host.gather gather_S253952x50_S4000000x1_S4000000x50_1_0_n_n_0_1_150 (W (Proc.devRef .tc main_v31)) (W (Proc.devRef .tc main_call3_v5)))
        (broadcastInDim S4000000x50 ![] bcast_S_S4000000x50 (constant S_ .f32 0x7FC00000#32)) := by
  dsimp only [hostOps4, List.drop]
  after_results; exact rfl

theorem keepB50_col : StableHlo.after (((hostOps4 (F := F)).drop 8).take 10) W (Proc.devRef .tc main_call3_v5) = W (Proc.devRef .tc main_call3_v5) := by
  part_keeps
theorem keepB50_h : StableHlo.after (((hostOps4 (F := F)).drop 8).take 10) W (Proc.devRef .tc main_v31) = W (Proc.devRef .tc main_v31) := by
  part_keeps
theorem keepA50_h : StableHlo.after ((hostOps4 (F := F)).take 8) W (Proc.devRef .tc main_v31) = W (Proc.devRef .tc main_v31) := by
  part_keeps

theorem take50_after : StableHlo.after (hostOps4 (F := F)) W (Proc.devRef .tc main_v32)
    = take50 (W (Proc.devRef .tc main_v31)) (W (Proc.devRef .tc main_v1)) := by
  rw [after_split3 (hostOps4 (F := F)) 8 10 W, sel50, mask50, keepB50_col, col50, keepB50_h, keepA50_h]
  rfl

theorem agg50_after : StableHlo.after (hostOps4_1 (F := F)) W (Proc.devRef .tc main_v38)
    = agg50 (W (Proc.devRef .tc main_v32)) (W (Proc.devRef .tc main_v3)) (W (Proc.devRef .tc main_arg2)) := by
  after_results; rfl

theorem row50_after : StableHlo.after (hostOps4_1 (F := F)) W (Proc.devRef .tc main_v39)
    = shapeCast S1x50 (W (Proc.devRef .tc main_arg11)) shapeCasts_S50_S1x50 := by
  after_results; rfl

theorem pool_after : StableHlo.after (hostOps5 (F := F)) W (Proc.devRef .tc main_v43)
    = pool (W (Proc.devRef .tc main_v40)) (W (Proc.devRef .tc main_arg3)) := by
  after_results; rfl

theorem row30_after : StableHlo.after (hostOps5 (F := F)) W (Proc.devRef .tc main_v44)
    = shapeCast S1x30 (W (Proc.devRef .tc main_arg13)) shapeCasts_S30_S1x30 := by
  after_results; rfl

theorem row20_after : StableHlo.after (hostOps5 (F := F)) W (Proc.devRef .tc main_v45)
    = shapeCast S1x20 (W (Proc.devRef .tc main_arg15)) shapeCasts_S20_S1x20 := by
  after_results; rfl

theorem row2_after : StableHlo.after (hostOps5 (F := F)) W (Proc.devRef .tc main_v46)
    = shapeCast S1x2 (W (Proc.devRef .tc main_arg17)) shapeCasts_S2_S1x2 := by
  after_results; rfl

end Cert.KernelIdeal.HostValue

end
-- ==== Proof.Net.lean ====
/-
  The dense stages of the graph network, as functions on arrays of extended reals.

  A matrix is a function of a rank-2 index. The three stage formers below are what both programs compute between
  their sparse steps, index by index:
  * `lin h W` is the matrix product: entry (r, c) is the sum over k of h (r, k) * W (k, c);
  * `addRow g β` adds the one-row matrix β to every row of g;
  * `actM g` applies the leaky activation entrywise: x where x is at least zero, slope * x elsewhere.
  The zero and the slope are kept as the float words the programs carry (the same two words on both sides, so
  neither is ever evaluated).
-/
import Idealize.ShloMosaic.PureOps.Ideal
import Idealize.ShloMosaic.Lib.ValueIdx

noncomputable section

namespace Cert.Net

open Idealize.ShloMosaic Idealize.ShloMosaic.ValueIdx

/-- An n-by-a matrix of extended reals. -/
abbrev Mat (n a : Nat) := (⟨2, ![n, a]⟩ : Shape).Idx → EReal

/-- The word of the activation's threshold, zero. -/
abbrev zeroW : EReal := Ideal.ofBits .f32 0x00000000#32
/-- The word of the activation's slope on the negative side. -/
abbrev slopeW : EReal := Ideal.ofBits .f32 0x3C23D70A#32

/-- The leaky activation of one entry: x itself where zero ≤ x, slope * x elsewhere. -/
def act (x : EReal) : EReal := Scalar.select (Ideal.cmp .oge x zeroW) x (slopeW * x)

/-- The matrix product, entry by entry. -/
def lin {n a b : Nat} (h : Mat n a) (W : Mat a b) : Mat n b :=
  fun i => ∑ k : Fin a, h (ix2 (i 0) k) * W (ix2 k (i 1))

/-- A one-row matrix added to every row. -/
def addRow {n a : Nat} (g : Mat n a) (β : Mat 1 a) : Mat n a :=
  fun i => g i + β (ix2 0 (i 1))

/-- The activation applied to every entry. -/
def actM {n a : Nat} (g : Mat n a) : Mat n a := fun i => act (g i)

/-- A row of a product depends only on the same row of the left factor. -/
theorem lin_row {n n' a b : Nat} (h : Mat n a) (h' : Mat n' a) (W : Mat a b) (i : (⟨2, ![n, b]⟩ : Shape).Idx)
    (i' : (⟨2, ![n', b]⟩ : Shape).Idx) (hc : (i 1).val = (i' 1).val)
    (hrow : ∀ k : Fin a, h (ix2 (i 0) k) = h' (ix2 (i' 0) k)) : lin h W i = lin h' W i' := by
  unfold lin
  have e : i 1 = i' 1 := Fin.ext hc
  refine Finset.sum_congr rfl fun k _ => ?_
  rw [hrow k, e]

end Cert.Net

end
-- ==== Proof.KNet.lean ====
/-
  The kernel program's result as one function of its eighteen arguments.

  Four convolution layers, each "product, then neighbour sum": the layer's matrix product is computed first
  (`Net.lin`), its rows are then taken at the edges' source nodes, scaled by the edge weights and added at the
  destination nodes (`take` then `agg`); the bias row and the leaky activation of a layer are applied on the way
  into the next layer's product. After the fourth neighbour sum come the bias, the activation twice, the sum of
  the node rows per graph (`pool`), and three dense layers (product, bias row, activation).
-/
import proofs.«105258_j23639499997343_1_alg».proof.Proof.KHost
import proofs.«105258_j23639499997343_1_alg».proof.Proof.Net

set_option maxRecDepth 16384

noncomputable section

namespace Cert.KernelIdeal.HostValue

open Idealize.ShloMosaic Idealize.ShloMosaic.TcCoe
open Cert.KernelIdeal Cert.KernelIdeal.Gen

/-- A bias vector as a one-row matrix. -/
abbrev row16 (b : FVec Ideal S16 .f32) : FVec Ideal S1x16 .f32 := shapeCast S1x16 b shapeCasts_S16_S1x16
abbrev row32 (b : FVec Ideal S32 .f32) : FVec Ideal S1x32 .f32 := shapeCast S1x32 b shapeCasts_S32_S1x32
abbrev row64 (b : FVec Ideal S64 .f32) : FVec Ideal S1x64 .f32 := shapeCast S1x64 b shapeCasts_S64_S1x64
abbrev row50 (b : FVec Ideal S50 .f32) : FVec Ideal S1x50 .f32 := shapeCast S1x50 b shapeCasts_S50_S1x50
abbrev row30 (b : FVec Ideal S30 .f32) : FVec Ideal S1x30 .f32 := shapeCast S1x30 b shapeCasts_S30_S1x30
abbrev row20 (b : FVec Ideal S20 .f32) : FVec Ideal S1x20 .f32 := shapeCast S1x20 b shapeCasts_S20_S1x20
abbrev row2 (b : FVec Ideal S2 .f32) : FVec Ideal S1x2 .f32 := shapeCast S1x2 b shapeCasts_S2_S1x2

/-- The first layer's product. -/
def p1 (a0 : FVec Ideal S253952x6 .f32) (a4 : FVec Ideal S6x16 .f32) : FVec Ideal S253952x16 .f32 := Net.lin a0 a4

/-- The first neighbour sum. -/
def g1 (a0 : FVec Ideal S253952x6 .f32) (a1 : IVec S2x4000000 32) (a2 : FVec Ideal S4000000 .f32) (a4 : FVec Ideal S6x16 .f32) :
    FVec Ideal S253952x16 .f32 :=
  agg16 (take16 (p1 a0 a4) (srcRow a1)) (dstRow a1) a2

/-- Bias row, activation and product of a later layer, from the previous neighbour sum. -/
def p2 (g : FVec Ideal S253952x16 .f32) (b : FVec Ideal S16 .f32) (w : FVec Ideal S16x32 .f32) : FVec Ideal S253952x32 .f32 :=
  Net.lin (Net.actM (Net.addRow g (row16 b))) w
def p3 (g : FVec Ideal S253952x32 .f32) (b : FVec Ideal S32 .f32) (w : FVec Ideal S32x64 .f32) : FVec Ideal S253952x64 .f32 :=
  Net.lin (Net.actM (Net.addRow g (row32 b))) w
def p4 (g : FVec Ideal S253952x64 .f32) (b : FVec Ideal S64 .f32) (w : FVec Ideal S64x50 .f32) : FVec Ideal S253952x50 .f32 :=
  Net.lin (Net.actM (Net.addRow g (row64 b))) w

/-- The later neighbour sums. -/
def g2 (p : FVec Ideal S253952x32 .f32) (a1 : IVec S2x4000000 32) (a2 : FVec Ideal S4000000 .f32) : FVec Ideal S253952x32 .f32 :=
  agg32 (take32 p (srcRow a1)) (dstRow a1) a2
def g3 (p : FVec Ideal S253952x64 .f32) (a1 : IVec S2x4000000 32) (a2 : FVec Ideal S4000000 .f32) : FVec Ideal S253952x64 .f32 :=
  agg64 (take64 p (srcRow a1)) (dstRow a1) a2
def g4 (p : FVec Ideal S253952x50 .f32) (a1 : IVec S2x4000000 32) (a2 : FVec Ideal S4000000 .f32) : FVec Ideal S253952x50 .f32 :=
  agg50 (take50 p (srcRow a1)) (dstRow a1) a2

/-- The node features: the last bias row, then the activation twice. -/
def nodes (g : FVec Ideal S253952x50 .f32) (b : FVec Ideal S50 .f32) : FVec Ideal S253952x50 .f32 :=
  Net.actM (Net.actM (Net.addRow g (row50 b)))

/-- The head: three dense layers on the pooled rows. -/
def head (q : FVec Ideal S4096x50 .f32) (a12 : FVec Ideal S50x30 .f32) (a13 : FVec Ideal S30 .f32)
    (a14 : FVec Ideal S30x20 .f32) (a15 : FVec Ideal S20 .f32) (a16 : FVec Ideal S20x2 .f32) (a17 : FVec Ideal S2 .f32) :
    FVec Ideal S4096x2 .f32 :=
  Net.actM (Net.addRow (Net.lin (Net.actM (Net.addRow (Net.lin (Net.actM (Net.addRow (Net.lin q a12) (row30 a13))) a14)
    (row20 a15))) a16) (row2 a17))

/-- The whole program. -/
def net (a0 : FVec Ideal S253952x6 .f32) (a1 : IVec S2x4000000 32) (a2 : FVec Ideal S4000000 .f32) (a3 : IVec S253952 32)
    (a4 : FVec Ideal S6x16 .f32) (a5 : FVec Ideal S16 .f32) (a6 : FVec Ideal S16x32 .f32) (a7 : FVec Ideal S32 .f32)
    (a8 : FVec Ideal S32x64 .f32) (a9 : FVec Ideal S64 .f32) (a10 : FVec Ideal S64x50 .f32) (a11 : FVec Ideal S50 .f32)
    (a12 : FVec Ideal S50x30 .f32) (a13 : FVec Ideal S30 .f32) (a14 : FVec Ideal S30x20 .f32) (a15 : FVec Ideal S20 .f32)
    (a16 : FVec Ideal S20x2 .f32) (a17 : FVec Ideal S2 .f32) : FVec Ideal S4096x2 .f32 :=
  head (pool (nodes (g4 (p4 (g3 (p3 (g2 (p2 (g1 a0 a1 a2 a4) a5 a6) a1 a2) a7 a8) a1 a2) a9 a10) a1 a2) a11) a3)
    a12 a13 a14 a15 a16 a17

end Cert.KernelIdeal.HostValue

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.KRegionLib.lean ====
/-
  The dense stages of the six regions, on one block.

  Each region's body is a tree of elementwise operations and matrix products over the blocks it loads. At the ideal
  instance a change of float format is the identity and every elementwise operation is the textbook one, so each
  body is one of the stage formers of the network: a product, a bias row added to every row, the leaky activation.
  The lemmas here read those trees for any extents; the regions instantiate them. They also record that every stage
  is local to a row: a row of the result depends only on the same row of the row operand.
-/
import proofs.«105258_j23639499997343_1_alg».proof.Proof.Net
import proofs.«105258_j23639499997343_1_alg».proof.Proof.LibPlainDot
import Idealize.ShloMosaic.Lib.ValueLayout
import Idealize.ShloMosaic.Lib.Pipeline.Value

noncomputable section

namespace Cert.KernelIdeal.RegionValue

open Idealize.ShloMosaic Idealize.ShloMosaic.ValueIdx Cert

variable {n a b : ℕ}

/-- The leaky activation as the body spells it (compare against a zero splat, slope splat times x, select), followed
    by a change of float format, at an index: the activation of the entry. -/
theorem actVec_apply {s : Shape} (A : FVec Ideal s .f32) (h : FTy.bf16.bits < FTy.f32.bits) (j : s.Idx) :
    (truncf .bf16 (select (cmpf .oge A (broadcast s (Scalar.ofBits (F := Ideal) .f32 0x00000000#32))) A
      (mulf (broadcast s (Scalar.ofBits (F := Ideal) .f32 0x3C23D70A#32)) A)) h : FVec Ideal s .bf16) j = Net.act (A j) := rfl

/-- The same without the change of format. -/
theorem actVec_apply' {s : Shape} (A : FVec Ideal s .f32) (j : s.Idx) :
    (select (cmpf .oge A (broadcast s (Scalar.ofBits (F := Ideal) .f32 0x00000000#32))) A
      (mulf (broadcast s (Scalar.ofBits (F := Ideal) .f32 0x3C23D70A#32)) A) : FVec Ideal s .f32) j = Net.act (A j) := rfl

/-- The bias row broadcast over the rows and added, at an index. -/
theorem biasAdd_apply (x0 : FVec Ideal ⟨2, ![n, a]⟩ .f32) (x1 : FVec Ideal ⟨2, ![1, a]⟩ .f32)
    (h0 : (⟨2, ![n, a]⟩ : Shape).ShapeCasts ⟨2, ![n, a]⟩) (h1 : (⟨2, ![1, a]⟩ : Shape).ShapeCasts ⟨2, ![1, a]⟩)
    (hb : (⟨2, ![1, a]⟩ : Shape).Broadcasts ⟨2, ![n, a]⟩) (p : Fin n) (k : Fin a) :
    addf (shapeCast ⟨2, ![n, a]⟩ x0 h0) (broadcastTo ⟨2, ![n, a]⟩ (shapeCast ⟨2, ![1, a]⟩ x1 h1) hb) (ix2 p k)
      = Net.addRow x0 x1 (ix2 p k) := by
  rw [shapeCast_self, shapeCast_self]
  show x0 (ix2 p k) + broadcastTo ⟨2, ![n, a]⟩ x1 hb (ix2 p k) = x0 (ix2 p k) + x1 (ix2 0 k)
  rw [broadcastTo_1b_ab_apply]

/-- A product of two blocks after a change of format, into a zero accumulator: the matrix product. -/
theorem linBlock (D : DotDims ⟨2, ![n, a]⟩ ⟨2, ![a, b]⟩ ⟨2, ![n, b]⟩) (hD : D = DotDims.plain n a b)
    (x0 : FVec Ideal ⟨2, ![n, a]⟩ .f32) (x2 : FVec Ideal ⟨2, ![a, b]⟩ .f32) (h : FTy.bf16.bits < FTy.f32.bits) :
    matmul D none (truncf .bf16 x0 h) (truncf .bf16 x2 h) (constant ⟨2, ![n, b]⟩ .f32 0x00000000#32)
      = Net.lin x0 x2 := by
  subst hD
  funext i
  exact Cert.Lib.PlainDot.matmul_zero_apply n a b none _ _ i

/-- Bias, activation, product: the body of the three inner layers. -/
theorem biasActLinBlock (D : DotDims ⟨2, ![n, a]⟩ ⟨2, ![a, b]⟩ ⟨2, ![n, b]⟩) (hD : D = DotDims.plain n a b)
    (x0 : FVec Ideal ⟨2, ![n, a]⟩ .f32) (x1 : FVec Ideal ⟨2, ![1, a]⟩ .f32) (x2 : FVec Ideal ⟨2, ![a, b]⟩ .f32)
    (h0 : (⟨2, ![n, a]⟩ : Shape).ShapeCasts ⟨2, ![n, a]⟩) (h1 : (⟨2, ![1, a]⟩ : Shape).ShapeCasts ⟨2, ![1, a]⟩)
    (hb : (⟨2, ![1, a]⟩ : Shape).Broadcasts ⟨2, ![n, a]⟩) (h : FTy.bf16.bits < FTy.f32.bits) :
    matmul D none
        (truncf .bf16
          (select
            (cmpf .oge (addf (shapeCast ⟨2, ![n, a]⟩ x0 h0) (broadcastTo ⟨2, ![n, a]⟩ (shapeCast ⟨2, ![1, a]⟩ x1 h1) hb))
              (broadcast ⟨2, ![n, a]⟩ (Scalar.ofBits (F := Ideal) .f32 0x00000000#32)))
            (addf (shapeCast ⟨2, ![n, a]⟩ x0 h0) (broadcastTo ⟨2, ![n, a]⟩ (shapeCast ⟨2, ![1, a]⟩ x1 h1) hb))
            (mulf (broadcast ⟨2, ![n, a]⟩ (Scalar.ofBits (F := Ideal) .f32 0x3C23D70A#32))
              (addf (shapeCast ⟨2, ![n, a]⟩ x0 h0) (broadcastTo ⟨2, ![n, a]⟩ (shapeCast ⟨2, ![1, a]⟩ x1 h1) hb))))
          h)
        (truncf .bf16 x2 h) (constant ⟨2, ![n, b]⟩ .f32 0x00000000#32)
      = Net.lin (Net.actM (Net.addRow x0 x1)) x2 := by
  subst hD
  funext i
  refine (Cert.Lib.PlainDot.matmul_zero_apply n a b none _ _ i).trans ?_
  unfold Net.lin
  refine Finset.sum_congr rfl fun k _ => ?_
  rw [actVec_apply]
  exact congrArg (fun z => Net.act z * x2 (ix2 k (i 1))) (biasAdd_apply x0 x1 h0 h1 hb (i 0) k)

/-- The two zero offsets, however spelt. -/
theorem hz : (![0, 0] : Fin 2 → Nat) = fun _ => 0 := funext fun a => by fin_cases a <;> rfl

variable {N : ℕ}

/-- The product is local to a row (with the weights allowed to be given twice). -/
theorem lin_local (A0 : Net.Mat N a) (B0 : Net.Mat n a) (W W' : Net.Mat a b)
    (j : (⟨2, ![n, b]⟩ : Shape).Idx) (i : (⟨2, ![N, b]⟩ : Shape).Idx) (hc : (j 1).val = (i 1).val) (hW : W' = W)
    (hrow : ∀ k : Fin a, B0 (ix2 (j 0) k) = A0 (ix2 (i 0) k)) :
    Net.lin B0 W' j = Net.lin A0 W i := by
  subst hW
  exact Net.lin_row B0 A0 W' j i hc hrow

/-- Bias, activation, product is local to a row. -/
theorem biasActLin_local (A0 : Net.Mat N a) (B0 : Net.Mat n a) (β β' : Net.Mat 1 a) (W W' : Net.Mat a b)
    (j : (⟨2, ![n, b]⟩ : Shape).Idx) (i : (⟨2, ![N, b]⟩ : Shape).Idx) (hc : (j 1).val = (i 1).val)
    (hβ : β' = β) (hW : W' = W) (hrow : ∀ k : Fin a, B0 (ix2 (j 0) k) = A0 (ix2 (i 0) k)) :
    Net.lin (Net.actM (Net.addRow B0 β')) W' j = Net.lin (Net.actM (Net.addRow A0 β)) W i := by
  subst hβ hW
  refine Net.lin_row _ _ W' j i hc fun k => ?_
  show Net.act (B0 (ix2 (j 0) k) + β' (ix2 0 k)) = Net.act (A0 (ix2 (i 0) k) + β' (ix2 0 k))
  rw [hrow k]

/-- The bias row broadcast over the rows and added to a computed matrix, at an index. -/
theorem biasAddM_apply (M : FVec Ideal ⟨2, ![n, a]⟩ .f32) (x1 : FVec Ideal ⟨2, ![1, a]⟩ .f32)
    (h1 : (⟨2, ![1, a]⟩ : Shape).ShapeCasts ⟨2, ![1, a]⟩)
    (hb : (⟨2, ![1, a]⟩ : Shape).Broadcasts ⟨2, ![n, a]⟩) (p : Fin n) (k : Fin a) :
    addf M (broadcastTo ⟨2, ![n, a]⟩ (shapeCast ⟨2, ![1, a]⟩ x1 h1) hb) (ix2 p k) = Net.addRow M x1 (ix2 p k) := by
  rw [shapeCast_self]
  show M (ix2 p k) + broadcastTo ⟨2, ![n, a]⟩ x1 hb (ix2 p k) = M (ix2 p k) + x1 (ix2 0 k)
  rw [broadcastTo_1b_ab_apply]

/-- The same as an equation of matrices. -/
theorem biasAddM (M : FVec Ideal ⟨2, ![n, a]⟩ .f32) (x1 : FVec Ideal ⟨2, ![1, a]⟩ .f32)
    (h1 : (⟨2, ![1, a]⟩ : Shape).ShapeCasts ⟨2, ![1, a]⟩)
    (hb : (⟨2, ![1, a]⟩ : Shape).Broadcasts ⟨2, ![n, a]⟩) :
    addf M (broadcastTo ⟨2, ![n, a]⟩ (shapeCast ⟨2, ![1, a]⟩ x1 h1) hb) = Net.addRow M x1 := by
  funext i
  exact (congrArg (addf M (broadcastTo ⟨2, ![n, a]⟩ (shapeCast ⟨2, ![1, a]⟩ x1 h1) hb)) (eq_ix2 i)).trans
    ((biasAddM_apply M x1 h1 hb (i 0) (i 1)).trans (congrArg (Net.addRow M x1) (eq_ix2 i).symm))

/-- The activation as the body spells it, as an equation of matrices. -/
theorem actVec {s : Shape} (A : FVec Ideal s .f32) :
    (select (cmpf .oge A (broadcast s (Scalar.ofBits (F := Ideal) .f32 0x00000000#32))) A
      (mulf (broadcast s (Scalar.ofBits (F := Ideal) .f32 0x3C23D70A#32)) A) : FVec Ideal s .f32) = fun j => Net.act (A j) := rfl

/-- Bias on a computed matrix, activation, product: an inner layer of the head. -/
theorem biasActLinBlockM (D : DotDims ⟨2, ![n, a]⟩ ⟨2, ![a, b]⟩ ⟨2, ![n, b]⟩) (hD : D = DotDims.plain n a b)
    (M : FVec Ideal ⟨2, ![n, a]⟩ .f32) (x1 : FVec Ideal ⟨2, ![1, a]⟩ .f32) (x2 : FVec Ideal ⟨2, ![a, b]⟩ .f32)
    (h1 : (⟨2, ![1, a]⟩ : Shape).ShapeCasts ⟨2, ![1, a]⟩)
    (hb : (⟨2, ![1, a]⟩ : Shape).Broadcasts ⟨2, ![n, a]⟩) (h : FTy.bf16.bits < FTy.f32.bits) :
    matmul D none
        (truncf .bf16
          (select
            (cmpf .oge (addf M (broadcastTo ⟨2, ![n, a]⟩ (shapeCast ⟨2, ![1, a]⟩ x1 h1) hb))
              (broadcast ⟨2, ![n, a]⟩ (Scalar.ofBits (F := Ideal) .f32 0x00000000#32)))
            (addf M (broadcastTo ⟨2, ![n, a]⟩ (shapeCast ⟨2, ![1, a]⟩ x1 h1) hb))
            (mulf (broadcast ⟨2, ![n, a]⟩ (Scalar.ofBits (F := Ideal) .f32 0x3C23D70A#32))
              (addf M (broadcastTo ⟨2, ![n, a]⟩ (shapeCast ⟨2, ![1, a]⟩ x1 h1) hb))))
          h)
        (truncf .bf16 x2 h) (constant ⟨2, ![n, b]⟩ .f32 0x00000000#32)
      = Net.lin (Net.actM (Net.addRow M x1)) x2 := by
  rw [biasAddM]
  subst hD
  funext i
  refine (Cert.Lib.PlainDot.matmul_zero_apply n a b none _ _ i).trans ?_
  rfl

/-- Bias, then the activation twice: the body of the last graph layer. -/
theorem biasActActBlock (x0 : FVec Ideal ⟨2, ![n, a]⟩ .f32) (x1 : FVec Ideal ⟨2, ![1, a]⟩ .f32)
    (h0 : (⟨2, ![n, a]⟩ : Shape).ShapeCasts ⟨2, ![n, a]⟩) (h1 : (⟨2, ![1, a]⟩ : Shape).ShapeCasts ⟨2, ![1, a]⟩)
    (hb : (⟨2, ![1, a]⟩ : Shape).Broadcasts ⟨2, ![n, a]⟩) :
    (select
        (cmpf .oge
          (select
            (cmpf .oge (addf (shapeCast ⟨2, ![n, a]⟩ x0 h0) (broadcastTo ⟨2, ![n, a]⟩ (shapeCast ⟨2, ![1, a]⟩ x1 h1) hb))
              (broadcast ⟨2, ![n, a]⟩ (Scalar.ofBits (F := Ideal) .f32 0x00000000#32)))
            (addf (shapeCast ⟨2, ![n, a]⟩ x0 h0) (broadcastTo ⟨2, ![n, a]⟩ (shapeCast ⟨2, ![1, a]⟩ x1 h1) hb))
            (mulf (broadcast ⟨2, ![n, a]⟩ (Scalar.ofBits (F := Ideal) .f32 0x3C23D70A#32))
              (addf (shapeCast ⟨2, ![n, a]⟩ x0 h0) (broadcastTo ⟨2, ![n, a]⟩ (shapeCast ⟨2, ![1, a]⟩ x1 h1) hb))))
          (broadcast ⟨2, ![n, a]⟩ (Scalar.ofBits (F := Ideal) .f32 0x00000000#32)))
        (select
          (cmpf .oge (addf (shapeCast ⟨2, ![n, a]⟩ x0 h0) (broadcastTo ⟨2, ![n, a]⟩ (shapeCast ⟨2, ![1, a]⟩ x1 h1) hb))
            (broadcast ⟨2, ![n, a]⟩ (Scalar.ofBits (F := Ideal) .f32 0x00000000#32)))
          (addf (shapeCast ⟨2, ![n, a]⟩ x0 h0) (broadcastTo ⟨2, ![n, a]⟩ (shapeCast ⟨2, ![1, a]⟩ x1 h1) hb))
          (mulf (broadcast ⟨2, ![n, a]⟩ (Scalar.ofBits (F := Ideal) .f32 0x3C23D70A#32))
            (addf (shapeCast ⟨2, ![n, a]⟩ x0 h0) (broadcastTo ⟨2, ![n, a]⟩ (shapeCast ⟨2, ![1, a]⟩ x1 h1) hb))))
        (mulf (broadcast ⟨2, ![n, a]⟩ (Scalar.ofBits (F := Ideal) .f32 0x3C23D70A#32))
          (select
            (cmpf .oge (addf (shapeCast ⟨2, ![n, a]⟩ x0 h0) (broadcastTo ⟨2, ![n, a]⟩ (shapeCast ⟨2, ![1, a]⟩ x1 h1) hb))
              (broadcast ⟨2, ![n, a]⟩ (Scalar.ofBits (F := Ideal) .f32 0x00000000#32)))
            (addf (shapeCast ⟨2, ![n, a]⟩ x0 h0) (broadcastTo ⟨2, ![n, a]⟩ (shapeCast ⟨2, ![1, a]⟩ x1 h1) hb))
            (mulf (broadcast ⟨2, ![n, a]⟩ (Scalar.ofBits (F := Ideal) .f32 0x3C23D70A#32))
              (addf (shapeCast ⟨2, ![n, a]⟩ x0 h0) (broadcastTo ⟨2, ![n, a]⟩ (shapeCast ⟨2, ![1, a]⟩ x1 h1) hb)))))
        : FVec Ideal ⟨2, ![n, a]⟩ .f32)
      = Net.actM (Net.actM (Net.addRow x0 x1)) := by
  rw [shapeCast_self x0, biasAddM]
  rfl

/-- Bias and two activations are local to an entry's row and column. -/
theorem biasActAct_local (A0 : Net.Mat N a) (B0 : Net.Mat n a) (β β' : Net.Mat 1 a)
    (j : (⟨2, ![n, a]⟩ : Shape).Idx) (i : (⟨2, ![N, a]⟩ : Shape).Idx) (hc : (j 1).val = (i 1).val)
    (hβ : β' = β) (hent : B0 j = A0 i) :
    Net.actM (Net.actM (Net.addRow B0 β')) j = Net.actM (Net.actM (Net.addRow A0 β)) i := by
  subst hβ
  have e : j 1 = i 1 := Fin.ext hc
  show Net.act (Net.act (B0 j + β' (ix2 0 (j 1)))) = Net.act (Net.act (A0 i + β' (ix2 0 (i 1))))
  rw [hent, e]

/-- The first layer of the head: an identity shape cast, then the product. -/
theorem castLinBlock (D : DotDims ⟨2, ![n, a]⟩ ⟨2, ![a, b]⟩ ⟨2, ![n, b]⟩) (hD : D = DotDims.plain n a b)
    (x0 : FVec Ideal ⟨2, ![n, a]⟩ .f32) (x2 : FVec Ideal ⟨2, ![a, b]⟩ .f32)
    (h0 : (⟨2, ![n, a]⟩ : Shape).ShapeCasts ⟨2, ![n, a]⟩) (h : FTy.bf16.bits < FTy.f32.bits) :
    matmul D none (truncf .bf16 (shapeCast ⟨2, ![n, a]⟩ x0 h0) h) (truncf .bf16 x2 h) (constant ⟨2, ![n, b]⟩ .f32 0x00000000#32)
      = Net.lin x0 x2 := by
  rw [shapeCast_self]
  exact linBlock D hD x0 x2 h

/-- The last layer of the head: the bias on a computed matrix, then the activation. -/
theorem biasActBlockM (M : FVec Ideal ⟨2, ![n, a]⟩ .f32) (x1 : FVec Ideal ⟨2, ![1, a]⟩ .f32)
    (h1 : (⟨2, ![1, a]⟩ : Shape).ShapeCasts ⟨2, ![1, a]⟩)
    (hb : (⟨2, ![1, a]⟩ : Shape).Broadcasts ⟨2, ![n, a]⟩) :
    (select
        (cmpf .oge (addf M (broadcastTo ⟨2, ![n, a]⟩ (shapeCast ⟨2, ![1, a]⟩ x1 h1) hb))
          (broadcast ⟨2, ![n, a]⟩ (Scalar.ofBits (F := Ideal) .f32 0x00000000#32)))
        (addf M (broadcastTo ⟨2, ![n, a]⟩ (shapeCast ⟨2, ![1, a]⟩ x1 h1) hb))
        (mulf (broadcast ⟨2, ![n, a]⟩ (Scalar.ofBits (F := Ideal) .f32 0x3C23D70A#32))
          (addf M (broadcastTo ⟨2, ![n, a]⟩ (shapeCast ⟨2, ![1, a]⟩ x1 h1) hb))) : FVec Ideal ⟨2, ![n, a]⟩ .f32)
      = Net.actM (Net.addRow M x1) := by
  rw [biasAddM]
  rfl

end Cert.KernelIdeal.RegionValue

end
-- ==== Proof.KRegion0.lean ====
/-
  Region 0 of the kernel as an array function.

  The region walks the rows in blocks of 8192. At every grid point the weight and bias windows are the whole small
  arrays and the row window is the point's block of rows, so what the point writes back is the point's block of rows
  of ONE function of the arrays the region finds; the blocks cover every row (row r lies in block r / 8192), so the
  output array ends holding that function.
-/
import proofs.«105258_j23639499997343_1_alg».proof.Proof.Gen.KernelIdeal.Frame
import proofs.«105258_j23639499997343_1_alg».proof.Proof.Net
import proofs.«105258_j23639499997343_1_alg».proof.Proof.LibPlainDot
import proofs.«105258_j23639499997343_1_alg».proof.Proof.KRegionLib
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The printed dimension numbers are those of a plain 8192 x 6 by 6 x 16 product. -/
theorem dims0 : dot_S8192x6_S6x16_S8192x16_1_0_0_1_n_n = DotDims.plain 8192 6 16 := rfl

/-- The body on one block: the product of the rows with the weights. -/
theorem pay0 (x0 : Vec Ideal S8192x6 .f32) (x1 : Vec Ideal S6x16 .f32) :
    k0_pay1 (F := Ideal) x0 x1 = Net.lin x0 x1 :=
  linBlock _ dims0 x0 x1 _

/-- The printed index maps over the grid: the row windows sit at block t, the weight window at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- At every point the weight window's block is the whole weight matrix. -/
theorem weightBlk0 (t : Fin cfg0.N) : (iblk0 V c 1 t : Net.Mat 6 16) = V c (Pipeline.arrRef spec0 1) := by
  obtain ⟨-, -, e10, e11, -, -⟩ := idx0 t
  funext y
  show V c (Pipeline.arrRef spec0 1) (((cfg0.win 1).blk t).view.emb y) = V c (Pipeline.arrRef spec0 1) y
  refine congrArg _ (funext fun ax => Fin.ext ?_)
  match ax with
  | ⟨0, _⟩ => show win0_1.index t (0 : Fin 2) * 6 + 1 * (y 0).val = (y 0).val; rw [e10]; omega
  | ⟨1, _⟩ => show win0_1.index t (1 : Fin 2) * 16 + 1 * (y 1).val = (y 1).val; rw [e11]; omega

/-- Row p of point t's block of the row operand is row 8192 t + p of the array. -/
theorem rowBlk0 (t : Fin cfg0.N) (p : Fin 8192) (q : Fin 6) (r : Fin 253952) (hr : r.val = t.val * 8192 + p.val) :
    (iblk0 V c 0 t : Net.Mat 8192 6) (ix2 p q) = (V c (Pipeline.arrRef spec0 0) : Net.Mat 253952 6) (ix2 r q) := by
  obtain ⟨e00, e01, -, -, -, -⟩ := idx0 t
  show V c (Pipeline.arrRef spec0 0) (((cfg0.win 0).blk t).view.emb (ix2 p q)) = V c (Pipeline.arrRef spec0 0) (ix2 r q)
  refine congrArg _ (funext fun ax => Fin.ext ?_)
  match ax with
  | ⟨0, _⟩ => show win0_0.index t (0 : Fin 2) * 8192 + 1 * p.val = r.val; rw [e00, hr]; omega
  | ⟨1, _⟩ => show win0_0.index t (1 : Fin 2) * 6 + 1 * q.val = q.val; rw [e01]; omega

/-- Where an entry of point t's output block sits in the output array. -/
theorem outEmb0 (t : Fin cfg0.N) (j : S8192x16.Idx) :
    ((((cfg0.win 2).blk t).view.emb j : S253952x16.Idx) 0).val = t.val * 8192 + (j 0).val
      ∧ ((((cfg0.win 2).blk t).view.emb j : S253952x16.Idx) 1).val = (j 1).val := by
  obtain ⟨-, -, -, -, e20, e21⟩ := idx0 t
  constructor
  · show win0_2.index t (0 : Fin 2) * 8192 + 1 * (j 0).val = _; rw [e20]; omega
  · show win0_2.index t (1 : Fin 2) * 16 + 1 * (j 1).val = _; rw [e21]; omega

/-- What point t writes back is block t of the one function of the arrays the region finds. -/
theorem flushed0 (t : Fin cfg0.N) :
    (dat0 V c).flushed 2 t = ((cfg0.win 2).blk t).view.read (Elt Ideal)
      (Net.lin (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S8192x6) hz, View.ld_unit_zero (S := S6x16) hz]
  rw [pay0]
  funext j
  obtain ⟨o0, o1⟩ := outEmb0 t j
  exact lin_local (N := 253952) (n := 8192) (a := 6) (b := 16) _ _ _ _ j _ o1.symm
    (weightBlk0 V c t) (fun q => rowBlk0 V c t (j 0) q _ o0)

/-- An index of the output array is in point t's block iff each coordinate is in the block's range on its axis. -/
theorem mem_blk0 (t : Fin cfg0.N) (i : S253952x16.Idx) :
    i ∈ ((cfg0.win 2).blk t).view.set ↔ ∀ ax : Fin 2, win0_2.index t ax * S8192x16.size ax ≤ (i ax).val
      ∧ (i ax).val < win0_2.index t ax * S8192x16.size ax + S8192x16.size ax := by
  show i ∈ ((View.whole main_v4).slice (win0_2.rect t)).set ↔ _
  rw [View.set_slice_whole, Rect.mem_set_unit]
  exact Iff.rfl

/-- Every index of the output array is in some point's block: row r is in block r / 8192. -/
theorem cover0 (i : S253952x16.Idx) :
    ∃ t : Fin cfg0.N, (cfg0.win 2).flush t = true ∧ i ∈ ((cfg0.win 2).blk t).view.set := by
  have hi0 : (i 0).val < 253952 := (i 0).isLt
  have hi1 : (i 1).val < 16 := (i 1).isLt
  have hN : grid0.N = 31 := N_0
  have ht : (i 0).val / 8192 < grid0.N := by rw [hN]; omega
  refine ⟨⟨(i 0).val / 8192, ht⟩, flush0_2 _, ?_⟩
  rw [mem_blk0]
  obtain ⟨-, -, -, -, e20, e21⟩ := idx0 ⟨(i 0).val / 8192, ht⟩
  intro ax
  match ax with
  | ⟨0, _⟩ =>
    show win0_2.index ⟨(i 0).val / 8192, ht⟩ (0 : Fin 2) * 8192 ≤ (i 0).val
      ∧ (i 0).val < win0_2.index ⟨(i 0).val / 8192, ht⟩ (0 : Fin 2) * 8192 + 8192
    rw [e20]
    show (i 0).val / 8192 * 8192 ≤ (i 0).val ∧ (i 0).val < (i 0).val / 8192 * 8192 + 8192
    omega
  | ⟨1, _⟩ =>
    show win0_2.index ⟨(i 0).val / 8192, ht⟩ (1 : Fin 2) * 16 ≤ (i 1).val
      ∧ (i 1).val < win0_2.index ⟨(i 0).val / 8192, ht⟩ (1 : Fin 2) * 16 + 16
    rw [e21]
    omega

/-- The output array after the region: the product of the arrays the region finds. -/
theorem arr0 : (Gen.dat0 V c).arrAt 2 cfg0.N = Net.lin (V c (Pipeline.arrRef spec0 0)) (V c (Pipeline.arrRef spec0 1)) :=
  (dat0 V c).arrAt_eq_of_cover 2 _ (fun t _ => flushed0 V c t) (cover0)

end Cert.KernelIdeal.RegionValue

end
-- ==== Proof.KRegion1.lean ====
/-
  Region 1 of the kernel as an array function.

  The region walks the rows in blocks of 8192. At every grid point the weight and bias windows are the whole small
  arrays and the row window is the point's block of rows, so what the point writes back is the point's block of rows
  of ONE function of the arrays the region finds; the blocks cover every row (row r lies in block r / 8192), so the
  output array ends holding that function.
-/
import proofs.«105258_j23639499997343_1_alg».proof.Proof.Gen.KernelIdeal.Frame
import proofs.«105258_j23639499997343_1_alg».proof.Proof.Net
import proofs.«105258_j23639499997343_1_alg».proof.Proof.LibPlainDot
import proofs.«105258_j23639499997343_1_alg».proof.Proof.KRegionLib
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The printed dimension numbers are those of a plain 8192 x 16 by 16 x 32 product. -/
theorem dims1 : dot_S8192x16_S16x32_S8192x32_1_0_0_1_n_n = DotDims.plain 8192 16 32 := rfl

/-- The body on one block: the product of the activated, bias-shifted rows with the weights. -/
theorem pay1 (x0 : Vec Ideal S8192x16 .f32) (x1 : Vec Ideal S1x16 .f32) (x2 : Vec Ideal S16x32 .f32) :
    k1_pay1 (F := Ideal) x0 x1 x2 = Net.lin (Net.actM (Net.addRow x0 x1)) x2 :=
  biasActLinBlock _ dims1 x0 x1 x2 _ _ _ _

/-- The printed index maps over the grid: the row windows sit at block t, the bias and weight windows at block 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- At every point the bias window's block is the whole bias row. -/
theorem biasBlk1 (t : Fin cfg1.N) : (iblk1 V c 1 t : Net.Mat 1 16) = V c (Pipeline.arrRef spec1 1) := by
  obtain ⟨-, -, e10, e11, -, -, -, -⟩ := idx1 t
  funext y
  show V c (Pipeline.arrRef spec1 1) (((cfg1.win 1).blk t).view.emb y) = V c (Pipeline.arrRef spec1 1) y
  refine congrArg _ (funext fun ax => Fin.ext ?_)
  match ax with
  | ⟨0, _⟩ => show win1_1.index t (0 : Fin 2) * 1 + 1 * (y 0).val = (y 0).val; rw [e10]; omega
  | ⟨1, _⟩ => show win1_1.index t (1 : Fin 2) * 16 + 1 * (y 1).val = (y 1).val; rw [e11]; omega

/-- At every point the weight window's block is the whole weight matrix. -/
theorem weightBlk1 (t : Fin cfg1.N) : (iblk1 V c 2 t : Net.Mat 16 32) = V c (Pipeline.arrRef spec1 2) := by
  obtain ⟨-, -, -, -, e20, e21, -, -⟩ := idx1 t
  funext y
  show V c (Pipeline.arrRef spec1 2) (((cfg1.win 2).blk t).view.emb y) = V c (Pipeline.arrRef spec1 2) y
  refine congrArg _ (funext fun ax => Fin.ext ?_)
  match ax with
  | ⟨0, _⟩ => show win1_2.index t (0 : Fin 2) * 16 + 1 * (y 0).val = (y 0).val; rw [e20]; omega
  | ⟨1, _⟩ => show win1_2.index t (1 : Fin 2) * 32 + 1 * (y 1).val = (y 1).val; rw [e21]; omega

/-- Row p of point t's block of the row operand is row 8192 t + p of the array. -/
theorem rowBlk1 (t : Fin cfg1.N) (p : Fin 8192) (q : Fin 16) (r : Fin 253952) (hr : r.val = t.val * 8192 + p.val) :
    (iblk1 V c 0 t : Net.Mat 8192 16) (ix2 p q) = (V c (Pipeline.arrRef spec1 0) : Net.Mat 253952 16) (ix2 r q) := by
  obtain ⟨e00, e01, -, -, -, -, -, -⟩ := idx1 t
  show V c (Pipeline.arrRef spec1 0) (((cfg1.win 0).blk t).view.emb (ix2 p q)) = V c (Pipeline.arrRef spec1 0) (ix2 r q)
  refine congrArg _ (funext fun ax => Fin.ext ?_)
  match ax with
  | ⟨0, _⟩ => show win1_0.index t (0 : Fin 2) * 8192 + 1 * p.val = r.val; rw [e00, hr]; omega
  | ⟨1, _⟩ => show win1_0.index t (1 : Fin 2) * 16 + 1 * q.val = q.val; rw [e01]; omega

/-- Where an entry of point t's output block sits in the output array. -/
theorem outEmb1 (t : Fin cfg1.N) (j : S8192x32.Idx) :
    ((((cfg1.win 3).blk t).view.emb j : S253952x32.Idx) 0).val = t.val * 8192 + (j 0).val
      ∧ ((((cfg1.win 3).blk t).view.emb j : S253952x32.Idx) 1).val = (j 1).val := by
  obtain ⟨-, -, -, -, -, -, e30, e31⟩ := idx1 t
  constructor
  · show win1_3.index t (0 : Fin 2) * 8192 + 1 * (j 0).val = _; rw [e30]; omega
  · show win1_3.index t (1 : Fin 2) * 32 + 1 * (j 1).val = _; rw [e31]; omega

/-- What point t writes back is block t of the one function of the arrays the region finds. -/
theorem flushed1 (t : Fin cfg1.N) :
    (dat1 V c).flushed 3 t = ((cfg1.win 3).blk t).view.read (Elt Ideal)
      (Net.lin (Net.actM (Net.addRow (V c (Pipeline.arrRef spec1 0)) (V c (Pipeline.arrRef spec1 1)))) (V c (Pipeline.arrRef spec1 2))) := by
  show (cfg1.win 3).cut (grid1.coords t) ((dat1 V c).after 3 t) = _
  rw [after1_3]
  unfold out1_3
  rw [View.canon_unit_zero hz]
  simp only [View.ld_unit_zero (S := S8192x16) hz, View.ld_unit_zero (S := S1x16) hz, View.ld_unit_zero (S := S16x32) hz]
  rw [pay1]
  funext j
  obtain ⟨o0, o1⟩ := outEmb1 t j
  exact biasActLin_local (N := 253952) (n := 8192) (a := 16) (b := 32) _ _ _ _ _ _ j _ o1.symm
    (biasBlk1 V c t) (weightBlk1 V c t) (fun q => rowBlk1 V c t (j 0) q _ o0)

/-- An index of the output array is in point t's block iff each coordinate is in the block's range on its axis. -/
theorem mem_blk1 (t : Fin cfg1.N) (i : S253952x32.Idx) :
    i ∈ ((cfg1.win 3).blk t).view.set ↔ ∀ ax : Fin 2, win1_3.index t ax * S8192x32.size ax ≤ (i ax).val
      ∧ (i ax).val < win1_3.index t ax * S8192x32.size ax + S8192x32.size ax := by
  show i ∈ ((View.whole main_v13).slice (win1_3.rect t)).set ↔ _
  rw [View.set_slice_whole, Rect.mem_set_unit]
  exact Iff.rfl

/-- Every index of the output array is in some point's block: row r is in block r / 8192. -/
theorem cover1 (i : S253952x32.Idx) :
    ∃ t : Fin cfg1.N, (cfg1.win 3).flush t = true ∧ i ∈ ((cfg1.win 3).blk t).view.set := by
  have hi0 : (i 0).val < 253952 := (i 0).isLt
  have hi1 : (i 1).val < 32 := (i 1).isLt
  have hN : grid1.N = 31 := N_1
  have ht : (i 0).val / 8192 < grid1.N := by rw [hN]; omega
  refine ⟨⟨(i 0).val / 8192, ht⟩, flush1_3 _, ?_⟩
  rw [mem_blk1]
  obtain ⟨-, -, -, -, -, -, e30, e31⟩ := idx1 ⟨(i 0).val / 8192, ht⟩
  intro ax
  match ax with
  | ⟨0, _⟩ =>
    show win1_3.index ⟨(i 0).val / 8192, ht⟩ (0 : Fin 2) * 8192 ≤ (i 0).val
      ∧ (i 0).val < win1_3.index ⟨(i 0).val / 8192, ht⟩ (0 : Fin 2) * 8192 + 8192
    rw [e30]
    show (i 0).val / 8192 * 8192 ≤ (i 0).val ∧ (i 0).val < (i 0).val / 8192 * 8192 + 8192
    omega
  | ⟨1, _⟩ =>
    show win1_3.index ⟨(i 0).val / 8192, ht⟩ (1 : Fin 2) * 32 ≤ (i 1).val
      ∧ (i 1).val < win1_3.index ⟨(i 0).val / 8192, ht⟩ (1 : Fin 2) * 32 + 32
    rw [e31]
    omega

/-- The output array after the region: bias, activation, product of the arrays the region finds. -/
theorem arr1 : (Gen.dat1 V c).arrAt 3 cfg1.N
    = Net.lin (Net.actM (Net.addRow (V c (Pipeline.arrRef spec1 0)) (V c (Pipeline.arrRef spec1 1)))) (V c (Pipeline.arrRef spec1 2)) :=
  (dat1 V c).arrAt_eq_of_cover 3 _ (fun t _ => flushed1 V c t) (cover1)

end Cert.KernelIdeal.RegionValue

end
-- ==== Proof.KRegion2.lean ====
/-
  Region 2 of the kernel as an array function.

  The region walks the rows in blocks of 8192. At every grid point the weight and bias windows are the whole small
  arrays and the row window is the point's block of rows, so what the point writes back is the point's block of rows
  of ONE function of the arrays the region finds; the blocks cover every row (row r lies in block r / 8192), so the
  output array ends holding that function.
-/
import proofs.«105258_j23639499997343_1_alg».proof.Proof.Gen.KernelIdeal.Frame
import proofs.«105258_j23639499997343_1_alg».proof.Proof.Net
import proofs.«105258_j23639499997343_1_alg».proof.Proof.LibPlainDot
import proofs.«105258_j23639499997343_1_alg».proof.Proof.KRegionLib
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The printed dimension numbers are those of a plain 8192 x 32 by 32 x 64 product. -/
theorem dims2 : dot_S8192x32_S32x64_S8192x64_1_0_0_1_n_n = DotDims.plain 8192 32 64 := rfl

/-- The body on one block: the product of the activated, bias-shifted rows with the weights. -/
theorem pay2 (x0 : Vec Ideal S8192x32 .f32) (x1 : Vec Ideal S1x32 .f32) (x2 : Vec Ideal S32x64 .f32) :
    k2_pay1 (F := Ideal) x0 x1 x2 = Net.lin (Net.actM (Net.addRow x0 x1)) x2 :=
  biasActLinBlock _ dims2 x0 x1 x2 _ _ _ _

/-- The printed index maps over the grid: the row windows sit at block t, the bias and weight windows at block 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- At every point the bias window's block is the whole bias row. -/
theorem biasBlk2 (t : Fin cfg2.N) : (iblk2 V c 1 t : Net.Mat 1 32) = V c (Pipeline.arrRef spec2 1) := by
  obtain ⟨-, -, e10, e11, -, -, -, -⟩ := idx2 t
  funext y
  show V c (Pipeline.arrRef spec2 1) (((cfg2.win 1).blk t).view.emb y) = V c (Pipeline.arrRef spec2 1) y
  refine congrArg _ (funext fun ax => Fin.ext ?_)
  match ax with
  | ⟨0, _⟩ => show win2_1.index t (0 : Fin 2) * 1 + 1 * (y 0).val = (y 0).val; rw [e10]; omega
  | ⟨1, _⟩ => show win2_1.index t (1 : Fin 2) * 32 + 1 * (y 1).val = (y 1).val; rw [e11]; omega

/-- At every point the weight window's block is the whole weight matrix. -/
theorem weightBlk2 (t : Fin cfg2.N) : (iblk2 V c 2 t : Net.Mat 32 64) = V c (Pipeline.arrRef spec2 2) := by
  obtain ⟨-, -, -, -, e20, e21, -, -⟩ := idx2 t
  funext y
  show V c (Pipeline.arrRef spec2 2) (((cfg2.win 2).blk t).view.emb y) = V c (Pipeline.arrRef spec2 2) y
  refine congrArg _ (funext fun ax => Fin.ext ?_)
  match ax with
  | ⟨0, _⟩ => show win2_2.index t (0 : Fin 2) * 32 + 1 * (y 0).val = (y 0).val; rw [e20]; omega
  | ⟨1, _⟩ => show win2_2.index t (1 : Fin 2) * 64 + 1 * (y 1).val = (y 1).val; rw [e21]; omega

/-- Row p of point t's block of the row operand is row 8192 t + p of the array. -/
theorem rowBlk2 (t : Fin cfg2.N) (p : Fin 8192) (q : Fin 32) (r : Fin 253952) (hr : r.val = t.val * 8192 + p.val) :
    (iblk2 V c 0 t : Net.Mat 8192 32) (ix2 p q) = (V c (Pipeline.arrRef spec2 0) : Net.Mat 253952 32) (ix2 r q) := by
  obtain ⟨e00, e01, -, -, -, -, -, -⟩ := idx2 t
  show V c (Pipeline.arrRef spec2 0) (((cfg2.win 0).blk t).view.emb (ix2 p q)) = V c (Pipeline.arrRef spec2 0) (ix2 r q)
  refine congrArg _ (funext fun ax => Fin.ext ?_)
  match ax with
  | ⟨0, _⟩ => show win2_0.index t (0 : Fin 2) * 8192 + 1 * p.val = r.val; rw [e00, hr]; omega
  | ⟨1, _⟩ => show win2_0.index t (1 : Fin 2) * 32 + 1 * q.val = q.val; rw [e01]; omega

/-- Where an entry of point t's output block sits in the output array. -/
theorem outEmb2 (t : Fin cfg2.N) (j : S8192x64.Idx) :
    ((((cfg2.win 3).blk t).view.emb j : S253952x64.Idx) 0).val = t.val * 8192 + (j 0).val
      ∧ ((((cfg2.win 3).blk t).view.emb j : S253952x64.Idx) 1).val = (j 1).val := by
  obtain ⟨-, -, -, -, -, -, e30, e31⟩ := idx2 t
  constructor
  · show win2_3.index t (0 : Fin 2) * 8192 + 1 * (j 0).val = _; rw [e30]; omega
  · show win2_3.index t (1 : Fin 2) * 64 + 1 * (j 1).val = _; rw [e31]; omega

/-- What point t writes back is block t of the one function of the arrays the region finds. -/
theorem flushed2 (t : Fin cfg2.N) :
    (dat2 V c).flushed 3 t = ((cfg2.win 3).blk t).view.read (Elt Ideal)
      (Net.lin (Net.actM (Net.addRow (V c (Pipeline.arrRef spec2 0)) (V c (Pipeline.arrRef spec2 1)))) (V c (Pipeline.arrRef spec2 2))) := by
  show (cfg2.win 3).cut (grid2.coords t) ((dat2 V c).after 3 t) = _
  rw [after2_3]
  unfold out2_3
  rw [View.canon_unit_zero hz]
  simp only [View.ld_unit_zero (S := S8192x32) hz, View.ld_unit_zero (S := S1x32) hz, View.ld_unit_zero (S := S32x64) hz]
  rw [pay2]
  funext j
  obtain ⟨o0, o1⟩ := outEmb2 t j
  exact biasActLin_local (N := 253952) (n := 8192) (a := 32) (b := 64) _ _ _ _ _ _ j _ o1.symm
    (biasBlk2 V c t) (weightBlk2 V c t) (fun q => rowBlk2 V c t (j 0) q _ o0)

/-- An index of the output array is in point t's block iff each coordinate is in the block's range on its axis. -/
theorem mem_blk2 (t : Fin cfg2.N) (i : S253952x64.Idx) :
    i ∈ ((cfg2.win 3).blk t).view.set ↔ ∀ ax : Fin 2, win2_3.index t ax * S8192x64.size ax ≤ (i ax).val
      ∧ (i ax).val < win2_3.index t ax * S8192x64.size ax + S8192x64.size ax := by
  show i ∈ ((View.whole main_v22).slice (win2_3.rect t)).set ↔ _
  rw [View.set_slice_whole, Rect.mem_set_unit]
  exact Iff.rfl

/-- Every index of the output array is in some point's block: row r is in block r / 8192. -/
theorem cover2 (i : S253952x64.Idx) :
    ∃ t : Fin cfg2.N, (cfg2.win 3).flush t = true ∧ i ∈ ((cfg2.win 3).blk t).view.set := by
  have hi0 : (i 0).val < 253952 := (i 0).isLt
  have hi1 : (i 1).val < 64 := (i 1).isLt
  have hN : grid2.N = 31 := N_2
  have ht : (i 0).val / 8192 < grid2.N := by rw [hN]; omega
  refine ⟨⟨(i 0).val / 8192, ht⟩, flush2_3 _, ?_⟩
  rw [mem_blk2]
  obtain ⟨-, -, -, -, -, -, e30, e31⟩ := idx2 ⟨(i 0).val / 8192, ht⟩
  intro ax
  match ax with
  | ⟨0, _⟩ =>
    show win2_3.index ⟨(i 0).val / 8192, ht⟩ (0 : Fin 2) * 8192 ≤ (i 0).val
      ∧ (i 0).val < win2_3.index ⟨(i 0).val / 8192, ht⟩ (0 : Fin 2) * 8192 + 8192
    rw [e30]
    show (i 0).val / 8192 * 8192 ≤ (i 0).val ∧ (i 0).val < (i 0).val / 8192 * 8192 + 8192
    omega
  | ⟨1, _⟩ =>
    show win2_3.index ⟨(i 0).val / 8192, ht⟩ (1 : Fin 2) * 64 ≤ (i 1).val
      ∧ (i 1).val < win2_3.index ⟨(i 0).val / 8192, ht⟩ (1 : Fin 2) * 64 + 64
    rw [e31]
    omega

/-- The output array after the region: bias, activation, product of the arrays the region finds. -/
theorem arr2 : (Gen.dat2 V c).arrAt 3 cfg2.N
    = Net.lin (Net.actM (Net.addRow (V c (Pipeline.arrRef spec2 0)) (V c (Pipeline.arrRef spec2 1)))) (V c (Pipeline.arrRef spec2 2)) :=
  (dat2 V c).arrAt_eq_of_cover 3 _ (fun t _ => flushed2 V c t) (cover2)

end Cert.KernelIdeal.RegionValue

end
-- ==== Proof.KRegion3.lean ====
/-
  Region 3 of the kernel as an array function.

  The region walks the rows in blocks of 8192. At every grid point the weight and bias windows are the whole small
  arrays and the row window is the point's block of rows, so what the point writes back is the point's block of rows
  of ONE function of the arrays the region finds; the blocks cover every row (row r lies in block r / 8192), so the
  output array ends holding that function.
-/
import proofs.«105258_j23639499997343_1_alg».proof.Proof.Gen.KernelIdeal.Frame
import proofs.«105258_j23639499997343_1_alg».proof.Proof.Net
import proofs.«105258_j23639499997343_1_alg».proof.Proof.LibPlainDot
import proofs.«105258_j23639499997343_1_alg».proof.Proof.KRegionLib
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The printed dimension numbers are those of a plain 8192 x 64 by 64 x 50 product. -/
theorem dims3 : dot_S8192x64_S64x50_S8192x50_1_0_0_1_n_n = DotDims.plain 8192 64 50 := rfl

/-- The body on one block: the product of the activated, bias-shifted rows with the weights. -/
theorem pay3 (x0 : Vec Ideal S8192x64 .f32) (x1 : Vec Ideal S1x64 .f32) (x2 : Vec Ideal S64x50 .f32) :
    k3_pay1 (F := Ideal) x0 x1 x2 = Net.lin (Net.actM (Net.addRow x0 x1)) x2 :=
  biasActLinBlock _ dims3 x0 x1 x2 _ _ _ _

/-- The printed index maps over the grid: the row windows sit at block t, the bias and weight windows at block 0. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- At every point the bias window's block is the whole bias row. -/
theorem biasBlk3 (t : Fin cfg3.N) : (iblk3 V c 1 t : Net.Mat 1 64) = V c (Pipeline.arrRef spec3 1) := by
  obtain ⟨-, -, e10, e11, -, -, -, -⟩ := idx3 t
  funext y
  show V c (Pipeline.arrRef spec3 1) (((cfg3.win 1).blk t).view.emb y) = V c (Pipeline.arrRef spec3 1) y
  refine congrArg _ (funext fun ax => Fin.ext ?_)
  match ax with
  | ⟨0, _⟩ => show win3_1.index t (0 : Fin 2) * 1 + 1 * (y 0).val = (y 0).val; rw [e10]; omega
  | ⟨1, _⟩ => show win3_1.index t (1 : Fin 2) * 64 + 1 * (y 1).val = (y 1).val; rw [e11]; omega

/-- At every point the weight window's block is the whole weight matrix. -/
theorem weightBlk3 (t : Fin cfg3.N) : (iblk3 V c 2 t : Net.Mat 64 50) = V c (Pipeline.arrRef spec3 2) := by
  obtain ⟨-, -, -, -, e20, e21, -, -⟩ := idx3 t
  funext y
  show V c (Pipeline.arrRef spec3 2) (((cfg3.win 2).blk t).view.emb y) = V c (Pipeline.arrRef spec3 2) y
  refine congrArg _ (funext fun ax => Fin.ext ?_)
  match ax with
  | ⟨0, _⟩ => show win3_2.index t (0 : Fin 2) * 64 + 1 * (y 0).val = (y 0).val; rw [e20]; omega
  | ⟨1, _⟩ => show win3_2.index t (1 : Fin 2) * 50 + 1 * (y 1).val = (y 1).val; rw [e21]; omega

/-- Row p of point t's block of the row operand is row 8192 t + p of the array. -/
theorem rowBlk3 (t : Fin cfg3.N) (p : Fin 8192) (q : Fin 64) (r : Fin 253952) (hr : r.val = t.val * 8192 + p.val) :
    (iblk3 V c 0 t : Net.Mat 8192 64) (ix2 p q) = (V c (Pipeline.arrRef spec3 0) : Net.Mat 253952 64) (ix2 r q) := by
  obtain ⟨e00, e01, -, -, -, -, -, -⟩ := idx3 t
  show V c (Pipeline.arrRef spec3 0) (((cfg3.win 0).blk t).view.emb (ix2 p q)) = V c (Pipeline.arrRef spec3 0) (ix2 r q)
  refine congrArg _ (funext fun ax => Fin.ext ?_)
  match ax with
  | ⟨0, _⟩ => show win3_0.index t (0 : Fin 2) * 8192 + 1 * p.val = r.val; rw [e00, hr]; omega
  | ⟨1, _⟩ => show win3_0.index t (1 : Fin 2) * 64 + 1 * q.val = q.val; rw [e01]; omega

/-- Where an entry of point t's output block sits in the output array. -/
theorem outEmb3 (t : Fin cfg3.N) (j : S8192x50.Idx) :
    ((((cfg3.win 3).blk t).view.emb j : S253952x50.Idx) 0).val = t.val * 8192 + (j 0).val
      ∧ ((((cfg3.win 3).blk t).view.emb j : S253952x50.Idx) 1).val = (j 1).val := by
  obtain ⟨-, -, -, -, -, -, e30, e31⟩ := idx3 t
  constructor
  · show win3_3.index t (0 : Fin 2) * 8192 + 1 * (j 0).val = _; rw [e30]; omega
  · show win3_3.index t (1 : Fin 2) * 50 + 1 * (j 1).val = _; rw [e31]; omega

/-- What point t writes back is block t of the one function of the arrays the region finds. -/
theorem flushed3 (t : Fin cfg3.N) :
    (dat3 V c).flushed 3 t = ((cfg3.win 3).blk t).view.read (Elt Ideal)
      (Net.lin (Net.actM (Net.addRow (V c (Pipeline.arrRef spec3 0)) (V c (Pipeline.arrRef spec3 1)))) (V c (Pipeline.arrRef spec3 2))) := by
  show (cfg3.win 3).cut (grid3.coords t) ((dat3 V c).after 3 t) = _
  rw [after3_3]
  unfold out3_3
  rw [View.canon_unit_zero hz]
  simp only [View.ld_unit_zero (S := S8192x64) hz, View.ld_unit_zero (S := S1x64) hz, View.ld_unit_zero (S := S64x50) hz]
  rw [pay3]
  funext j
  obtain ⟨o0, o1⟩ := outEmb3 t j
  exact biasActLin_local (N := 253952) (n := 8192) (a := 64) (b := 50) _ _ _ _ _ _ j _ o1.symm
    (biasBlk3 V c t) (weightBlk3 V c t) (fun q => rowBlk3 V c t (j 0) q _ o0)

/-- An index of the output array is in point t's block iff each coordinate is in the block's range on its axis. -/
theorem mem_blk3 (t : Fin cfg3.N) (i : S253952x50.Idx) :
    i ∈ ((cfg3.win 3).blk t).view.set ↔ ∀ ax : Fin 2, win3_3.index t ax * S8192x50.size ax ≤ (i ax).val
      ∧ (i ax).val < win3_3.index t ax * S8192x50.size ax + S8192x50.size ax := by
  show i ∈ ((View.whole main_v31).slice (win3_3.rect t)).set ↔ _
  rw [View.set_slice_whole, Rect.mem_set_unit]
  exact Iff.rfl

/-- Every index of the output array is in some point's block: row r is in block r / 8192. -/
theorem cover3 (i : S253952x50.Idx) :
    ∃ t : Fin cfg3.N, (cfg3.win 3).flush t = true ∧ i ∈ ((cfg3.win 3).blk t).view.set := by
  have hi0 : (i 0).val < 253952 := (i 0).isLt
  have hi1 : (i 1).val < 50 := (i 1).isLt
  have hN : grid3.N = 31 := N_3
  have ht : (i 0).val / 8192 < grid3.N := by rw [hN]; omega
  refine ⟨⟨(i 0).val / 8192, ht⟩, flush3_3 _, ?_⟩
  rw [mem_blk3]
  obtain ⟨-, -, -, -, -, -, e30, e31⟩ := idx3 ⟨(i 0).val / 8192, ht⟩
  intro ax
  match ax with
  | ⟨0, _⟩ =>
    show win3_3.index ⟨(i 0).val / 8192, ht⟩ (0 : Fin 2) * 8192 ≤ (i 0).val
      ∧ (i 0).val < win3_3.index ⟨(i 0).val / 8192, ht⟩ (0 : Fin 2) * 8192 + 8192
    rw [e30]
    show (i 0).val / 8192 * 8192 ≤ (i 0).val ∧ (i 0).val < (i 0).val / 8192 * 8192 + 8192
    omega
  | ⟨1, _⟩ =>
    show win3_3.index ⟨(i 0).val / 8192, ht⟩ (1 : Fin 2) * 50 ≤ (i 1).val
      ∧ (i 1).val < win3_3.index ⟨(i 0).val / 8192, ht⟩ (1 : Fin 2) * 50 + 50
    rw [e31]
    omega

/-- The output array after the region: bias, activation, product of the arrays the region finds. -/
theorem arr3 : (Gen.dat3 V c).arrAt 3 cfg3.N
    = Net.lin (Net.actM (Net.addRow (V c (Pipeline.arrRef spec3 0)) (V c (Pipeline.arrRef spec3 1)))) (V c (Pipeline.arrRef spec3 2)) :=
  (dat3 V c).arrAt_eq_of_cover 3 _ (fun t _ => flushed3 V c t) (cover3)

end Cert.KernelIdeal.RegionValue

end
-- ==== Proof.KRegion4.lean ====
/-
  Region 4 of the kernel as an array function.

  The region walks the rows in blocks of 8192. At every grid point the weight and bias windows are the whole small
  arrays and the row window is the point's block of rows, so what the point writes back is the point's block of rows
  of ONE function of the arrays the region finds; the blocks cover every row (row r lies in block r / 8192), so the
  output array ends holding that function.
-/
import proofs.«105258_j23639499997343_1_alg».proof.Proof.Gen.KernelIdeal.Frame
import proofs.«105258_j23639499997343_1_alg».proof.Proof.Net
import proofs.«105258_j23639499997343_1_alg».proof.Proof.LibPlainDot
import proofs.«105258_j23639499997343_1_alg».proof.Proof.KRegionLib
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The body on one block: the bias row added, then the activation twice. -/
theorem pay4 (x0 : Vec Ideal S8192x50 .f32) (x1 : Vec Ideal S1x50 .f32) :
    k4_pay1 (F := Ideal) x0 x1 = Net.actM (Net.actM (Net.addRow x0 x1)) :=
  biasActActBlock x0 x1 _ _ _

/-- The printed index maps over the grid: the row windows sit at block t, the bias window at block 0. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- At every point the bias window's block is the whole bias row. -/
theorem biasBlk4 (t : Fin cfg4.N) : (iblk4 V c 1 t : Net.Mat 1 50) = V c (Pipeline.arrRef spec4 1) := by
  obtain ⟨-, -, e10, e11, -, -⟩ := idx4 t
  funext y
  show V c (Pipeline.arrRef spec4 1) (((cfg4.win 1).blk t).view.emb y) = V c (Pipeline.arrRef spec4 1) y
  refine congrArg _ (funext fun ax => Fin.ext ?_)
  match ax with
  | ⟨0, _⟩ => show win4_1.index t (0 : Fin 2) * 1 + 1 * (y 0).val = (y 0).val; rw [e10]; omega
  | ⟨1, _⟩ => show win4_1.index t (1 : Fin 2) * 50 + 1 * (y 1).val = (y 1).val; rw [e11]; omega

/-- Where an entry of point t's output block sits in the output array. -/
theorem outEmb4 (t : Fin cfg4.N) (j : S8192x50.Idx) :
    ((((cfg4.win 2).blk t).view.emb j : S253952x50.Idx) 0).val = t.val * 8192 + (j 0).val
      ∧ ((((cfg4.win 2).blk t).view.emb j : S253952x50.Idx) 1).val = (j 1).val := by
  obtain ⟨-, -, -, -, e20, e21⟩ := idx4 t
  constructor
  · show win4_2.index t (0 : Fin 2) * 8192 + 1 * (j 0).val = _; rw [e20]; omega
  · show win4_2.index t (1 : Fin 2) * 50 + 1 * (j 1).val = _; rw [e21]; omega

/-- An entry of point t's block of the row operand is the entry of the array in row 8192 t + its row. -/
theorem entBlk4 (t : Fin cfg4.N) (j : S8192x50.Idx) (i : S253952x50.Idx) (h0 : (i 0).val = t.val * 8192 + (j 0).val)
    (h1 : (i 1).val = (j 1).val) :
    (iblk4 V c 0 t : Net.Mat 8192 50) j = (V c (Pipeline.arrRef spec4 0) : Net.Mat 253952 50) i := by
  obtain ⟨e00, e01, -, -, -, -⟩ := idx4 t
  show V c (Pipeline.arrRef spec4 0) (((cfg4.win 0).blk t).view.emb j) = V c (Pipeline.arrRef spec4 0) i
  refine congrArg _ (funext fun ax => Fin.ext ?_)
  match ax with
  | ⟨0, _⟩ => show win4_0.index t (0 : Fin 2) * 8192 + 1 * (j 0).val = (i 0).val; rw [e00, h0]; omega
  | ⟨1, _⟩ => show win4_0.index t (1 : Fin 2) * 50 + 1 * (j 1).val = (i 1).val; rw [e01, h1]; omega

/-- What point t writes back is block t of the one function of the arrays the region finds. -/
theorem flushed4 (t : Fin cfg4.N) :
    (dat4 V c).flushed 2 t = ((cfg4.win 2).blk t).view.read (Elt Ideal)
      (Net.actM (Net.actM (Net.addRow (V c (Pipeline.arrRef spec4 0)) (V c (Pipeline.arrRef spec4 1))))) := by
  show (cfg4.win 2).cut (grid4.coords t) ((dat4 V c).after 2 t) = _
  rw [after4_2]
  unfold out4_2
  rw [View.canon_unit_zero hz]
  simp only [View.ld_unit_zero (S := S8192x50) hz, View.ld_unit_zero (S := S1x50) hz]
  rw [pay4]
  funext j
  obtain ⟨o0, o1⟩ := outEmb4 t j
  exact biasActAct_local (N := 253952) (n := 8192) (a := 50) _ _ _ _ j _ o1.symm
    (biasBlk4 V c t) (entBlk4 V c t j _ o0 o1)

/-- An index of the output array is in point t's block iff each coordinate is in the block's range on its axis. -/
theorem mem_blk4 (t : Fin cfg4.N) (i : S253952x50.Idx) :
    i ∈ ((cfg4.win 2).blk t).view.set ↔ ∀ ax : Fin 2, win4_2.index t ax * S8192x50.size ax ≤ (i ax).val
      ∧ (i ax).val < win4_2.index t ax * S8192x50.size ax + S8192x50.size ax := by
  show i ∈ ((View.whole main_v40).slice (win4_2.rect t)).set ↔ _
  rw [View.set_slice_whole, Rect.mem_set_unit]
  exact Iff.rfl

/-- Every index of the output array is in some point's block: row r is in block r / 8192. -/
theorem cover4 (i : S253952x50.Idx) :
    ∃ t : Fin cfg4.N, (cfg4.win 2).flush t = true ∧ i ∈ ((cfg4.win 2).blk t).view.set := by
  have hi0 : (i 0).val < 253952 := (i 0).isLt
  have hi1 : (i 1).val < 50 := (i 1).isLt
  have hN : grid4.N = 31 := N_4
  have ht : (i 0).val / 8192 < grid4.N := by rw [hN]; omega
  refine ⟨⟨(i 0).val / 8192, ht⟩, flush4_2 _, ?_⟩
  rw [mem_blk4]
  obtain ⟨-, -, -, -, e20, e21⟩ := idx4 ⟨(i 0).val / 8192, ht⟩
  intro ax
  match ax with
  | ⟨0, _⟩ =>
    show win4_2.index ⟨(i 0).val / 8192, ht⟩ (0 : Fin 2) * 8192 ≤ (i 0).val
      ∧ (i 0).val < win4_2.index ⟨(i 0).val / 8192, ht⟩ (0 : Fin 2) * 8192 + 8192
    rw [e20]
    show (i 0).val / 8192 * 8192 ≤ (i 0).val ∧ (i 0).val < (i 0).val / 8192 * 8192 + 8192
    omega
  | ⟨1, _⟩ =>
    show win4_2.index ⟨(i 0).val / 8192, ht⟩ (1 : Fin 2) * 50 ≤ (i 1).val
      ∧ (i 1).val < win4_2.index ⟨(i 0).val / 8192, ht⟩ (1 : Fin 2) * 50 + 50
    rw [e21]
    omega

/-- The output array after the region: the bias row added to the array the region finds, then the activation twice. -/
theorem arr4 : (Gen.dat4 V c).arrAt 2 cfg4.N
    = Net.actM (Net.actM (Net.addRow (V c (Pipeline.arrRef spec4 0)) (V c (Pipeline.arrRef spec4 1)))) :=
  (dat4 V c).arrAt_eq_of_cover 2 _ (fun t _ => flushed4 V c t) (cover4)

end Cert.KernelIdeal.RegionValue

end
-- ==== Proof.KRegion5.lean ====
/-
  Region 5 of the kernel, the pooled head, as an array function.

  The region has one grid point and every window is its whole array, so what the point writes back is the body's
  function of the arrays the region finds, and its block is the whole output array. The body is three layers:
  product, bias row, activation, three times over.
-/
import proofs.«105258_j23639499997343_1_alg».proof.Proof.Gen.KernelIdeal.Frame
import proofs.«105258_j23639499997343_1_alg».proof.Proof.Net
import proofs.«105258_j23639499997343_1_alg».proof.Proof.LibPlainDot
import proofs.«105258_j23639499997343_1_alg».proof.Proof.KRegionLib
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The printed dimension numbers of the three products are those of plain products. -/
theorem dims5a : dot_S4096x50_S50x30_S4096x30_1_0_0_1_n_n = DotDims.plain 4096 50 30 := rfl
theorem dims5b : dot_S4096x30_S30x20_S4096x20_1_0_0_1_n_n = DotDims.plain 4096 30 20 := rfl
theorem dims5c : dot_S4096x20_S20x2_S4096x2_1_0_0_1_n_n = DotDims.plain 4096 20 2 := rfl

/-- The body up to the last bias: two full layers, then the third product and its bias row. -/
theorem pay5_layers (x0 : Vec Ideal S4096x50 .f32) (x1 : Vec Ideal S50x30 .f32) (x2 : Vec Ideal S1x30 .f32) (x3 : Vec Ideal S30x20 .f32)
    (x4 : Vec Ideal S1x20 .f32) (x5 : Vec Ideal S20x2 .f32) (x6 : Vec Ideal S1x2 .f32) :
    k5_pay2 (F := Ideal) x0 x1 x2 x3 x4 x5 x6
      = Net.addRow (Net.lin (Net.actM (Net.addRow (Net.lin (Net.actM (Net.addRow (Net.lin x0 x1) x2)) x3) x4)) x5) x6 := by
  unfold k5_pay2
  dsimp only
  rw [castLinBlock _ dims5a x0 x1 shapeCasts_S4096x50_S4096x50 bitsLt_bf16_f32]
  rw [biasActLinBlockM _ dims5b (Net.lin x0 x1) x2 x3 shapeCasts_S1x30_S1x30 broadcasts_S1x30_S4096x30 bitsLt_bf16_f32]
  rw [biasActLinBlockM _ dims5c _ x4 x5 shapeCasts_S1x20_S1x20 broadcasts_S1x20_S4096x20 bitsLt_bf16_f32]
  exact biasAddM _ x6 shapeCasts_S1x2_S1x2 broadcasts_S1x2_S4096x2

/-- The body's last step: the activation of every entry. -/
theorem pay5_act (M : FVec Ideal S4096x2 .f32) :
    k5_pay1 (F := Ideal) M (Scalar.ofBits .f32 0x3C23D70A#32) (Scalar.ofBits .f32 0x00000000#32) = Net.actM M := by
  unfold k5_pay1
  rfl

/-- The body on the arrays: three layers of product, bias row and activation. -/
theorem pay5 (x0 : Vec Ideal S4096x50 .f32) (x1 : Vec Ideal S50x30 .f32) (x2 : Vec Ideal S1x30 .f32) (x3 : Vec Ideal S30x20 .f32)
    (x4 : Vec Ideal S1x20 .f32) (x5 : Vec Ideal S20x2 .f32) (x6 : Vec Ideal S1x2 .f32) :
    k5_pay1 (F := Ideal) (k5_pay2 x0 x1 x2 x3 x4 x5 x6) (Scalar.ofBits .f32 0x3C23D70A#32) (Scalar.ofBits .f32 0x00000000#32)
      = Net.actM (Net.addRow (Net.lin (Net.actM (Net.addRow (Net.lin (Net.actM (Net.addRow (Net.lin x0 x1) x2)) x3) x4)) x5) x6) := by
  rw [pay5_layers, pay5_act]

/-- The three layers respect equality of every operand and of the index. -/
theorem head_congr {n a1 a2 a3 a4 : ℕ} (x0 x0' : Net.Mat n a1) (x1 x1' : Net.Mat a1 a2) (x2 x2' : Net.Mat 1 a2)
    (x3 x3' : Net.Mat a2 a3) (x4 x4' : Net.Mat 1 a3) (x5 x5' : Net.Mat a3 a4) (x6 x6' : Net.Mat 1 a4)
    (j i : (⟨2, ![n, a4]⟩ : Shape).Idx) (h0 : x0' = x0) (h1 : x1' = x1) (h2 : x2' = x2) (h3 : x3' = x3) (h4 : x4' = x4)
    (h5 : x5' = x5) (h6 : x6' = x6) (hj : i = j) :
    Net.actM (Net.addRow (Net.lin (Net.actM (Net.addRow (Net.lin (Net.actM (Net.addRow (Net.lin x0' x1') x2')) x3') x4')) x5') x6') j
      = Net.actM (Net.addRow (Net.lin (Net.actM (Net.addRow (Net.lin (Net.actM (Net.addRow (Net.lin x0 x1) x2)) x3) x4)) x5) x6) i := by
  subst h0 h1 h2 h3 h4 h5 h6 hj
  rfl

/-- Window 0's index map at the one point: block (0, 0). -/
theorem idx5_0 : ∀ t : Fin cfg5.N, win5_0.index t (0 : Fin 2) = 0 ∧ win5_0.index t (1 : Fin 2) = 0 :=
  (by decide +kernel : ∀ t : Fin grid5.N, _)

/-- Window 0's block is its whole array. -/
theorem whole5_0 (t : Fin cfg5.N) : (iblk5 V c 0 t : Net.Mat 4096 50) = V c (Pipeline.arrRef spec5 0) := by
  obtain ⟨e0, e1⟩ := idx5_0 t
  funext y
  show V c (Pipeline.arrRef spec5 0) (((cfg5.win 0).blk t).view.emb y) = V c (Pipeline.arrRef spec5 0) y
  refine congrArg _ (funext fun ax => Fin.ext ?_)
  match ax with
  | ⟨0, _⟩ => show win5_0.index t (0 : Fin 2) * 4096 + 1 * (y 0).val = (y 0).val; rw [e0]; omega
  | ⟨1, _⟩ => show win5_0.index t (1 : Fin 2) * 50 + 1 * (y 1).val = (y 1).val; rw [e1]; omega

/-- Window 1's index map at the one point: block (0, 0). -/
theorem idx5_1 : ∀ t : Fin cfg5.N, win5_1.index t (0 : Fin 2) = 0 ∧ win5_1.index t (1 : Fin 2) = 0 :=
  (by decide +kernel : ∀ t : Fin grid5.N, _)

/-- Window 1's block is its whole array. -/
theorem whole5_1 (t : Fin cfg5.N) : (iblk5 V c 1 t : Net.Mat 50 30) = V c (Pipeline.arrRef spec5 1) := by
  obtain ⟨e0, e1⟩ := idx5_1 t
  funext y
  show V c (Pipeline.arrRef spec5 1) (((cfg5.win 1).blk t).view.emb y) = V c (Pipeline.arrRef spec5 1) y
  refine congrArg _ (funext fun ax => Fin.ext ?_)
  match ax with
  | ⟨0, _⟩ => show win5_1.index t (0 : Fin 2) * 50 + 1 * (y 0).val = (y 0).val; rw [e0]; omega
  | ⟨1, _⟩ => show win5_1.index t (1 : Fin 2) * 30 + 1 * (y 1).val = (y 1).val; rw [e1]; omega

/-- Window 2's index map at the one point: block (0, 0). -/
theorem idx5_2 : ∀ t : Fin cfg5.N, win5_2.index t (0 : Fin 2) = 0 ∧ win5_2.index t (1 : Fin 2) = 0 :=
  (by decide +kernel : ∀ t : Fin grid5.N, _)

/-- Window 2's block is its whole array. -/
theorem whole5_2 (t : Fin cfg5.N) : (iblk5 V c 2 t : Net.Mat 1 30) = V c (Pipeline.arrRef spec5 2) := by
  obtain ⟨e0, e1⟩ := idx5_2 t
  funext y
  show V c (Pipeline.arrRef spec5 2) (((cfg5.win 2).blk t).view.emb y) = V c (Pipeline.arrRef spec5 2) y
  refine congrArg _ (funext fun ax => Fin.ext ?_)
  match ax with
  | ⟨0, _⟩ => show win5_2.index t (0 : Fin 2) * 1 + 1 * (y 0).val = (y 0).val; rw [e0]; omega
  | ⟨1, _⟩ => show win5_2.index t (1 : Fin 2) * 30 + 1 * (y 1).val = (y 1).val; rw [e1]; omega

/-- Window 3's index map at the one point: block (0, 0). -/
theorem idx5_3 : ∀ t : Fin cfg5.N, win5_3.index t (0 : Fin 2) = 0 ∧ win5_3.index t (1 : Fin 2) = 0 :=
  (by decide +kernel : ∀ t : Fin grid5.N, _)

/-- Window 3's block is its whole array. -/
theorem whole5_3 (t : Fin cfg5.N) : (iblk5 V c 3 t : Net.Mat 30 20) = V c (Pipeline.arrRef spec5 3) := by
  obtain ⟨e0, e1⟩ := idx5_3 t
  funext y
  show V c (Pipeline.arrRef spec5 3) (((cfg5.win 3).blk t).view.emb y) = V c (Pipeline.arrRef spec5 3) y
  refine congrArg _ (funext fun ax => Fin.ext ?_)
  match ax with
  | ⟨0, _⟩ => show win5_3.index t (0 : Fin 2) * 30 + 1 * (y 0).val = (y 0).val; rw [e0]; omega
  | ⟨1, _⟩ => show win5_3.index t (1 : Fin 2) * 20 + 1 * (y 1).val = (y 1).val; rw [e1]; omega

/-- Window 4's index map at the one point: block (0, 0). -/
theorem idx5_4 : ∀ t : Fin cfg5.N, win5_4.index t (0 : Fin 2) = 0 ∧ win5_4.index t (1 : Fin 2) = 0 :=
  (by decide +kernel : ∀ t : Fin grid5.N, _)

/-- Window 4's block is its whole array. -/
theorem whole5_4 (t : Fin cfg5.N) : (iblk5 V c 4 t : Net.Mat 1 20) = V c (Pipeline.arrRef spec5 4) := by
  obtain ⟨e0, e1⟩ := idx5_4 t
  funext y
  show V c (Pipeline.arrRef spec5 4) (((cfg5.win 4).blk t).view.emb y) = V c (Pipeline.arrRef spec5 4) y
  refine congrArg _ (funext fun ax => Fin.ext ?_)
  match ax with
  | ⟨0, _⟩ => show win5_4.index t (0 : Fin 2) * 1 + 1 * (y 0).val = (y 0).val; rw [e0]; omega
  | ⟨1, _⟩ => show win5_4.index t (1 : Fin 2) * 20 + 1 * (y 1).val = (y 1).val; rw [e1]; omega

/-- Window 5's index map at the one point: block (0, 0). -/
theorem idx5_5 : ∀ t : Fin cfg5.N, win5_5.index t (0 : Fin 2) = 0 ∧ win5_5.index t (1 : Fin 2) = 0 :=
  (by decide +kernel : ∀ t : Fin grid5.N, _)

/-- Window 5's block is its whole array. -/
theorem whole5_5 (t : Fin cfg5.N) : (iblk5 V c 5 t : Net.Mat 20 2) = V c (Pipeline.arrRef spec5 5) := by
  obtain ⟨e0, e1⟩ := idx5_5 t
  funext y
  show V c (Pipeline.arrRef spec5 5) (((cfg5.win 5).blk t).view.emb y) = V c (Pipeline.arrRef spec5 5) y
  refine congrArg _ (funext fun ax => Fin.ext ?_)
  match ax with
  | ⟨0, _⟩ => show win5_5.index t (0 : Fin 2) * 20 + 1 * (y 0).val = (y 0).val; rw [e0]; omega
  | ⟨1, _⟩ => show win5_5.index t (1 : Fin 2) * 2 + 1 * (y 1).val = (y 1).val; rw [e1]; omega

/-- Window 6's index map at the one point: block (0, 0). -/
theorem idx5_6 : ∀ t : Fin cfg5.N, win5_6.index t (0 : Fin 2) = 0 ∧ win5_6.index t (1 : Fin 2) = 0 :=
  (by decide +kernel : ∀ t : Fin grid5.N, _)

/-- Window 6's block is its whole array. -/
theorem whole5_6 (t : Fin cfg5.N) : (iblk5 V c 6 t : Net.Mat 1 2) = V c (Pipeline.arrRef spec5 6) := by
  obtain ⟨e0, e1⟩ := idx5_6 t
  funext y
  show V c (Pipeline.arrRef spec5 6) (((cfg5.win 6).blk t).view.emb y) = V c (Pipeline.arrRef spec5 6) y
  refine congrArg _ (funext fun ax => Fin.ext ?_)
  match ax with
  | ⟨0, _⟩ => show win5_6.index t (0 : Fin 2) * 1 + 1 * (y 0).val = (y 0).val; rw [e0]; omega
  | ⟨1, _⟩ => show win5_6.index t (1 : Fin 2) * 2 + 1 * (y 1).val = (y 1).val; rw [e1]; omega

/-- The output window's index map at the one point: block (0, 0). -/
theorem idx5_7 : ∀ t : Fin cfg5.N, win5_7.index t (0 : Fin 2) = 0 ∧ win5_7.index t (1 : Fin 2) = 0 :=
  (by decide +kernel : ∀ t : Fin grid5.N, _)

/-- An entry of the point's output block sits at the same index of the output array. -/
theorem outEmb5 (t : Fin cfg5.N) (j : S4096x2.Idx) : (((cfg5.win 7).blk t).view.emb j : S4096x2.Idx) = j := by
  obtain ⟨e0, e1⟩ := idx5_7 t
  refine funext fun ax => Fin.ext ?_
  match ax with
  | ⟨0, _⟩ => show win5_7.index t (0 : Fin 2) * 4096 + 1 * (j 0).val = (j 0).val; rw [e0]; omega
  | ⟨1, _⟩ => show win5_7.index t (1 : Fin 2) * 2 + 1 * (j 1).val = (j 1).val; rw [e1]; omega

/-- What the point writes back is its block of the one function of the arrays the region finds. -/
theorem flushed5 (t : Fin cfg5.N) :
    (dat5 V c).flushed 7 t = ((cfg5.win 7).blk t).view.read (Elt Ideal)
      (Net.actM (Net.addRow (Net.lin (Net.actM (Net.addRow (Net.lin (Net.actM (Net.addRow (Net.lin (V c (Pipeline.arrRef spec5 0)) (V c (Pipeline.arrRef spec5 1))) (V c (Pipeline.arrRef spec5 2)))) (V c (Pipeline.arrRef spec5 3))) (V c (Pipeline.arrRef spec5 4)))) (V c (Pipeline.arrRef spec5 5))) (V c (Pipeline.arrRef spec5 6)))) := by
  show (cfg5.win 7).cut (grid5.coords t) ((dat5 V c).after 7 t) = _
  rw [after5_7]
  unfold out5_7
  rw [View.canon_unit_zero hz]
  simp only [View.ld_unit_zero (S := S4096x50) hz, View.ld_unit_zero (S := S50x30) hz, View.ld_unit_zero (S := S1x30) hz,
    View.ld_unit_zero (S := S30x20) hz, View.ld_unit_zero (S := S1x20) hz, View.ld_unit_zero (S := S20x2) hz,
    View.ld_unit_zero (S := S1x2) hz]
  rw [pay5]
  funext j
  exact head_congr (n := 4096) (a1 := 50) (a2 := 30) (a3 := 20) (a4 := 2) _ _ _ _ _ _ _ _ _ _ _ _ _ _ j _
    (whole5_0 V c t) (whole5_1 V c t) (whole5_2 V c t) (whole5_3 V c t) (whole5_4 V c t) (whole5_5 V c t) (whole5_6 V c t)
    (outEmb5 t j)

/-- An index of the output array is in the point's block iff each coordinate is in the block's range on its axis. -/
theorem mem_blk5 (t : Fin cfg5.N) (i : S4096x2.Idx) :
    i ∈ ((cfg5.win 7).blk t).view.set ↔ ∀ ax : Fin 2, win5_7.index t ax * S4096x2.size ax ≤ (i ax).val
      ∧ (i ax).val < win5_7.index t ax * S4096x2.size ax + S4096x2.size ax := by
  show i ∈ ((View.whole main_v47).slice (win5_7.rect t)).set ↔ _
  rw [View.set_slice_whole, Rect.mem_set_unit]
  exact Iff.rfl

/-- Every index of the output array is in the one point's block. -/
theorem cover5 (i : S4096x2.Idx) :
    ∃ t : Fin cfg5.N, (cfg5.win 7).flush t = true ∧ i ∈ ((cfg5.win 7).blk t).view.set := by
  have hi0 : (i 0).val < 4096 := (i 0).isLt
  have hi1 : (i 1).val < 2 := (i 1).isLt
  refine ⟨t5_0, flush5_7 _, ?_⟩
  rw [mem_blk5]
  obtain ⟨e0, e1⟩ := idx5_7 t5_0
  intro ax
  match ax with
  | ⟨0, _⟩ =>
    show win5_7.index t5_0 (0 : Fin 2) * 4096 ≤ (i 0).val ∧ (i 0).val < win5_7.index t5_0 (0 : Fin 2) * 4096 + 4096
    rw [e0]; omega
  | ⟨1, _⟩ =>
    show win5_7.index t5_0 (1 : Fin 2) * 2 ≤ (i 1).val ∧ (i 1).val < win5_7.index t5_0 (1 : Fin 2) * 2 + 2
    rw [e1]; omega

/-- The output array after the region: the three layers of the arrays the region finds. -/
theorem arr5 : (Gen.dat5 V c).arrAt 7 cfg5.N
    = Net.actM (Net.addRow (Net.lin (Net.actM (Net.addRow (Net.lin (Net.actM (Net.addRow (Net.lin (V c (Pipeline.arrRef spec5 0)) (V c (Pipeline.arrRef spec5 1))) (V c (Pipeline.arrRef spec5 2)))) (V c (Pipeline.arrRef spec5 3))) (V c (Pipeline.arrRef spec5 4)))) (V c (Pipeline.arrRef spec5 5))) (V c (Pipeline.arrRef spec5 6))) :=
  (dat5 V c).arrAt_eq_of_cover 7 _ (fun t _ => flushed5 V c t) (cover5)

end Cert.KernelIdeal.RegionValue

end
-- ==== Proof.KFold.lean ====
/-
  The kernel program's result buffer holds the network function of the arguments.

  Walking the fold through the program's sixteen segments: the first stretch cuts the edge list into the rows of
  source and destination nodes; region 0 leaves the first layer's product; then, four times, a stretch takes the
  product's rows at the source nodes, a stretch scales them and adds them at the destination nodes and lays the
  layer's bias out as a row, and a region applies bias row, activation and the next product (the last of them the
  bias row and the activation twice); a stretch pools the node rows per graph and lays out the head's bias rows; the
  last region is the three-layer head. Every buffer a segment reads is either what an earlier segment left or an
  argument, and an argument is still what it was at launch.
-/
import proofs.«105258_j23639499997343_1_alg».proof.Proof.KKeep
import proofs.«105258_j23639499997343_1_alg».proof.Proof.KNet
import proofs.«105258_j23639499997343_1_alg».proof.Proof.KRegion0
import proofs.«105258_j23639499997343_1_alg».proof.Proof.KRegion1
import proofs.«105258_j23639499997343_1_alg».proof.Proof.KRegion2
import proofs.«105258_j23639499997343_1_alg».proof.Proof.KRegion3
import proofs.«105258_j23639499997343_1_alg».proof.Proof.KRegion4
import proofs.«105258_j23639499997343_1_alg».proof.Proof.KRegion5

set_option maxRecDepth 16384

noncomputable section

namespace Cert.KernelIdeal.FoldValue

open Idealize.ShloMosaic Idealize.ShloMosaic.TcCoe Idealize.ShloMosaic.StableHlo
open Idealize.SL Idealize.SL.Sem
open Cert.KernelIdeal Cert.KernelIdeal.Gen Cert.KernelIdeal.HostValue Cert.KernelIdeal.RegionValue

variable (m : (ℓ : Loc nD τ sig) → Buf (Elt Ideal) ℓ) (ρ : Dev nD → PrngReg) (c : Dev nD)

/-- An argument's launch contents. -/
abbrev arg (b : Ref sig .tc) : Buf (Elt Ideal) ((c : Thread nD τ).loc b) := m ((c : Thread nD τ).loc b)

/-! ## Arguments and index rows at the boundaries where they are read -/

theorem arg2 (b : Ref sig .tc) (hb : b ∈ args) : W2 m ρ c (Proc.devRef .tc b) = (arg m c b) := (at2 m ρ c b (args_sub_kept hb)).trans (keep1 m ρ c b hb)
theorem arg3 (b : Ref sig .tc) (hb : b ∈ args) : W3 m ρ c (Proc.devRef .tc b) = (arg m c b) := (at3 m ρ c b (args_sub_kept hb)).trans (keep1 m ρ c b hb)
theorem arg4 (b : Ref sig .tc) (hb : b ∈ args) : W4 m ρ c (Proc.devRef .tc b) = (arg m c b) := (at4 m ρ c b (args_sub_kept hb)).trans (keep1 m ρ c b hb)
theorem arg6 (b : Ref sig .tc) (hb : b ∈ args) : W6 m ρ c (Proc.devRef .tc b) = (arg m c b) := (at6 m ρ c b (args_sub_kept hb)).trans (keep1 m ρ c b hb)
theorem arg7 (b : Ref sig .tc) (hb : b ∈ args) : W7 m ρ c (Proc.devRef .tc b) = (arg m c b) := (at7 m ρ c b (args_sub_kept hb)).trans (keep1 m ρ c b hb)
theorem arg9 (b : Ref sig .tc) (hb : b ∈ args) : W9 m ρ c (Proc.devRef .tc b) = (arg m c b) := (at9 m ρ c b (args_sub_kept hb)).trans (keep1 m ρ c b hb)
theorem arg10 (b : Ref sig .tc) (hb : b ∈ args) : W10 m ρ c (Proc.devRef .tc b) = (arg m c b) := (at10 m ρ c b (args_sub_kept hb)).trans (keep1 m ρ c b hb)
theorem arg12 (b : Ref sig .tc) (hb : b ∈ args) : W12 m ρ c (Proc.devRef .tc b) = (arg m c b) := (at12 m ρ c b (args_sub_kept hb)).trans (keep1 m ρ c b hb)
theorem arg13 (b : Ref sig .tc) (hb : b ∈ args) : W13 m ρ c (Proc.devRef .tc b) = (arg m c b) := (at13 m ρ c b (args_sub_kept hb)).trans (keep1 m ρ c b hb)
theorem arg14 (b : Ref sig .tc) (hb : b ∈ args) : W14 m ρ c (Proc.devRef .tc b) = (arg m c b) := (at14 m ρ c b (args_sub_kept hb)).trans (keep1 m ρ c b hb)
theorem arg15 (b : Ref sig .tc) (hb : b ∈ args) : W15 m ρ c (Proc.devRef .tc b) = (arg m c b) := (at15 m ρ c b (args_sub_kept hb)).trans (keep1 m ρ c b hb)

theorem src1 : W1 m ρ c (Proc.devRef .tc main_v1) = srcRow (arg m c main_arg1) := src_after (W0 m ρ c)
theorem dst1 : W1 m ρ c (Proc.devRef .tc main_v3) = dstRow (arg m c main_arg1) := dst_after (W0 m ρ c)

theorem src2 : W2 m ρ c (Proc.devRef .tc main_v1) = srcRow (arg m c main_arg1) := (at2 m ρ c main_v1 (by decide)).trans (src1 m ρ c)
theorem src5 : W5 m ρ c (Proc.devRef .tc main_v1) = srcRow (arg m c main_arg1) := (at5 m ρ c main_v1 (by decide)).trans (src1 m ρ c)
theorem src8 : W8 m ρ c (Proc.devRef .tc main_v1) = srcRow (arg m c main_arg1) := (at8 m ρ c main_v1 (by decide)).trans (src1 m ρ c)
theorem src11 : W11 m ρ c (Proc.devRef .tc main_v1) = srcRow (arg m c main_arg1) := (at11 m ρ c main_v1 (by decide)).trans (src1 m ρ c)
theorem dst3 : W3 m ρ c (Proc.devRef .tc main_v3) = dstRow (arg m c main_arg1) := (at3 m ρ c main_v3 (by decide)).trans (dst1 m ρ c)
theorem dst6 : W6 m ρ c (Proc.devRef .tc main_v3) = dstRow (arg m c main_arg1) := (at6 m ρ c main_v3 (by decide)).trans (dst1 m ρ c)
theorem dst9 : W9 m ρ c (Proc.devRef .tc main_v3) = dstRow (arg m c main_arg1) := (at9 m ρ c main_v3 (by decide)).trans (dst1 m ρ c)
theorem dst12 : W12 m ρ c (Proc.devRef .tc main_v3) = dstRow (arg m c main_arg1) := (at12 m ρ c main_v3 (by decide)).trans (dst1 m ρ c)

/-! ## Layer 1 -/

theorem v4 : W2 m ρ c (Proc.devRef .tc main_v4) = p1 (arg m c main_arg0) (arg m c main_arg4) := by
  refine ((W2_arr m ρ c 2).trans (arr0 (V1 m ρ) c)).trans ?_
  show Net.lin (W1 m ρ c (Proc.devRef .tc main_arg0)) (W1 m ρ c (Proc.devRef .tc main_arg4)) = _
  rw [keep1 m ρ c main_arg0 (by decide), keep1 m ρ c main_arg4 (by decide)]
  rfl

theorem v5 : W3 m ρ c (Proc.devRef .tc main_v5) = take16 (p1 (arg m c main_arg0) (arg m c main_arg4)) (srcRow (arg m c main_arg1)) := by
  refine (take16_after (W2 m ρ c)).trans ?_
  rw [v4 m ρ c, src2 m ρ c]

theorem v11 : W4 m ρ c (Proc.devRef .tc main_v11) = g1 (arg m c main_arg0) (arg m c main_arg1) (arg m c main_arg2) (arg m c main_arg4) := by
  refine (agg16_after (W3 m ρ c)).trans ?_
  rw [v5 m ρ c, dst3 m ρ c, arg3 m ρ c main_arg2 (by decide)]
  rfl

theorem v12 : W4 m ρ c (Proc.devRef .tc main_v12) = row16 (arg m c main_arg5) := by
  refine (row16_after (W3 m ρ c)).trans ?_
  rw [arg3 m ρ c main_arg5 (by decide)]

/-! ## Layer 2 -/

theorem v13 : W5 m ρ c (Proc.devRef .tc main_v13)
    = p2 (g1 (arg m c main_arg0) (arg m c main_arg1) (arg m c main_arg2) (arg m c main_arg4)) (arg m c main_arg5) (arg m c main_arg6) := by
  refine ((W5_arr m ρ c 3).trans (arr1 (V4 m ρ) c)).trans ?_
  show Net.lin (Net.actM (Net.addRow (W4 m ρ c (Proc.devRef .tc main_v11)) (W4 m ρ c (Proc.devRef .tc main_v12))))
    (W4 m ρ c (Proc.devRef .tc main_arg6)) = _
  rw [v11 m ρ c, v12 m ρ c, arg4 m ρ c main_arg6 (by decide)]
  rfl

theorem v14 : W6 m ρ c (Proc.devRef .tc main_v14)
    = take32 (p2 (g1 (arg m c main_arg0) (arg m c main_arg1) (arg m c main_arg2) (arg m c main_arg4)) (arg m c main_arg5) (arg m c main_arg6)) (srcRow (arg m c main_arg1)) := by
  refine (take32_after (W5 m ρ c)).trans ?_
  rw [v13 m ρ c, src5 m ρ c]

theorem v20 : W7 m ρ c (Proc.devRef .tc main_v20)
    = g2 (p2 (g1 (arg m c main_arg0) (arg m c main_arg1) (arg m c main_arg2) (arg m c main_arg4)) (arg m c main_arg5) (arg m c main_arg6)) (arg m c main_arg1) (arg m c main_arg2) := by
  refine (agg32_after (W6 m ρ c)).trans ?_
  rw [v14 m ρ c, dst6 m ρ c, arg6 m ρ c main_arg2 (by decide)]
  rfl

theorem v21 : W7 m ρ c (Proc.devRef .tc main_v21) = row32 (arg m c main_arg7) := by
  refine (row32_after (W6 m ρ c)).trans ?_
  rw [arg6 m ρ c main_arg7 (by decide)]

/-! ## Layer 3 -/

/-- The second neighbour sum, named. -/
abbrev G2 : FVec Ideal S253952x32 .f32 :=
  g2 (p2 (g1 (arg m c main_arg0) (arg m c main_arg1) (arg m c main_arg2) (arg m c main_arg4)) (arg m c main_arg5) (arg m c main_arg6)) (arg m c main_arg1) (arg m c main_arg2)

theorem v22 : W8 m ρ c (Proc.devRef .tc main_v22) = p3 (G2 m c) (arg m c main_arg7) (arg m c main_arg8) := by
  refine ((W8_arr m ρ c 3).trans (arr2 (V7 m ρ) c)).trans ?_
  show Net.lin (Net.actM (Net.addRow (W7 m ρ c (Proc.devRef .tc main_v20)) (W7 m ρ c (Proc.devRef .tc main_v21))))
    (W7 m ρ c (Proc.devRef .tc main_arg8)) = _
  rw [v20 m ρ c, v21 m ρ c, arg7 m ρ c main_arg8 (by decide)]
  rfl

theorem v23 : W9 m ρ c (Proc.devRef .tc main_v23) = take64 (p3 (G2 m c) (arg m c main_arg7) (arg m c main_arg8)) (srcRow (arg m c main_arg1)) := by
  refine (take64_after (W8 m ρ c)).trans ?_
  rw [v22 m ρ c, src8 m ρ c]

theorem v29 : W10 m ρ c (Proc.devRef .tc main_v29) = g3 (p3 (G2 m c) (arg m c main_arg7) (arg m c main_arg8)) (arg m c main_arg1) (arg m c main_arg2) := by
  refine (agg64_after (W9 m ρ c)).trans ?_
  rw [v23 m ρ c, dst9 m ρ c, arg9 m ρ c main_arg2 (by decide)]
  rfl

theorem v30 : W10 m ρ c (Proc.devRef .tc main_v30) = row64 (arg m c main_arg9) := by
  refine (row64_after (W9 m ρ c)).trans ?_
  rw [arg9 m ρ c main_arg9 (by decide)]

/-! ## Layer 4 -/

/-- The third neighbour sum, named. -/
abbrev G3 : FVec Ideal S253952x64 .f32 := g3 (p3 (G2 m c) (arg m c main_arg7) (arg m c main_arg8)) (arg m c main_arg1) (arg m c main_arg2)

theorem v31 : W11 m ρ c (Proc.devRef .tc main_v31) = p4 (G3 m c) (arg m c main_arg9) (arg m c main_arg10) := by
  refine ((W11_arr m ρ c 3).trans (arr3 (V10 m ρ) c)).trans ?_
  show Net.lin (Net.actM (Net.addRow (W10 m ρ c (Proc.devRef .tc main_v29)) (W10 m ρ c (Proc.devRef .tc main_v30))))
    (W10 m ρ c (Proc.devRef .tc main_arg10)) = _
  rw [v29 m ρ c, v30 m ρ c, arg10 m ρ c main_arg10 (by decide)]
  rfl

theorem v32 : W12 m ρ c (Proc.devRef .tc main_v32) = take50 (p4 (G3 m c) (arg m c main_arg9) (arg m c main_arg10)) (srcRow (arg m c main_arg1)) := by
  refine (take50_after (W11 m ρ c)).trans ?_
  rw [v31 m ρ c, src11 m ρ c]

theorem v38 : W13 m ρ c (Proc.devRef .tc main_v38) = g4 (p4 (G3 m c) (arg m c main_arg9) (arg m c main_arg10)) (arg m c main_arg1) (arg m c main_arg2) := by
  refine (agg50_after (W12 m ρ c)).trans ?_
  rw [v32 m ρ c, dst12 m ρ c, arg12 m ρ c main_arg2 (by decide)]
  rfl

theorem v39 : W13 m ρ c (Proc.devRef .tc main_v39) = row50 (arg m c main_arg11) := by
  refine (row50_after (W12 m ρ c)).trans ?_
  rw [arg12 m ρ c main_arg11 (by decide)]

/-! ## The node features, the pooling, the head -/

/-- The fourth neighbour sum, named. -/
abbrev G4 : FVec Ideal S253952x50 .f32 := g4 (p4 (G3 m c) (arg m c main_arg9) (arg m c main_arg10)) (arg m c main_arg1) (arg m c main_arg2)

theorem v40 : W14 m ρ c (Proc.devRef .tc main_v40) = nodes (G4 m c) (arg m c main_arg11) := by
  refine ((W14_arr m ρ c 2).trans (arr4 (V13 m ρ) c)).trans ?_
  show Net.actM (Net.actM (Net.addRow (W13 m ρ c (Proc.devRef .tc main_v38)) (W13 m ρ c (Proc.devRef .tc main_v39)))) = _
  rw [v38 m ρ c, v39 m ρ c]
  rfl

theorem v43 : W15 m ρ c (Proc.devRef .tc main_v43) = pool (nodes (G4 m c) (arg m c main_arg11)) (arg m c main_arg3) := by
  refine (pool_after (W14 m ρ c)).trans ?_
  rw [v40 m ρ c, arg14 m ρ c main_arg3 (by decide)]

theorem v44 : W15 m ρ c (Proc.devRef .tc main_v44) = row30 (arg m c main_arg13) := by
  refine (row30_after (W14 m ρ c)).trans ?_
  rw [arg14 m ρ c main_arg13 (by decide)]

theorem v45 : W15 m ρ c (Proc.devRef .tc main_v45) = row20 (arg m c main_arg15) := by
  refine (row20_after (W14 m ρ c)).trans ?_
  rw [arg14 m ρ c main_arg15 (by decide)]

theorem v46 : W15 m ρ c (Proc.devRef .tc main_v46) = row2 (arg m c main_arg17) := by
  refine (row2_after (W14 m ρ c)).trans ?_
  rw [arg14 m ρ c main_arg17 (by decide)]

/-- THE RESULT BUFFER at the end of the fold is the network function of the eighteen arguments as launched. -/
theorem result_value : W16 m ρ c (Proc.devRef .tc main_v47)
    = net (arg m c main_arg0) (arg m c main_arg1) (arg m c main_arg2) (arg m c main_arg3) (arg m c main_arg4) (arg m c main_arg5) (arg m c main_arg6) (arg m c main_arg7) (arg m c main_arg8)
        (arg m c main_arg9) (arg m c main_arg10) (arg m c main_arg11) (arg m c main_arg12) (arg m c main_arg13) (arg m c main_arg14) (arg m c main_arg15) (arg m c main_arg16) (arg m c main_arg17) := by
  refine ((W16_arr m ρ c 7).trans (arr5 (V15 m ρ) c)).trans ?_
  show Net.actM (Net.addRow (Net.lin (Net.actM (Net.addRow (Net.lin (Net.actM (Net.addRow
      (Net.lin (W15 m ρ c (Proc.devRef .tc main_v43)) (W15 m ρ c (Proc.devRef .tc main_arg12)))
      (W15 m ρ c (Proc.devRef .tc main_v44)))) (W15 m ρ c (Proc.devRef .tc main_arg14)))
      (W15 m ρ c (Proc.devRef .tc main_v45)))) (W15 m ρ c (Proc.devRef .tc main_arg16)))
      (W15 m ρ c (Proc.devRef .tc main_v46))) = _
  rw [v43 m ρ c, v44 m ρ c, v45 m ρ c, v46 m ρ c, arg15 m ρ c main_arg12 (by decide), arg15 m ρ c main_arg14 (by decide),
    arg15 m ρ c main_arg16 (by decide)]
  rfl

end Cert.KernelIdeal.FoldValue

end
-- ==== Proof.RefRunDefs.lean ====
/-
  The reference program's result as a composition of small named stages, for any float values.

  The reference is a four-layer graph convolution with a pooled three-layer head. Each convolution layer is: a matrix
  product of the node features with the layer's weights; a neighbour sum (gather the product's rows at the edges' source
  nodes, scale each gathered row by its edge weight, add the scaled rows into the rows of a zero matrix at the edges'
  destination nodes); the layer's bias added to every row; the leaky activation (x where x is at least zero, slope * x
  elsewhere). After the fourth layer the activation is applied once more, the node rows are summed per graph (added into
  the rows of a zero matrix at each node's graph number), and three dense layers (product, bias, activation) follow.
-/
import proofs.«105258_j23639499997343_1_alg».proof.Defs
import proofs.«105258_j23639499997343_1_alg».proof.Proof.Gen.ReferenceIdeal

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The index columns -/

/-- Row 0 of the edge table, as a vector: the edges' source nodes. -/
def srcRow (a1 : IVec S2x4000000 32) : IVec S4000000 32 :=
  shapeCast S4000000 (extractStridedSlice S1x4000000 ![0, 0] a1 slices_S2x4000000_S1x4000000_0_0) shapeCasts_S1x4000000_S4000000

/-- Row 1 of the edge table, as a vector: the edges' destination nodes. -/
def dstRow (a1 : IVec S2x4000000 32) : IVec S4000000 32 :=
  shapeCast S4000000 (extractStridedSlice S1x4000000 ![1, 0] a1 slices_S2x4000000_S1x4000000_1_0) shapeCasts_S1x4000000_S4000000

/-- A node index with the negative ones wrapped once around the node count: v + 253952 where v < 0, v elsewhere. -/
def wrap (v : IVec S4000000 32) : IVec S4000000 32 :=
  select (cmpi .slt v (broadcastInDim S4000000 ![] bcast_S_S4000000 (constantI S_ 32 0#32)))
    (addi v (broadcastInDim S4000000 ![] bcast_S_S4000000 (constantI S_ 32 253952#32))) v

/-- The edges' source nodes, wrapped, as a one-column index matrix. -/
def srcCol (a1 : IVec S2x4000000 32) : IVec S4000000x1 32 :=
  broadcastInDim S4000000x1 ![0] bcast_S4000000_S4000000x1_0 (wrap (srcRow a1))

/-- The edges' destination nodes as a one-column index matrix. -/
def dstCol (a1 : IVec S2x4000000 32) : IVec S4000000x1 32 :=
  broadcastInDim S4000000x1 ![0] bcast_S4000000_S4000000x1_0 (dstRow a1)

/-- The nodes' graph numbers as a one-column index matrix. -/
def batchCol (a3 : IVec S253952 32) : IVec S253952x1 32 :=
  broadcastInDim S253952x1 ![0] bcast_S253952_S253952x1_0 a3

/-- The edge weights as a one-column matrix. -/
def ewCol (a2 : FVec F S4000000 .f32) : FVec F S4000000x1 .f32 :=
  broadcastInDim S4000000x1 ![0] bcast_S4000000_S4000000x1_0 a2

/-! ## The leaky activation -/

/-- The leaky activation of every entry, as the program computes it: the comparison of x with a matrix of zeros, the
    product of a matrix of the slope with x, and the choice between x and that product. -/
def leaky {S : Shape} (hb : S_.BroadcastsInDim S (![] : Fin 0 → Fin S.rank)) (x : FVec F S .f32) : FVec F S .f32 :=
  select (cmpf .oge x (broadcastInDim S ![] hb (constant (F := F) S_ .f32 0x00000000#32))) x
    (mulf (broadcastInDim S ![] hb (constant (F := F) S_ .f32 0x3C23D70A#32)) x)

/-! ## Width 16 -/

/-- The layer's matrix product. -/
def dot16 (h : FVec F S253952x6 .f32) (W : FVec F S6x16 .f32) : FVec F S253952x16 .f32 :=
  Host.dotGeneral (F := F) dot_S253952x6_S6x16_S253952x16_1_0_0_1_n_n none h W

/-- The rows of h at the edges' source nodes, one row per edge. -/
def gath16 (h : FVec F S253952x16 .f32) (a1 : IVec S2x4000000 32) : FVec F S4000000x16 .f32 :=
  Host.gather gather_S253952x16_S4000000x1_S4000000x16_1_0_n_n_0_1_116 h (srcCol a1)

/-- The edge weights, one per edge, repeated along each row. -/
def ewB16 (a2 : FVec F S4000000 .f32) : FVec F S4000000x16 .f32 :=
  broadcastInDim S4000000x16 ![0, 1] bcast_S4000000x1_S4000000x16_0_1 (ewCol a2)

/-- A matrix of zeros, the neighbour sum's start. -/
def zeros16 : FVec F S253952x16 .f32 :=
  broadcastInDim S253952x16 ![] bcast_S_S253952x16 (constant (F := F) S_ .f32 0x00000000#32)

/-- The per-edge rows u added into the rows of a zero matrix at the edges' destination nodes. -/
def scat16 (u : FVec F S4000000x16 .f32) (a1 : IVec S2x4000000 32) : FVec F S253952x16 .f32 :=
  Host.scatterAdd (F := F) scatter_S253952x16_S4000000x1_S4000000x16_1_0_0_1 zeros16 (dstCol a1) u

/-- The neighbour sum: gather the rows of h at the source nodes, scale by the edge weights, add at the destination nodes. -/
def agg16 (h : FVec F S253952x16 .f32) (a1 : IVec S2x4000000 32) (a2 : FVec F S4000000 .f32) : FVec F S253952x16 .f32 :=
  scat16 (mulf (gath16 h a1) (ewB16 a2)) a1

/-- The bias, a vector, as a matrix with every row equal to it. -/
def biasB16 (b : FVec F S16 .f32) : FVec F S253952x16 .f32 :=
  broadcastInDim S253952x16 ![0, 1] bcast_S1x16_S253952x16_0_1 (broadcastInDim S1x16 ![1] bcast_S16_S1x16_1 b)

/-- The bias added to every row, then the leaky activation. -/
def biasAct16 (g : FVec F S253952x16 .f32) (b : FVec F S16 .f32) : FVec F S253952x16 .f32 :=
  leaky bcast_S_S253952x16 (addf g (biasB16 b))

/-- One convolution layer: product, neighbour sum, bias, activation. -/
def layer16 (h : FVec F S253952x6 .f32) (W : FVec F S6x16 .f32) (b : FVec F S16 .f32)
    (a1 : IVec S2x4000000 32) (a2 : FVec F S4000000 .f32) : FVec F S253952x16 .f32 :=
  biasAct16 (agg16 (dot16 h W) a1 a2) b

/-! ## Width 32 -/

/-- The layer's matrix product. -/
def dot32 (h : FVec F S253952x16 .f32) (W : FVec F S16x32 .f32) : FVec F S253952x32 .f32 :=
  Host.dotGeneral (F := F) dot_S253952x16_S16x32_S253952x32_1_0_0_1_n_n none h W

/-- The rows of h at the edges' source nodes, one row per edge. -/
def gath32 (h : FVec F S253952x32 .f32) (a1 : IVec S2x4000000 32) : FVec F S4000000x32 .f32 :=
  Host.gather gather_S253952x32_S4000000x1_S4000000x32_1_0_n_n_0_1_132 h (srcCol a1)

/-- The edge weights, one per edge, repeated along each row. -/
def ewB32 (a2 : FVec F S4000000 .f32) : FVec F S4000000x32 .f32 :=
  broadcastInDim S4000000x32 ![0, 1] bcast_S4000000x1_S4000000x32_0_1 (ewCol a2)

/-- A matrix of zeros, the neighbour sum's start. -/
def zeros32 : FVec F S253952x32 .f32 :=
  broadcastInDim S253952x32 ![] bcast_S_S253952x32 (constant (F := F) S_ .f32 0x00000000#32)

/-- The per-edge rows u added into the rows of a zero matrix at the edges' destination nodes. -/
def scat32 (u : FVec F S4000000x32 .f32) (a1 : IVec S2x4000000 32) : FVec F S253952x32 .f32 :=
  Host.scatterAdd (F := F) scatter_S253952x32_S4000000x1_S4000000x32_1_0_0_1 zeros32 (dstCol a1) u

/-- The neighbour sum: gather the rows of h at the source nodes, scale by the edge weights, add at the destination nodes. -/
def agg32 (h : FVec F S253952x32 .f32) (a1 : IVec S2x4000000 32) (a2 : FVec F S4000000 .f32) : FVec F S253952x32 .f32 :=
  scat32 (mulf (gath32 h a1) (ewB32 a2)) a1

/-- The bias, a vector, as a matrix with every row equal to it. -/
def biasB32 (b : FVec F S32 .f32) : FVec F S253952x32 .f32 :=
  broadcastInDim S253952x32 ![0, 1] bcast_S1x32_S253952x32_0_1 (broadcastInDim S1x32 ![1] bcast_S32_S1x32_1 b)

/-- The bias added to every row, then the leaky activation. -/
def biasAct32 (g : FVec F S253952x32 .f32) (b : FVec F S32 .f32) : FVec F S253952x32 .f32 :=
  leaky bcast_S_S253952x32 (addf g (biasB32 b))

/-- One convolution layer: product, neighbour sum, bias, activation. -/
def layer32 (h : FVec F S253952x16 .f32) (W : FVec F S16x32 .f32) (b : FVec F S32 .f32)
    (a1 : IVec S2x4000000 32) (a2 : FVec F S4000000 .f32) : FVec F S253952x32 .f32 :=
  biasAct32 (agg32 (dot32 h W) a1 a2) b

/-! ## Width 64 -/

/-- The layer's matrix product. -/
def dot64 (h : FVec F S253952x32 .f32) (W : FVec F S32x64 .f32) : FVec F S253952x64 .f32 :=
  Host.dotGeneral (F := F) dot_S253952x32_S32x64_S253952x64_1_0_0_1_n_n none h W

/-- The rows of h at the edges' source nodes, one row per edge. -/
def gath64 (h : FVec F S253952x64 .f32) (a1 : IVec S2x4000000 32) : FVec F S4000000x64 .f32 :=
  Host.gather gather_S253952x64_S4000000x1_S4000000x64_1_0_n_n_0_1_164 h (srcCol a1)

/-- The edge weights, one per edge, repeated along each row. -/
def ewB64 (a2 : FVec F S4000000 .f32) : FVec F S4000000x64 .f32 :=
  broadcastInDim S4000000x64 ![0, 1] bcast_S4000000x1_S4000000x64_0_1 (ewCol a2)

/-- A matrix of zeros, the neighbour sum's start. -/
def zeros64 : FVec F S253952x64 .f32 :=
  broadcastInDim S253952x64 ![] bcast_S_S253952x64 (constant (F := F) S_ .f32 0x00000000#32)

/-- The per-edge rows u added into the rows of a zero matrix at the edges' destination nodes. -/
def scat64 (u : FVec F S4000000x64 .f32) (a1 : IVec S2x4000000 32) : FVec F S253952x64 .f32 :=
  Host.scatterAdd (F := F) scatter_S253952x64_S4000000x1_S4000000x64_1_0_0_1 zeros64 (dstCol a1) u

/-- The neighbour sum: gather the rows of h at the source nodes, scale by the edge weights, add at the destination nodes. -/
def agg64 (h : FVec F S253952x64 .f32) (a1 : IVec S2x4000000 32) (a2 : FVec F S4000000 .f32) : FVec F S253952x64 .f32 :=
  scat64 (mulf (gath64 h a1) (ewB64 a2)) a1

/-- The bias, a vector, as a matrix with every row equal to it. -/
def biasB64 (b : FVec F S64 .f32) : FVec F S253952x64 .f32 :=
  broadcastInDim S253952x64 ![0, 1] bcast_S1x64_S253952x64_0_1 (broadcastInDim S1x64 ![1] bcast_S64_S1x64_1 b)

/-- The bias added to every row, then the leaky activation. -/
def biasAct64 (g : FVec F S253952x64 .f32) (b : FVec F S64 .f32) : FVec F S253952x64 .f32 :=
  leaky bcast_S_S253952x64 (addf g (biasB64 b))

/-- One convolution layer: product, neighbour sum, bias, activation. -/
def layer64 (h : FVec F S253952x32 .f32) (W : FVec F S32x64 .f32) (b : FVec F S64 .f32)
    (a1 : IVec S2x4000000 32) (a2 : FVec F S4000000 .f32) : FVec F S253952x64 .f32 :=
  biasAct64 (agg64 (dot64 h W) a1 a2) b

/-! ## Width 50 -/

/-- The layer's matrix product. -/
def dot50 (h : FVec F S253952x64 .f32) (W : FVec F S64x50 .f32) : FVec F S253952x50 .f32 :=
  Host.dotGeneral (F := F) dot_S253952x64_S64x50_S253952x50_1_0_0_1_n_n none h W

/-- The rows of h at the edges' source nodes, one row per edge. -/
def gath50 (h : FVec F S253952x50 .f32) (a1 : IVec S2x4000000 32) : FVec F S4000000x50 .f32 :=
  Host.gather gather_S253952x50_S4000000x1_S4000000x50_1_0_n_n_0_1_150 h (srcCol a1)

/-- The edge weights, one per edge, repeated along each row. -/
def ewB50 (a2 : FVec F S4000000 .f32) : FVec F S4000000x50 .f32 :=
  broadcastInDim S4000000x50 ![0, 1] bcast_S4000000x1_S4000000x50_0_1 (ewCol a2)

/-- A matrix of zeros, the neighbour sum's start. -/
def zeros50 : FVec F S253952x50 .f32 :=
  broadcastInDim S253952x50 ![] bcast_S_S253952x50 (constant (F := F) S_ .f32 0x00000000#32)

/-- The per-edge rows u added into the rows of a zero matrix at the edges' destination nodes. -/
def scat50 (u : FVec F S4000000x50 .f32) (a1 : IVec S2x4000000 32) : FVec F S253952x50 .f32 :=
  Host.scatterAdd (F := F) scatter_S253952x50_S4000000x1_S4000000x50_1_0_0_1 zeros50 (dstCol a1) u

/-- The neighbour sum: gather the rows of h at the source nodes, scale by the edge weights, add at the destination nodes. -/
def agg50 (h : FVec F S253952x50 .f32) (a1 : IVec S2x4000000 32) (a2 : FVec F S4000000 .f32) : FVec F S253952x50 .f32 :=
  scat50 (mulf (gath50 h a1) (ewB50 a2)) a1

/-- The bias, a vector, as a matrix with every row equal to it. -/
def biasB50 (b : FVec F S50 .f32) : FVec F S253952x50 .f32 :=
  broadcastInDim S253952x50 ![0, 1] bcast_S1x50_S253952x50_0_1 (broadcastInDim S1x50 ![1] bcast_S50_S1x50_1 b)

/-- The bias added to every row, then the leaky activation. -/
def biasAct50 (g : FVec F S253952x50 .f32) (b : FVec F S50 .f32) : FVec F S253952x50 .f32 :=
  leaky bcast_S_S253952x50 (addf g (biasB50 b))

/-- One convolution layer: product, neighbour sum, bias, activation. -/
def layer50 (h : FVec F S253952x64 .f32) (W : FVec F S64x50 .f32) (b : FVec F S50 .f32)
    (a1 : IVec S2x4000000 32) (a2 : FVec F S4000000 .f32) : FVec F S253952x50 .f32 :=
  biasAct50 (agg50 (dot50 h W) a1 a2) b

/-! ## The pooling and the head -/

/-- A matrix of zeros, the pooling's start. -/
def zerosP : FVec F S4096x50 .f32 :=
  broadcastInDim S4096x50 ![] bcast_S_S4096x50 (constant (F := F) S_ .f32 0x00000000#32)

/-- The node rows added into the rows of a zero matrix at the nodes' graph numbers. -/
def pool (h : FVec F S253952x50 .f32) (a3 : IVec S253952 32) : FVec F S4096x50 .f32 :=
  Host.scatterAdd (F := F) scatter_S4096x50_S253952x1_S253952x50_1_0_0_1 zerosP (batchCol a3) h

/-- The head layer's matrix product (width 30). -/
def hdot30 (h : FVec F S4096x50 .f32) (W : FVec F S50x30 .f32) : FVec F S4096x30 .f32 :=
  Host.dotGeneral (F := F) dot_S4096x50_S50x30_S4096x30_1_0_0_1_n_n none h W

/-- The head layer's bias as a matrix with every row equal to it (width 30). -/
def hbiasB30 (b : FVec F S30 .f32) : FVec F S4096x30 .f32 :=
  broadcastInDim S4096x30 ![0, 1] bcast_S1x30_S4096x30_0_1 (broadcastInDim S1x30 ![1] bcast_S30_S1x30_1 b)

/-- A head layer (width 30): product, bias, activation. -/
def head30 (h : FVec F S4096x50 .f32) (W : FVec F S50x30 .f32) (b : FVec F S30 .f32) : FVec F S4096x30 .f32 :=
  leaky bcast_S_S4096x30 (addf (hdot30 h W) (hbiasB30 b))

/-- The head layer's matrix product (width 20). -/
def hdot20 (h : FVec F S4096x30 .f32) (W : FVec F S30x20 .f32) : FVec F S4096x20 .f32 :=
  Host.dotGeneral (F := F) dot_S4096x30_S30x20_S4096x20_1_0_0_1_n_n none h W

/-- The head layer's bias as a matrix with every row equal to it (width 20). -/
def hbiasB20 (b : FVec F S20 .f32) : FVec F S4096x20 .f32 :=
  broadcastInDim S4096x20 ![0, 1] bcast_S1x20_S4096x20_0_1 (broadcastInDim S1x20 ![1] bcast_S20_S1x20_1 b)

/-- A head layer (width 20): product, bias, activation. -/
def head20 (h : FVec F S4096x30 .f32) (W : FVec F S30x20 .f32) (b : FVec F S20 .f32) : FVec F S4096x20 .f32 :=
  leaky bcast_S_S4096x20 (addf (hdot20 h W) (hbiasB20 b))

/-- The head layer's matrix product (width 2). -/
def hdot2 (h : FVec F S4096x20 .f32) (W : FVec F S20x2 .f32) : FVec F S4096x2 .f32 :=
  Host.dotGeneral (F := F) dot_S4096x20_S20x2_S4096x2_1_0_0_1_n_n none h W

/-- The head layer's bias as a matrix with every row equal to it (width 2). -/
def hbiasB2 (b : FVec F S2 .f32) : FVec F S4096x2 .f32 :=
  broadcastInDim S4096x2 ![0, 1] bcast_S1x2_S4096x2_0_1 (broadcastInDim S1x2 ![1] bcast_S2_S1x2_1 b)

/-- A head layer (width 2): product, bias, activation. -/
def head2 (h : FVec F S4096x20 .f32) (W : FVec F S20x2 .f32) (b : FVec F S2 .f32) : FVec F S4096x2 .f32 :=
  leaky bcast_S_S4096x2 (addf (hdot2 h W) (hbiasB2 b))

/-! ## The whole -/

/-- The node features after the four convolution layers and the second activation of the last one. -/
def nodes (a0 : FVec F S253952x6 .f32) (a1 : IVec S2x4000000 32) (a2 : FVec F S4000000 .f32)
    (a4 : FVec F S6x16 .f32) (a5 : FVec F S16 .f32) (a6 : FVec F S16x32 .f32) (a7 : FVec F S32 .f32)
    (a8 : FVec F S32x64 .f32) (a9 : FVec F S64 .f32) (a10 : FVec F S64x50 .f32) (a11 : FVec F S50 .f32) :
    FVec F S253952x50 .f32 :=
  leaky bcast_S_S253952x50
    (layer50 (layer64 (layer32 (layer16 a0 a4 a5 a1 a2) a6 a7 a1 a2) a8 a9 a1 a2) a10 a11 a1 a2)

/-- The reference's result as a function of its eighteen arguments. -/
def result (a0 : FVec F S253952x6 .f32) (a1 : IVec S2x4000000 32) (a2 : FVec F S4000000 .f32) (a3 : IVec S253952 32)
    (a4 : FVec F S6x16 .f32) (a5 : FVec F S16 .f32) (a6 : FVec F S16x32 .f32) (a7 : FVec F S32 .f32)
    (a8 : FVec F S32x64 .f32) (a9 : FVec F S64 .f32) (a10 : FVec F S64x50 .f32) (a11 : FVec F S50 .f32)
    (a12 : FVec F S50x30 .f32) (a13 : FVec F S30 .f32) (a14 : FVec F S30x20 .f32) (a15 : FVec F S20 .f32)
    (a16 : FVec F S20x2 .f32) (a17 : FVec F S2 .f32) : FVec F S4096x2 .f32 :=
  head2 (head20 (head30 (pool (nodes a0 a1 a2 a4 a5 a6 a7 a8 a9 a10 a11) a3) a12 a13) a14 a15) a16 a17

end Cert.ReferenceIdeal.RefValue

end
-- ==== Proof.RefRun.lean ====
/-
  The reference program's run, read back as the composition of stages.

  The program is a straight line of 164 array operations (its eight calls of the activation unfolded where they stand,
  seven operations each). The line is cut into nine consecutive windows along the network's stages; after each window
  the buffers still needed hold the named stage of the arguments, and a buffer no window writes holds what it held.
  Every weakly fair execution therefore ends with the result buffer at `result` of the arguments' launch contents and
  the arguments unchanged.
-/
import proofs.«105258_j23639499997343_1_alg».proof.Proof.RefRunDefs
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The operations, window by window -/

/-- The two rows of the edge table, each sliced out and reshaped to a vector. -/
abbrev w0 : List (HloOp τ sig (Elt F)) :=
  [ unary main_arg1 main_v0 ((extractStridedSlice S1x4000000 ![0, 0] · slices_S2x4000000_S1x4000000_0_0) : (⟨S2x4000000, .i32⟩ : BufTy).Contents (Elt F) → (⟨S1x4000000, .i32⟩ : BufTy).Contents (Elt F)),
    reshape main_v0 main_v1 rfl shapeCasts_S1x4000000_S4000000,
    unary main_arg1 main_v2 ((extractStridedSlice S1x4000000 ![1, 0] · slices_S2x4000000_S1x4000000_1_0) : (⟨S2x4000000, .i32⟩ : BufTy).Contents (Elt F) → (⟨S1x4000000, .i32⟩ : BufTy).Contents (Elt F)),
    reshape main_v2 main_v3 rfl shapeCasts_S1x4000000_S4000000 ]

/-- Layer 1: product, wrapped source column, gather, scaling, scatter-add, bias, activation. -/
abbrev l1 : List (HloOp τ sig (Elt F)) :=
  [ binary main_arg0 main_arg4 main_v4 ((fun l r => Host.dotGeneral dot_S253952x6_S6x16_S253952x16_1_0_0_1_n_n none l r) : (⟨S253952x6, .f32⟩ : BufTy).Contents (Elt F) → (⟨S6x16, .f32⟩ : BufTy).Contents (Elt F) → (⟨S253952x16, .f32⟩ : BufTy).Contents (Elt F)),
    nullary main_c (constantI S_ 32 0#32),
    unary main_c main_v5 (broadcastInDim S4000000 ![] bcast_S_S4000000 : (⟨S_, .i32⟩ : BufTy).Contents (Elt F) → (⟨S4000000, .i32⟩ : BufTy).Contents (Elt F)),
    binary main_v1 main_v5 main_v6 (cmpi .slt : (⟨S4000000, .i32⟩ : BufTy).Contents (Elt F) → (⟨S4000000, .i32⟩ : BufTy).Contents (Elt F) → (⟨S4000000, .i1⟩ : BufTy).Contents (Elt F)),
    nullary main_c_0 (constantI S_ 32 253952#32),
    unary main_c_0 main_v7 (broadcastInDim S4000000 ![] bcast_S_S4000000 : (⟨S_, .i32⟩ : BufTy).Contents (Elt F) → (⟨S4000000, .i32⟩ : BufTy).Contents (Elt F)),
    binary main_v1 main_v7 main_v8 (addi : (⟨S4000000, .i32⟩ : BufTy).Contents (Elt F) → (⟨S4000000, .i32⟩ : BufTy).Contents (Elt F) → (⟨S4000000, .i32⟩ : BufTy).Contents (Elt F)),
    ternary main_v6 main_v8 main_v1 main_v9 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v9 main_v10 (broadcastInDim S4000000x1 ![0] bcast_S4000000_S4000000x1_0 : (⟨S4000000, .i32⟩ : BufTy).Contents (Elt F) → (⟨S4000000x1, .i32⟩ : BufTy).Contents (Elt F)),
    binary main_v4 main_v10 main_v11 ((fun x i => Host.gather gather_S253952x16_S4000000x1_S4000000x16_1_0_n_n_0_1_116 x i) : (⟨S253952x16, .f32⟩ : BufTy).Contents (Elt F) → (⟨S4000000x1, .i32⟩ : BufTy).Contents (Elt F) → (⟨S4000000x16, .f32⟩ : BufTy).Contents (Elt F)),
    unary main_arg2 main_v12 (broadcastInDim S4000000x1 ![0] bcast_S4000000_S4000000x1_0 : (⟨S4000000, .f32⟩ : BufTy).Contents (Elt F) → (⟨S4000000x1, .f32⟩ : BufTy).Contents (Elt F)),
    unary main_v12 main_v13 (broadcastInDim S4000000x16 ![0, 1] bcast_S4000000x1_S4000000x16_0_1 : (⟨S4000000x1, .f32⟩ : BufTy).Contents (Elt F) → (⟨S4000000x16, .f32⟩ : BufTy).Contents (Elt F)),
    binary main_v11 main_v13 main_v14 (mulf : (⟨S4000000x16, .f32⟩ : BufTy).Contents (Elt F) → (⟨S4000000x16, .f32⟩ : BufTy).Contents (Elt F) → (⟨S4000000x16, .f32⟩ : BufTy).Contents (Elt F)),
    nullary main_cst (constant S_ .f32 0x00000000#32),
    unary main_cst main_v15 (broadcastInDim S253952x16 ![] bcast_S_S253952x16 : (⟨S_, .f32⟩ : BufTy).Contents (Elt F) → (⟨S253952x16, .f32⟩ : BufTy).Contents (Elt F)),
    unary main_v3 main_v16 (broadcastInDim S4000000x1 ![0] bcast_S4000000_S4000000x1_0 : (⟨S4000000, .i32⟩ : BufTy).Contents (Elt F) → (⟨S4000000x1, .i32⟩ : BufTy).Contents (Elt F)),
    ternary main_v15 main_v16 main_v14 main_v17 ((fun x i u => Host.scatterAdd scatter_S253952x16_S4000000x1_S4000000x16_1_0_0_1 x i u) : (⟨S253952x16, .f32⟩ : BufTy).Contents (Elt F) → (⟨S4000000x1, .i32⟩ : BufTy).Contents (Elt F) → (⟨S4000000x16, .f32⟩ : BufTy).Contents (Elt F) → (⟨S253952x16, .f32⟩ : BufTy).Contents (Elt F)),
    unary main_arg5 main_v18 (broadcastInDim S1x16 ![1] bcast_S16_S1x16_1 : (⟨S16, .f32⟩ : BufTy).Contents (Elt F) → (⟨S1x16, .f32⟩ : BufTy).Contents (Elt F)),
    unary main_v18 main_v19 (broadcastInDim S253952x16 ![0, 1] bcast_S1x16_S253952x16_0_1 : (⟨S1x16, .f32⟩ : BufTy).Contents (Elt F) → (⟨S253952x16, .f32⟩ : BufTy).Contents (Elt F)),
    binary main_v17 main_v19 main_v20 (addf : (⟨S253952x16, .f32⟩ : BufTy).Contents (Elt F) → (⟨S253952x16, .f32⟩ : BufTy).Contents (Elt F) → (⟨S253952x16, .f32⟩ : BufTy).Contents (Elt F)),
    nullary main_cst_1 (constant S_ .f32 0x3C23D70A#32),
    TRef.nullary main_call0.cst (constant S_ .f32 0x00000000#32),
    TRef.unary main_call0.cst main_call0.v0 (broadcastInDim S253952x16 ![] bcast_S_S253952x16),
    TRef.binary (.of main_v20) main_call0.v0 main_call0.v1 (cmpf .oge),
    TRef.unary (.of main_cst_1) main_call0.v2 id,
    TRef.unary main_call0.v2 main_call0.v3 (broadcastInDim S253952x16 ![] bcast_S_S253952x16),
    TRef.binary main_call0.v3 (.of main_v20) main_call0.v4 mulf,
    TRef.ternary main_call0.v1 (.of main_v20) main_call0.v4 main_call0.call0.v0 select ]

/-- Layer 2, the same eight steps at width 32. -/
abbrev l2 : List (HloOp τ sig (Elt F)) :=
  [ binary main_v21 main_arg6 main_v22 ((fun l r => Host.dotGeneral dot_S253952x16_S16x32_S253952x32_1_0_0_1_n_n none l r) : (⟨S253952x16, .f32⟩ : BufTy).Contents (Elt F) → (⟨S16x32, .f32⟩ : BufTy).Contents (Elt F) → (⟨S253952x32, .f32⟩ : BufTy).Contents (Elt F)),
    nullary main_c_2 (constantI S_ 32 0#32),
    unary main_c_2 main_v23 (broadcastInDim S4000000 ![] bcast_S_S4000000 : (⟨S_, .i32⟩ : BufTy).Contents (Elt F) → (⟨S4000000, .i32⟩ : BufTy).Contents (Elt F)),
    binary main_v1 main_v23 main_v24 (cmpi .slt : (⟨S4000000, .i32⟩ : BufTy).Contents (Elt F) → (⟨S4000000, .i32⟩ : BufTy).Contents (Elt F) → (⟨S4000000, .i1⟩ : BufTy).Contents (Elt F)),
    nullary main_c_3 (constantI S_ 32 253952#32),
    unary main_c_3 main_v25 (broadcastInDim S4000000 ![] bcast_S_S4000000 : (⟨S_, .i32⟩ : BufTy).Contents (Elt F) → (⟨S4000000, .i32⟩ : BufTy).Contents (Elt F)),
    binary main_v1 main_v25 main_v26 (addi : (⟨S4000000, .i32⟩ : BufTy).Contents (Elt F) → (⟨S4000000, .i32⟩ : BufTy).Contents (Elt F) → (⟨S4000000, .i32⟩ : BufTy).Contents (Elt F)),
    ternary main_v24 main_v26 main_v1 main_v27 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v27 main_v28 (broadcastInDim S4000000x1 ![0] bcast_S4000000_S4000000x1_0 : (⟨S4000000, .i32⟩ : BufTy).Contents (Elt F) → (⟨S4000000x1, .i32⟩ : BufTy).Contents (Elt F)),
    binary main_v22 main_v28 main_v29 ((fun x i => Host.gather gather_S253952x32_S4000000x1_S4000000x32_1_0_n_n_0_1_132 x i) : (⟨S253952x32, .f32⟩ : BufTy).Contents (Elt F) → (⟨S4000000x1, .i32⟩ : BufTy).Contents (Elt F) → (⟨S4000000x32, .f32⟩ : BufTy).Contents (Elt F)),
    unary main_arg2 main_v30 (broadcastInDim S4000000x1 ![0] bcast_S4000000_S4000000x1_0 : (⟨S4000000, .f32⟩ : BufTy).Contents (Elt F) → (⟨S4000000x1, .f32⟩ : BufTy).Contents (Elt F)),
    unary main_v30 main_v31 (broadcastInDim S4000000x32 ![0, 1] bcast_S4000000x1_S4000000x32_0_1 : (⟨S4000000x1, .f32⟩ : BufTy).Contents (Elt F) → (⟨S4000000x32, .f32⟩ : BufTy).Contents (Elt F)),
    binary main_v29 main_v31 main_v32 (mulf : (⟨S4000000x32, .f32⟩ : BufTy).Contents (Elt F) → (⟨S4000000x32, .f32⟩ : BufTy).Contents (Elt F) → (⟨S4000000x32, .f32⟩ : BufTy).Contents (Elt F)),
    nullary main_cst_4 (constant S_ .f32 0x00000000#32),
    unary main_cst_4 main_v33 (broadcastInDim S253952x32 ![] bcast_S_S253952x32 : (⟨S_, .f32⟩ : BufTy).Contents (Elt F) → (⟨S253952x32, .f32⟩ : BufTy).Contents (Elt F)),
    unary main_v3 main_v34 (broadcastInDim S4000000x1 ![0] bcast_S4000000_S4000000x1_0 : (⟨S4000000, .i32⟩ : BufTy).Contents (Elt F) → (⟨S4000000x1, .i32⟩ : BufTy).Contents (Elt F)),
    ternary main_v33 main_v34 main_v32 main_v35 ((fun x i u => Host.scatterAdd scatter_S253952x32_S4000000x1_S4000000x32_1_0_0_1 x i u) : (⟨S253952x32, .f32⟩ : BufTy).Contents (Elt F) → (⟨S4000000x1, .i32⟩ : BufTy).Contents (Elt F) → (⟨S4000000x32, .f32⟩ : BufTy).Contents (Elt F) → (⟨S253952x32, .f32⟩ : BufTy).Contents (Elt F)),
    unary main_arg7 main_v36 (broadcastInDim S1x32 ![1] bcast_S32_S1x32_1 : (⟨S32, .f32⟩ : BufTy).Contents (Elt F) → (⟨S1x32, .f32⟩ : BufTy).Contents (Elt F)),
    unary main_v36 main_v37 (broadcastInDim S253952x32 ![0, 1] bcast_S1x32_S253952x32_0_1 : (⟨S1x32, .f32⟩ : BufTy).Contents (Elt F) → (⟨S253952x32, .f32⟩ : BufTy).Contents (Elt F)),
    binary main_v35 main_v37 main_v38 (addf : (⟨S253952x32, .f32⟩ : BufTy).Contents (Elt F) → (⟨S253952x32, .f32⟩ : BufTy).Contents (Elt F) → (⟨S253952x32, .f32⟩ : BufTy).Contents (Elt F)),
    nullary main_cst_5 (constant S_ .f32 0x3C23D70A#32),
    TRef.nullary main_call1.cst (constant S_ .f32 0x00000000#32),
    TRef.unary main_call1.cst main_call1.v0 (broadcastInDim S253952x32 ![] bcast_S_S253952x32),
    TRef.binary (.of main_v38) main_call1.v0 main_call1.v1 (cmpf .oge),
    TRef.unary (.of main_cst_5) main_call1.v2 id,
    TRef.unary main_call1.v2 main_call1.v3 (broadcastInDim S253952x32 ![] bcast_S_S253952x32),
    TRef.binary main_call1.v3 (.of main_v38) main_call1.v4 mulf,
    TRef.ternary main_call1.v1 (.of main_v38) main_call1.v4 main_call1.call0.v0 select ]

/-- Layer 3 up to the gathered rows and the repeated edge weights. -/
abbrev l3a : List (HloOp τ sig (Elt F)) :=
  [ binary main_v39 main_arg8 main_v40 ((fun l r => Host.dotGeneral dot_S253952x32_S32x64_S253952x64_1_0_0_1_n_n none l r) : (⟨S253952x32, .f32⟩ : BufTy).Contents (Elt F) → (⟨S32x64, .f32⟩ : BufTy).Contents (Elt F) → (⟨S253952x64, .f32⟩ : BufTy).Contents (Elt F)),
    nullary main_c_6 (constantI S_ 32 0#32),
    unary main_c_6 main_v41 (broadcastInDim S4000000 ![] bcast_S_S4000000 : (⟨S_, .i32⟩ : BufTy).Contents (Elt F) → (⟨S4000000, .i32⟩ : BufTy).Contents (Elt F)),
    binary main_v1 main_v41 main_v42 (cmpi .slt : (⟨S4000000, .i32⟩ : BufTy).Contents (Elt F) → (⟨S4000000, .i32⟩ : BufTy).Contents (Elt F) → (⟨S4000000, .i1⟩ : BufTy).Contents (Elt F)),
    nullary main_c_7 (constantI S_ 32 253952#32),
    unary main_c_7 main_v43 (broadcastInDim S4000000 ![] bcast_S_S4000000 : (⟨S_, .i32⟩ : BufTy).Contents (Elt F) → (⟨S4000000, .i32⟩ : BufTy).Contents (Elt F)),
    binary main_v1 main_v43 main_v44 (addi : (⟨S4000000, .i32⟩ : BufTy).Contents (Elt F) → (⟨S4000000, .i32⟩ : BufTy).Contents (Elt F) → (⟨S4000000, .i32⟩ : BufTy).Contents (Elt F)),
    ternary main_v42 main_v44 main_v1 main_v45 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v45 main_v46 (broadcastInDim S4000000x1 ![0] bcast_S4000000_S4000000x1_0 : (⟨S4000000, .i32⟩ : BufTy).Contents (Elt F) → (⟨S4000000x1, .i32⟩ : BufTy).Contents (Elt F)),
    binary main_v40 main_v46 main_v47 ((fun x i => Host.gather gather_S253952x64_S4000000x1_S4000000x64_1_0_n_n_0_1_164 x i) : (⟨S253952x64, .f32⟩ : BufTy).Contents (Elt F) → (⟨S4000000x1, .i32⟩ : BufTy).Contents (Elt F) → (⟨S4000000x64, .f32⟩ : BufTy).Contents (Elt F)),
    unary main_arg2 main_v48 (broadcastInDim S4000000x1 ![0] bcast_S4000000_S4000000x1_0 : (⟨S4000000, .f32⟩ : BufTy).Contents (Elt F) → (⟨S4000000x1, .f32⟩ : BufTy).Contents (Elt F)),
    unary main_v48 main_v49 (broadcastInDim S4000000x64 ![0, 1] bcast_S4000000x1_S4000000x64_0_1 : (⟨S4000000x1, .f32⟩ : BufTy).Contents (Elt F) → (⟨S4000000x64, .f32⟩ : BufTy).Contents (Elt F)) ]

/-- Layer 3 from the scaling on: scatter-add, bias, activation. -/
abbrev l3b : List (HloOp τ sig (Elt F)) :=
  [ binary main_v47 main_v49 main_v50 (mulf : (⟨S4000000x64, .f32⟩ : BufTy).Contents (Elt F) → (⟨S4000000x64, .f32⟩ : BufTy).Contents (Elt F) → (⟨S4000000x64, .f32⟩ : BufTy).Contents (Elt F)),
    nullary main_cst_8 (constant S_ .f32 0x00000000#32),
    unary main_cst_8 main_v51 (broadcastInDim S253952x64 ![] bcast_S_S253952x64 : (⟨S_, .f32⟩ : BufTy).Contents (Elt F) → (⟨S253952x64, .f32⟩ : BufTy).Contents (Elt F)),
    unary main_v3 main_v52 (broadcastInDim S4000000x1 ![0] bcast_S4000000_S4000000x1_0 : (⟨S4000000, .i32⟩ : BufTy).Contents (Elt F) → (⟨S4000000x1, .i32⟩ : BufTy).Contents (Elt F)),
    ternary main_v51 main_v52 main_v50 main_v53 ((fun x i u => Host.scatterAdd scatter_S253952x64_S4000000x1_S4000000x64_1_0_0_1 x i u) : (⟨S253952x64, .f32⟩ : BufTy).Contents (Elt F) → (⟨S4000000x1, .i32⟩ : BufTy).Contents (Elt F) → (⟨S4000000x64, .f32⟩ : BufTy).Contents (Elt F) → (⟨S253952x64, .f32⟩ : BufTy).Contents (Elt F)),
    unary main_arg9 main_v54 (broadcastInDim S1x64 ![1] bcast_S64_S1x64_1 : (⟨S64, .f32⟩ : BufTy).Contents (Elt F) → (⟨S1x64, .f32⟩ : BufTy).Contents (Elt F)),
    unary main_v54 main_v55 (broadcastInDim S253952x64 ![0, 1] bcast_S1x64_S253952x64_0_1 : (⟨S1x64, .f32⟩ : BufTy).Contents (Elt F) → (⟨S253952x64, .f32⟩ : BufTy).Contents (Elt F)),
    binary main_v53 main_v55 main_v56 (addf : (⟨S253952x64, .f32⟩ : BufTy).Contents (Elt F) → (⟨S253952x64, .f32⟩ : BufTy).Contents (Elt F) → (⟨S253952x64, .f32⟩ : BufTy).Contents (Elt F)),
    nullary main_cst_9 (constant S_ .f32 0x3C23D70A#32),
    TRef.nullary main_call2.cst (constant S_ .f32 0x00000000#32),
    TRef.unary main_call2.cst main_call2.v0 (broadcastInDim S253952x64 ![] bcast_S_S253952x64),
    TRef.binary (.of main_v56) main_call2.v0 main_call2.v1 (cmpf .oge),
    TRef.unary (.of main_cst_9) main_call2.v2 id,
    TRef.unary main_call2.v2 main_call2.v3 (broadcastInDim S253952x64 ![] bcast_S_S253952x64),
    TRef.binary main_call2.v3 (.of main_v56) main_call2.v4 mulf,
    TRef.ternary main_call2.v1 (.of main_v56) main_call2.v4 main_call2.call0.v0 select ]

/-- Layer 4 at width 50, its activation, and the second activation after it. -/
abbrev l4 : List (HloOp τ sig (Elt F)) :=
  [ binary main_v57 main_arg10 main_v58 ((fun l r => Host.dotGeneral dot_S253952x64_S64x50_S253952x50_1_0_0_1_n_n none l r) : (⟨S253952x64, .f32⟩ : BufTy).Contents (Elt F) → (⟨S64x50, .f32⟩ : BufTy).Contents (Elt F) → (⟨S253952x50, .f32⟩ : BufTy).Contents (Elt F)),
    nullary main_c_10 (constantI S_ 32 0#32),
    unary main_c_10 main_v59 (broadcastInDim S4000000 ![] bcast_S_S4000000 : (⟨S_, .i32⟩ : BufTy).Contents (Elt F) → (⟨S4000000, .i32⟩ : BufTy).Contents (Elt F)),
    binary main_v1 main_v59 main_v60 (cmpi .slt : (⟨S4000000, .i32⟩ : BufTy).Contents (Elt F) → (⟨S4000000, .i32⟩ : BufTy).Contents (Elt F) → (⟨S4000000, .i1⟩ : BufTy).Contents (Elt F)),
    nullary main_c_11 (constantI S_ 32 253952#32),
    unary main_c_11 main_v61 (broadcastInDim S4000000 ![] bcast_S_S4000000 : (⟨S_, .i32⟩ : BufTy).Contents (Elt F) → (⟨S4000000, .i32⟩ : BufTy).Contents (Elt F)),
    binary main_v1 main_v61 main_v62 (addi : (⟨S4000000, .i32⟩ : BufTy).Contents (Elt F) → (⟨S4000000, .i32⟩ : BufTy).Contents (Elt F) → (⟨S4000000, .i32⟩ : BufTy).Contents (Elt F)),
    ternary main_v60 main_v62 main_v1 main_v63 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v63 main_v64 (broadcastInDim S4000000x1 ![0] bcast_S4000000_S4000000x1_0 : (⟨S4000000, .i32⟩ : BufTy).Contents (Elt F) → (⟨S4000000x1, .i32⟩ : BufTy).Contents (Elt F)),
    binary main_v58 main_v64 main_v65 ((fun x i => Host.gather gather_S253952x50_S4000000x1_S4000000x50_1_0_n_n_0_1_150 x i) : (⟨S253952x50, .f32⟩ : BufTy).Contents (Elt F) → (⟨S4000000x1, .i32⟩ : BufTy).Contents (Elt F) → (⟨S4000000x50, .f32⟩ : BufTy).Contents (Elt F)),
    unary main_arg2 main_v66 (broadcastInDim S4000000x1 ![0] bcast_S4000000_S4000000x1_0 : (⟨S4000000, .f32⟩ : BufTy).Contents (Elt F) → (⟨S4000000x1, .f32⟩ : BufTy).Contents (Elt F)),
    unary main_v66 main_v67 (broadcastInDim S4000000x50 ![0, 1] bcast_S4000000x1_S4000000x50_0_1 : (⟨S4000000x1, .f32⟩ : BufTy).Contents (Elt F) → (⟨S4000000x50, .f32⟩ : BufTy).Contents (Elt F)),
    binary main_v65 main_v67 main_v68 (mulf : (⟨S4000000x50, .f32⟩ : BufTy).Contents (Elt F) → (⟨S4000000x50, .f32⟩ : BufTy).Contents (Elt F) → (⟨S4000000x50, .f32⟩ : BufTy).Contents (Elt F)),
    nullary main_cst_12 (constant S_ .f32 0x00000000#32),
    unary main_cst_12 main_v69 (broadcastInDim S253952x50 ![] bcast_S_S253952x50 : (⟨S_, .f32⟩ : BufTy).Contents (Elt F) → (⟨S253952x50, .f32⟩ : BufTy).Contents (Elt F)),
    unary main_v3 main_v70 (broadcastInDim S4000000x1 ![0] bcast_S4000000_S4000000x1_0 : (⟨S4000000, .i32⟩ : BufTy).Contents (Elt F) → (⟨S4000000x1, .i32⟩ : BufTy).Contents (Elt F)),
    ternary main_v69 main_v70 main_v68 main_v71 ((fun x i u => Host.scatterAdd scatter_S253952x50_S4000000x1_S4000000x50_1_0_0_1 x i u) : (⟨S253952x50, .f32⟩ : BufTy).Contents (Elt F) → (⟨S4000000x1, .i32⟩ : BufTy).Contents (Elt F) → (⟨S4000000x50, .f32⟩ : BufTy).Contents (Elt F) → (⟨S253952x50, .f32⟩ : BufTy).Contents (Elt F)),
    unary main_arg11 main_v72 (broadcastInDim S1x50 ![1] bcast_S50_S1x50_1 : (⟨S50, .f32⟩ : BufTy).Contents (Elt F) → (⟨S1x50, .f32⟩ : BufTy).Contents (Elt F)),
    unary main_v72 main_v73 (broadcastInDim S253952x50 ![0, 1] bcast_S1x50_S253952x50_0_1 : (⟨S1x50, .f32⟩ : BufTy).Contents (Elt F) → (⟨S253952x50, .f32⟩ : BufTy).Contents (Elt F)),
    binary main_v71 main_v73 main_v74 (addf : (⟨S253952x50, .f32⟩ : BufTy).Contents (Elt F) → (⟨S253952x50, .f32⟩ : BufTy).Contents (Elt F) → (⟨S253952x50, .f32⟩ : BufTy).Contents (Elt F)),
    nullary main_cst_13 (constant S_ .f32 0x3C23D70A#32),
    TRef.nullary main_call3.cst (constant S_ .f32 0x00000000#32),
    TRef.unary main_call3.cst main_call3.v0 (broadcastInDim S253952x50 ![] bcast_S_S253952x50),
    TRef.binary (.of main_v74) main_call3.v0 main_call3.v1 (cmpf .oge),
    TRef.unary (.of main_cst_13) main_call3.v2 id,
    TRef.unary main_call3.v2 main_call3.v3 (broadcastInDim S253952x50 ![] bcast_S_S253952x50),
    TRef.binary main_call3.v3 (.of main_v74) main_call3.v4 mulf,
    TRef.ternary main_call3.v1 (.of main_v74) main_call3.v4 main_call3.call0.v0 select,
    nullary main_cst_14 (constant S_ .f32 0x3C23D70A#32),
    TRef.nullary main_call4.cst (constant S_ .f32 0x00000000#32),
    TRef.unary main_call4.cst main_call4.v0 (broadcastInDim S253952x50 ![] bcast_S_S253952x50),
    TRef.binary (.of main_v75) main_call4.v0 main_call4.v1 (cmpf .oge),
    TRef.unary (.of main_cst_14) main_call4.v2 id,
    TRef.unary main_call4.v2 main_call4.v3 (broadcastInDim S253952x50 ![] bcast_S_S253952x50),
    TRef.binary main_call4.v3 (.of main_v75) main_call4.v4 mulf,
    TRef.ternary main_call4.v1 (.of main_v75) main_call4.v4 main_call4.call0.v0 select ]

/-- The pooling and the first head layer. -/
abbrev ph : List (HloOp τ sig (Elt F)) :=
  [ nullary main_cst_15 (constant S_ .f32 0x00000000#32),
    unary main_cst_15 main_v77 (broadcastInDim S4096x50 ![] bcast_S_S4096x50 : (⟨S_, .f32⟩ : BufTy).Contents (Elt F) → (⟨S4096x50, .f32⟩ : BufTy).Contents (Elt F)),
    unary main_arg3 main_v78 (broadcastInDim S253952x1 ![0] bcast_S253952_S253952x1_0 : (⟨S253952, .i32⟩ : BufTy).Contents (Elt F) → (⟨S253952x1, .i32⟩ : BufTy).Contents (Elt F)),
    ternary main_v77 main_v78 main_v76 main_v79 ((fun x i u => Host.scatterAdd scatter_S4096x50_S253952x1_S253952x50_1_0_0_1 x i u) : (⟨S4096x50, .f32⟩ : BufTy).Contents (Elt F) → (⟨S253952x1, .i32⟩ : BufTy).Contents (Elt F) → (⟨S253952x50, .f32⟩ : BufTy).Contents (Elt F) → (⟨S4096x50, .f32⟩ : BufTy).Contents (Elt F)),
    binary main_v79 main_arg12 main_v80 ((fun l r => Host.dotGeneral dot_S4096x50_S50x30_S4096x30_1_0_0_1_n_n none l r) : (⟨S4096x50, .f32⟩ : BufTy).Contents (Elt F) → (⟨S50x30, .f32⟩ : BufTy).Contents (Elt F) → (⟨S4096x30, .f32⟩ : BufTy).Contents (Elt F)),
    unary main_arg13 main_v81 (broadcastInDim S1x30 ![1] bcast_S30_S1x30_1 : (⟨S30, .f32⟩ : BufTy).Contents (Elt F) → (⟨S1x30, .f32⟩ : BufTy).Contents (Elt F)),
    unary main_v81 main_v82 (broadcastInDim S4096x30 ![0, 1] bcast_S1x30_S4096x30_0_1 : (⟨S1x30, .f32⟩ : BufTy).Contents (Elt F) → (⟨S4096x30, .f32⟩ : BufTy).Contents (Elt F)),
    binary main_v80 main_v82 main_v83 (addf : (⟨S4096x30, .f32⟩ : BufTy).Contents (Elt F) → (⟨S4096x30, .f32⟩ : BufTy).Contents (Elt F) → (⟨S4096x30, .f32⟩ : BufTy).Contents (Elt F)),
    nullary main_cst_16 (constant S_ .f32 0x3C23D70A#32),
    TRef.nullary main_call5.cst (constant S_ .f32 0x00000000#32),
    TRef.unary main_call5.cst main_call5.v0 (broadcastInDim S4096x30 ![] bcast_S_S4096x30),
    TRef.binary (.of main_v83) main_call5.v0 main_call5.v1 (cmpf .oge),
    TRef.unary (.of main_cst_16) main_call5.v2 id,
    TRef.unary main_call5.v2 main_call5.v3 (broadcastInDim S4096x30 ![] bcast_S_S4096x30),
    TRef.binary main_call5.v3 (.of main_v83) main_call5.v4 mulf,
    TRef.ternary main_call5.v1 (.of main_v83) main_call5.v4 main_call5.call0.v0 select ]

/-- The second head layer. -/
abbrev h2 : List (HloOp τ sig (Elt F)) :=
  [ binary main_v84 main_arg14 main_v85 ((fun l r => Host.dotGeneral dot_S4096x30_S30x20_S4096x20_1_0_0_1_n_n none l r) : (⟨S4096x30, .f32⟩ : BufTy).Contents (Elt F) → (⟨S30x20, .f32⟩ : BufTy).Contents (Elt F) → (⟨S4096x20, .f32⟩ : BufTy).Contents (Elt F)),
    unary main_arg15 main_v86 (broadcastInDim S1x20 ![1] bcast_S20_S1x20_1 : (⟨S20, .f32⟩ : BufTy).Contents (Elt F) → (⟨S1x20, .f32⟩ : BufTy).Contents (Elt F)),
    unary main_v86 main_v87 (broadcastInDim S4096x20 ![0, 1] bcast_S1x20_S4096x20_0_1 : (⟨S1x20, .f32⟩ : BufTy).Contents (Elt F) → (⟨S4096x20, .f32⟩ : BufTy).Contents (Elt F)),
    binary main_v85 main_v87 main_v88 (addf : (⟨S4096x20, .f32⟩ : BufTy).Contents (Elt F) → (⟨S4096x20, .f32⟩ : BufTy).Contents (Elt F) → (⟨S4096x20, .f32⟩ : BufTy).Contents (Elt F)),
    nullary main_cst_17 (constant S_ .f32 0x3C23D70A#32),
    TRef.nullary main_call6.cst (constant S_ .f32 0x00000000#32),
    TRef.unary main_call6.cst main_call6.v0 (broadcastInDim S4096x20 ![] bcast_S_S4096x20),
    TRef.binary (.of main_v88) main_call6.v0 main_call6.v1 (cmpf .oge),
    TRef.unary (.of main_cst_17) main_call6.v2 id,
    TRef.unary main_call6.v2 main_call6.v3 (broadcastInDim S4096x20 ![] bcast_S_S4096x20),
    TRef.binary main_call6.v3 (.of main_v88) main_call6.v4 mulf,
    TRef.ternary main_call6.v1 (.of main_v88) main_call6.v4 main_call6.call0.v0 select ]

/-- The third head layer. -/
abbrev h3 : List (HloOp τ sig (Elt F)) :=
  [ binary main_v89 main_arg16 main_v90 ((fun l r => Host.dotGeneral dot_S4096x20_S20x2_S4096x2_1_0_0_1_n_n none l r) : (⟨S4096x20, .f32⟩ : BufTy).Contents (Elt F) → (⟨S20x2, .f32⟩ : BufTy).Contents (Elt F) → (⟨S4096x2, .f32⟩ : BufTy).Contents (Elt F)),
    unary main_arg17 main_v91 (broadcastInDim S1x2 ![1] bcast_S2_S1x2_1 : (⟨S2, .f32⟩ : BufTy).Contents (Elt F) → (⟨S1x2, .f32⟩ : BufTy).Contents (Elt F)),
    unary main_v91 main_v92 (broadcastInDim S4096x2 ![0, 1] bcast_S1x2_S4096x2_0_1 : (⟨S1x2, .f32⟩ : BufTy).Contents (Elt F) → (⟨S4096x2, .f32⟩ : BufTy).Contents (Elt F)),
    binary main_v90 main_v92 main_v93 (addf : (⟨S4096x2, .f32⟩ : BufTy).Contents (Elt F) → (⟨S4096x2, .f32⟩ : BufTy).Contents (Elt F) → (⟨S4096x2, .f32⟩ : BufTy).Contents (Elt F)),
    nullary main_cst_18 (constant S_ .f32 0x3C23D70A#32),
    TRef.nullary main_call7.cst (constant S_ .f32 0x00000000#32),
    TRef.unary main_call7.cst main_call7.v0 (broadcastInDim S4096x2 ![] bcast_S_S4096x2),
    TRef.binary (.of main_v93) main_call7.v0 main_call7.v1 (cmpf .oge),
    TRef.unary (.of main_cst_18) main_call7.v2 id,
    TRef.unary main_call7.v2 main_call7.v3 (broadcastInDim S4096x2 ![] bcast_S_S4096x2),
    TRef.binary main_call7.v3 (.of main_v93) main_call7.v4 mulf,
    TRef.ternary main_call7.v1 (.of main_v93) main_call7.v4 main_call7.call0.v0 select ]

/-- The whole line. -/
abbrev ops : List (HloOp τ sig (Elt F)) :=
  w0 ++ (l1 ++ (l2 ++ (l3a ++ (l3b ++ (l4 ++ (ph ++ (h2 ++ (h3))))))))

/-- Running two lines one after the other folds the contents through both. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The program is that line -/

set_option maxRecDepth 16384 in
/-- The first half of the program is the first four windows: the calls unfolded and the sequencing reassociated. -/
theorem part0_eq (c : Dev nD) : main_part0 (F := F) c = seq (w0 ++ (l1 ++ (l2 ++ (l3a)))) := by
  simp only [main_part0, fn_leaky_relu.body, fn_where.body, fn_leaky_relu_0.body, fn_where_1.body, bind_assoc, pure_bind]
  rfl

set_option maxRecDepth 16384 in
/-- The second half is the last five windows. -/
theorem part1_eq (c : Dev nD) : main_part1 (F := F) c = seq (l3b ++ (l4 ++ (ph ++ (h2 ++ (h3))))) := by
  simp only [main_part1, fn_leaky_relu_2.body, fn_where_3.body, fn_leaky_relu_4.body, fn_where_5.body,
    fn_leaky_relu_6.body, fn_where_7.body, fn_leaky_relu_8.body, fn_where_9.body, fn_leaky_relu_10.body, fn_where_11.body,
    bind_assoc, pure_bind]
  rfl

theorem main_eq (c : Dev nD) : main (F := F) c = seq ops := by
  have e : (ops : List (HloOp τ sig (Elt F))) = (w0 ++ (l1 ++ (l2 ++ (l3a)))) ++ (l3b ++ (l4 ++ (ph ++ (h2 ++ (h3))))) := by
    simp only [ops, List.append_assoc]
  rw [e, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem w0_sub : (w0 : List (HloOp τ sig (Elt F))).Forall fun op => op.bufs ⊆ tcRefs τ sig :=
  ⟨unary_bufs_sub .., reshape_bufs_sub .., unary_bufs_sub .., reshape_bufs_sub ..⟩

set_option maxRecDepth 8192 in
theorem l1_sub : (l1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem l2_sub : (l2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem l3a_sub : (l3a : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub ..⟩

set_option maxRecDepth 8192 in
theorem l3b_sub : (l3b : List (HloOp τ sig (Elt F))).Forall fun op => op.bufs ⊆ tcRefs τ sig :=
  ⟨binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem l4_sub : (l4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub ..⟩

set_option maxRecDepth 8192 in
theorem ph_sub : (ph : List (HloOp τ sig (Elt F))).Forall fun op => op.bufs ⊆ tcRefs τ sig :=
  ⟨nullary_bufs_sub .., unary_bufs_sub .., unary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem h2_sub : (h2 : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem h3_sub : (h3 : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp w0_sub op h, List.forall_iff_forall_mem.mp l1_sub op h, List.forall_iff_forall_mem.mp l2_sub op h, List.forall_iff_forall_mem.mp l3a_sub op h, List.forall_iff_forall_mem.mp l3b_sub op h, List.forall_iff_forall_mem.mp l4_sub op h, List.forall_iff_forall_mem.mp ph_sub op h, List.forall_iff_forall_mem.mp h2_sub op h, List.forall_iff_forall_mem.mp h3_sub op h]

/-! ## The contents after each window

`valK V0` is the device's buffer contents after the first K windows, from contents `V0`. For each window: the list of the
buffers it writes, the fact that a buffer outside that list passes through unchanged, and the stage that each buffer still
needed holds. -/

attribute [local irreducible] Host.gather Host.scatterAdd

/-- The contents before the first window. -/
def val0 (V0 : Valuation τ sig (Elt F)) : Valuation τ sig (Elt F) := V0

/-- The contents after the first 1 window. -/
def val1 (V0 : Valuation τ sig (Elt F)) : Valuation τ sig (Elt F) := after w0 (val0 V0)
/-- The buffers window `w0` writes. -/
abbrev w0_W : List (Ref sig .tc) := [main_v0, main_v1, main_v2, main_v3]
set_option maxRecDepth 8192 in
theorem w0_writes : (w0 : List (HloOp τ sig (Elt F))).Forall fun op =>
    op.writes ⊆ (w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `w0` does not write passes through it. -/
theorem val1_keep (V0 : Valuation τ sig (Elt F)) (r : Ref sig .tc) (h : r ∉ w0_W) :
    val1 V0 (Proc.devRef .tc r) = val0 V0 (Proc.devRef .tc r) :=
  after_of_writes_sub w0 _ w0_writes h
/-- A buffer none of the first 1 window writes holds what it held at the start. -/
theorem val1_keep0 (V0 : Valuation τ sig (Elt F)) (r : Ref sig .tc) (h1 : r ∉ w0_W) :
    val1 V0 (Proc.devRef .tc r) = V0 (Proc.devRef .tc r) :=
  val1_keep V0 r h1
theorem val1_arg0 (V0 : Valuation τ sig (Elt F)) : val1 V0 (no_index (Proc.devRef .tc main_arg0)) = V0 (Proc.devRef .tc main_arg0) :=
  val1_keep0 V0 main_arg0 (by decide)
theorem val1_arg4 (V0 : Valuation τ sig (Elt F)) : val1 V0 (no_index (Proc.devRef .tc main_arg4)) = V0 (Proc.devRef .tc main_arg4) :=
  val1_keep0 V0 main_arg4 (by decide)
theorem val1_arg2 (V0 : Valuation τ sig (Elt F)) : val1 V0 (no_index (Proc.devRef .tc main_arg2)) = V0 (Proc.devRef .tc main_arg2) :=
  val1_keep0 V0 main_arg2 (by decide)
theorem val1_arg5 (V0 : Valuation τ sig (Elt F)) : val1 V0 (no_index (Proc.devRef .tc main_arg5)) = V0 (Proc.devRef .tc main_arg5) :=
  val1_keep0 V0 main_arg5 (by decide)

set_option maxRecDepth 8192 in
theorem val1_v1 (V0 : Valuation τ sig (Elt F)) : val1 V0 (no_index (Proc.devRef .tc main_v1)) = (srcRow (V0 (Proc.devRef .tc main_arg1))) := by
  unfold val1
  simp only [w0]
  after_results_simp
  rfl

set_option maxRecDepth 8192 in
theorem val1_v3 (V0 : Valuation τ sig (Elt F)) : val1 V0 (no_index (Proc.devRef .tc main_v3)) = (dstRow (V0 (Proc.devRef .tc main_arg1))) := by
  unfold val1
  simp only [w0]
  after_results_simp
  rfl

/-- The contents after the first 2 windows. -/
def val2 (V0 : Valuation τ sig (Elt F)) : Valuation τ sig (Elt F) := after l1 (val1 V0)
/-- The buffers window `l1` writes. -/
abbrev l1_W : List (Ref sig .tc) := [main_v4, main_c, main_v5, main_v6, main_c_0, main_v7, main_v8, main_v9, main_v10, main_v11, main_v12, main_v13, main_v14, main_cst, main_v15, main_v16, main_v17, main_v18, main_v19, main_v20, main_cst_1, main_call0_cst, main_call0_v0, main_call0_v1, main_call0_v2, main_call0_v3, main_call0_v4, main_v21]
set_option maxRecDepth 8192 in
theorem l1_writes : (l1 : List (HloOp τ sig (Elt F))).Forall fun op =>
    op.writes ⊆ (l1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `l1` does not write passes through it. -/
theorem val2_keep (V0 : Valuation τ sig (Elt F)) (r : Ref sig .tc) (h : r ∉ l1_W) :
    val2 V0 (Proc.devRef .tc r) = val1 V0 (Proc.devRef .tc r) :=
  after_of_writes_sub l1 _ l1_writes h
/-- A buffer none of the first 2 windows writes holds what it held at the start. -/
theorem val2_keep0 (V0 : Valuation τ sig (Elt F)) (r : Ref sig .tc) (h1 : r ∉ w0_W) (h2 : r ∉ l1_W) :
    val2 V0 (Proc.devRef .tc r) = V0 (Proc.devRef .tc r) :=
  (val2_keep V0 r h2).trans (val1_keep0 V0 r h1)
theorem val2_arg6 (V0 : Valuation τ sig (Elt F)) : val2 V0 (no_index (Proc.devRef .tc main_arg6)) = V0 (Proc.devRef .tc main_arg6) :=
  val2_keep0 V0 main_arg6 (by decide) (by decide)
theorem val2_arg2 (V0 : Valuation τ sig (Elt F)) : val2 V0 (no_index (Proc.devRef .tc main_arg2)) = V0 (Proc.devRef .tc main_arg2) :=
  val2_keep0 V0 main_arg2 (by decide) (by decide)
theorem val2_arg7 (V0 : Valuation τ sig (Elt F)) : val2 V0 (no_index (Proc.devRef .tc main_arg7)) = V0 (Proc.devRef .tc main_arg7) :=
  val2_keep0 V0 main_arg7 (by decide) (by decide)
theorem val2_v1 (V0 : Valuation τ sig (Elt F)) : val2 V0 (no_index (Proc.devRef .tc main_v1)) = (srcRow (V0 (Proc.devRef .tc main_arg1))) :=
  (val2_keep V0 main_v1 (by decide)).trans (val1_v1 V0)
theorem val2_v3 (V0 : Valuation τ sig (Elt F)) : val2 V0 (no_index (Proc.devRef .tc main_v3)) = (dstRow (V0 (Proc.devRef .tc main_arg1))) :=
  (val2_keep V0 main_v3 (by decide)).trans (val1_v3 V0)

set_option maxRecDepth 8192 in
theorem val2_v21 (V0 : Valuation τ sig (Elt F)) : val2 V0 (no_index (Proc.devRef .tc main_v21)) = (layer16 (V0 (Proc.devRef .tc main_arg0)) (V0 (Proc.devRef .tc main_arg4)) (V0 (Proc.devRef .tc main_arg5)) (V0 (Proc.devRef .tc main_arg1)) (V0 (Proc.devRef .tc main_arg2))) := by
  unfold val2
  simp only [l1]
  after_results_simp
  simp only [val1_arg0, val1_arg4, val1_v1, val1_arg2, val1_v3, val1_arg5]
  rfl

/-- The contents after the first 3 windows. -/
def val3 (V0 : Valuation τ sig (Elt F)) : Valuation τ sig (Elt F) := after l2 (val2 V0)
/-- The buffers window `l2` writes. -/
abbrev l2_W : List (Ref sig .tc) := [main_v22, main_c_2, main_v23, main_v24, main_c_3, main_v25, main_v26, main_v27, main_v28, main_v29, main_v30, main_v31, main_v32, main_cst_4, main_v33, main_v34, main_v35, main_v36, main_v37, main_v38, main_cst_5, main_call1_cst, main_call1_v0, main_call1_v1, main_call1_v2, main_call1_v3, main_call1_v4, main_v39]
set_option maxRecDepth 8192 in
theorem l2_writes : (l2 : List (HloOp τ sig (Elt F))).Forall fun op =>
    op.writes ⊆ (l2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `l2` does not write passes through it. -/
theorem val3_keep (V0 : Valuation τ sig (Elt F)) (r : Ref sig .tc) (h : r ∉ l2_W) :
    val3 V0 (Proc.devRef .tc r) = val2 V0 (Proc.devRef .tc r) :=
  after_of_writes_sub l2 _ l2_writes h
/-- A buffer none of the first 3 windows writes holds what it held at the start. -/
theorem val3_keep0 (V0 : Valuation τ sig (Elt F)) (r : Ref sig .tc) (h1 : r ∉ w0_W) (h2 : r ∉ l1_W) (h3 : r ∉ l2_W) :
    val3 V0 (Proc.devRef .tc r) = V0 (Proc.devRef .tc r) :=
  (val3_keep V0 r h3).trans (val2_keep0 V0 r h1 h2)
theorem val3_arg8 (V0 : Valuation τ sig (Elt F)) : val3 V0 (no_index (Proc.devRef .tc main_arg8)) = V0 (Proc.devRef .tc main_arg8) :=
  val3_keep0 V0 main_arg8 (by decide) (by decide) (by decide)
theorem val3_arg2 (V0 : Valuation τ sig (Elt F)) : val3 V0 (no_index (Proc.devRef .tc main_arg2)) = V0 (Proc.devRef .tc main_arg2) :=
  val3_keep0 V0 main_arg2 (by decide) (by decide) (by decide)
theorem val3_v1 (V0 : Valuation τ sig (Elt F)) : val3 V0 (no_index (Proc.devRef .tc main_v1)) = (srcRow (V0 (Proc.devRef .tc main_arg1))) :=
  (val3_keep V0 main_v1 (by decide)).trans (val2_v1 V0)
theorem val3_v3 (V0 : Valuation τ sig (Elt F)) : val3 V0 (no_index (Proc.devRef .tc main_v3)) = (dstRow (V0 (Proc.devRef .tc main_arg1))) :=
  (val3_keep V0 main_v3 (by decide)).trans (val2_v3 V0)

set_option maxRecDepth 8192 in
theorem val3_v39 (V0 : Valuation τ sig (Elt F)) : val3 V0 (no_index (Proc.devRef .tc main_v39)) = (layer32 (layer16 (V0 (Proc.devRef .tc main_arg0)) (V0 (Proc.devRef .tc main_arg4)) (V0 (Proc.devRef .tc main_arg5)) (V0 (Proc.devRef .tc main_arg1)) (V0 (Proc.devRef .tc main_arg2))) (V0 (Proc.devRef .tc main_arg6)) (V0 (Proc.devRef .tc main_arg7)) (V0 (Proc.devRef .tc main_arg1)) (V0 (Proc.devRef .tc main_arg2))) := by
  unfold val3
  simp only [l2]
  after_results_simp
  simp only [val2_v21, val2_arg6, val2_v1, val2_arg2, val2_v3, val2_arg7]
  rfl

/-- The contents after the first 4 windows. -/
def val4 (V0 : Valuation τ sig (Elt F)) : Valuation τ sig (Elt F) := after l3a (val3 V0)
/-- The buffers window `l3a` writes. -/
abbrev l3a_W : List (Ref sig .tc) := [main_v40, main_c_6, main_v41, main_v42, main_c_7, main_v43, main_v44, main_v45, main_v46, main_v47, main_v48, main_v49]
set_option maxRecDepth 8192 in
theorem l3a_writes : (l3a : List (HloOp τ sig (Elt F))).Forall fun op =>
    op.writes ⊆ (l3a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `l3a` does not write passes through it. -/
theorem val4_keep (V0 : Valuation τ sig (Elt F)) (r : Ref sig .tc) (h : r ∉ l3a_W) :
    val4 V0 (Proc.devRef .tc r) = val3 V0 (Proc.devRef .tc r) :=
  after_of_writes_sub l3a _ l3a_writes h
/-- A buffer none of the first 4 windows writes holds what it held at the start. -/
theorem val4_keep0 (V0 : Valuation τ sig (Elt F)) (r : Ref sig .tc) (h1 : r ∉ w0_W) (h2 : r ∉ l1_W) (h3 : r ∉ l2_W) (h4 : r ∉ l3a_W) :
    val4 V0 (Proc.devRef .tc r) = V0 (Proc.devRef .tc r) :=
  (val4_keep V0 r h4).trans (val3_keep0 V0 r h1 h2 h3)
theorem val4_arg9 (V0 : Valuation τ sig (Elt F)) : val4 V0 (no_index (Proc.devRef .tc main_arg9)) = V0 (Proc.devRef .tc main_arg9) :=
  val4_keep0 V0 main_arg9 (by decide) (by decide) (by decide) (by decide)
theorem val4_v1 (V0 : Valuation τ sig (Elt F)) : val4 V0 (no_index (Proc.devRef .tc main_v1)) = (srcRow (V0 (Proc.devRef .tc main_arg1))) :=
  (val4_keep V0 main_v1 (by decide)).trans (val3_v1 V0)
theorem val4_v3 (V0 : Valuation τ sig (Elt F)) : val4 V0 (no_index (Proc.devRef .tc main_v3)) = (dstRow (V0 (Proc.devRef .tc main_arg1))) :=
  (val4_keep V0 main_v3 (by decide)).trans (val3_v3 V0)

set_option maxRecDepth 8192 in
theorem val4_v47 (V0 : Valuation τ sig (Elt F)) : val4 V0 (no_index (Proc.devRef .tc main_v47)) = (gath64 (dot64 (layer32 (layer16 (V0 (Proc.devRef .tc main_arg0)) (V0 (Proc.devRef .tc main_arg4)) (V0 (Proc.devRef .tc main_arg5)) (V0 (Proc.devRef .tc main_arg1)) (V0 (Proc.devRef .tc main_arg2))) (V0 (Proc.devRef .tc main_arg6)) (V0 (Proc.devRef .tc main_arg7)) (V0 (Proc.devRef .tc main_arg1)) (V0 (Proc.devRef .tc main_arg2))) (V0 (Proc.devRef .tc main_arg8))) (V0 (Proc.devRef .tc main_arg1))) := by
  unfold val4
  simp only [l3a]
  after_results_simp
  simp only [val3_v39, val3_arg8, val3_v1, val3_arg2]
  rfl

set_option maxRecDepth 8192 in
theorem val4_v49 (V0 : Valuation τ sig (Elt F)) : val4 V0 (no_index (Proc.devRef .tc main_v49)) = (ewB64 (V0 (Proc.devRef .tc main_arg2))) := by
  unfold val4
  simp only [l3a]
  after_results_simp
  simp only [val3_v39, val3_arg8, val3_v1, val3_arg2]
  rfl

/-- The contents after the first 5 windows. -/
def val5 (V0 : Valuation τ sig (Elt F)) : Valuation τ sig (Elt F) := after l3b (val4 V0)
/-- The buffers window `l3b` writes. -/
abbrev l3b_W : List (Ref sig .tc) := [main_v50, main_cst_8, main_v51, main_v52, main_v53, main_v54, main_v55, main_v56, main_cst_9, main_call2_cst, main_call2_v0, main_call2_v1, main_call2_v2, main_call2_v3, main_call2_v4, main_v57]
set_option maxRecDepth 8192 in
theorem l3b_writes : (l3b : List (HloOp τ sig (Elt F))).Forall fun op =>
    op.writes ⊆ (l3b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `l3b` does not write passes through it. -/
theorem val5_keep (V0 : Valuation τ sig (Elt F)) (r : Ref sig .tc) (h : r ∉ l3b_W) :
    val5 V0 (Proc.devRef .tc r) = val4 V0 (Proc.devRef .tc r) :=
  after_of_writes_sub l3b _ l3b_writes h
/-- A buffer none of the first 5 windows writes holds what it held at the start. -/
theorem val5_keep0 (V0 : Valuation τ sig (Elt F)) (r : Ref sig .tc) (h1 : r ∉ w0_W) (h2 : r ∉ l1_W) (h3 : r ∉ l2_W) (h4 : r ∉ l3a_W) (h5 : r ∉ l3b_W) :
    val5 V0 (Proc.devRef .tc r) = V0 (Proc.devRef .tc r) :=
  (val5_keep V0 r h5).trans (val4_keep0 V0 r h1 h2 h3 h4)
theorem val5_arg10 (V0 : Valuation τ sig (Elt F)) : val5 V0 (no_index (Proc.devRef .tc main_arg10)) = V0 (Proc.devRef .tc main_arg10) :=
  val5_keep0 V0 main_arg10 (by decide) (by decide) (by decide) (by decide) (by decide)
theorem val5_arg2 (V0 : Valuation τ sig (Elt F)) : val5 V0 (no_index (Proc.devRef .tc main_arg2)) = V0 (Proc.devRef .tc main_arg2) :=
  val5_keep0 V0 main_arg2 (by decide) (by decide) (by decide) (by decide) (by decide)
theorem val5_arg11 (V0 : Valuation τ sig (Elt F)) : val5 V0 (no_index (Proc.devRef .tc main_arg11)) = V0 (Proc.devRef .tc main_arg11) :=
  val5_keep0 V0 main_arg11 (by decide) (by decide) (by decide) (by decide) (by decide)
theorem val5_v1 (V0 : Valuation τ sig (Elt F)) : val5 V0 (no_index (Proc.devRef .tc main_v1)) = (srcRow (V0 (Proc.devRef .tc main_arg1))) :=
  (val5_keep V0 main_v1 (by decide)).trans (val4_v1 V0)
theorem val5_v3 (V0 : Valuation τ sig (Elt F)) : val5 V0 (no_index (Proc.devRef .tc main_v3)) = (dstRow (V0 (Proc.devRef .tc main_arg1))) :=
  (val5_keep V0 main_v3 (by decide)).trans (val4_v3 V0)

set_option maxRecDepth 8192 in
theorem val5_v57 (V0 : Valuation τ sig (Elt F)) : val5 V0 (no_index (Proc.devRef .tc main_v57)) = (layer64 (layer32 (layer16 (V0 (Proc.devRef .tc main_arg0)) (V0 (Proc.devRef .tc main_arg4)) (V0 (Proc.devRef .tc main_arg5)) (V0 (Proc.devRef .tc main_arg1)) (V0 (Proc.devRef .tc main_arg2))) (V0 (Proc.devRef .tc main_arg6)) (V0 (Proc.devRef .tc main_arg7)) (V0 (Proc.devRef .tc main_arg1)) (V0 (Proc.devRef .tc main_arg2))) (V0 (Proc.devRef .tc main_arg8)) (V0 (Proc.devRef .tc main_arg9)) (V0 (Proc.devRef .tc main_arg1)) (V0 (Proc.devRef .tc main_arg2))) := by
  unfold val5
  simp only [l3b]
  after_results_simp
  simp only [val4_v47, val4_v49, val4_v3, val4_arg9]
  rfl

/-- The contents after the first 6 windows. -/
def val6 (V0 : Valuation τ sig (Elt F)) : Valuation τ sig (Elt F) := after l4 (val5 V0)
/-- The buffers window `l4` writes. -/
abbrev l4_W : List (Ref sig .tc) := [main_v58, main_c_10, main_v59, main_v60, main_c_11, main_v61, main_v62, main_v63, main_v64, main_v65, main_v66, main_v67, main_v68, main_cst_12, main_v69, main_v70, main_v71, main_v72, main_v73, main_v74, main_cst_13, main_call3_cst, main_call3_v0, main_call3_v1, main_call3_v2, main_call3_v3, main_call3_v4, main_v75, main_cst_14, main_call4_cst, main_call4_v0, main_call4_v1, main_call4_v2, main_call4_v3, main_call4_v4, main_v76]
set_option maxRecDepth 8192 in
theorem l4_writes : (l4 : List (HloOp τ sig (Elt F))).Forall fun op =>
    op.writes ⊆ (l4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `l4` does not write passes through it. -/
theorem val6_keep (V0 : Valuation τ sig (Elt F)) (r : Ref sig .tc) (h : r ∉ l4_W) :
    val6 V0 (Proc.devRef .tc r) = val5 V0 (Proc.devRef .tc r) :=
  after_of_writes_sub l4 _ l4_writes h
/-- A buffer none of the first 6 windows writes holds what it held at the start. -/
theorem val6_keep0 (V0 : Valuation τ sig (Elt F)) (r : Ref sig .tc) (h1 : r ∉ w0_W) (h2 : r ∉ l1_W) (h3 : r ∉ l2_W) (h4 : r ∉ l3a_W) (h5 : r ∉ l3b_W) (h6 : r ∉ l4_W) :
    val6 V0 (Proc.devRef .tc r) = V0 (Proc.devRef .tc r) :=
  (val6_keep V0 r h6).trans (val5_keep0 V0 r h1 h2 h3 h4 h5)
theorem val6_arg3 (V0 : Valuation τ sig (Elt F)) : val6 V0 (no_index (Proc.devRef .tc main_arg3)) = V0 (Proc.devRef .tc main_arg3) :=
  val6_keep0 V0 main_arg3 (by decide) (by decide) (by decide) (by decide) (by decide) (by decide)
theorem val6_arg12 (V0 : Valuation τ sig (Elt F)) : val6 V0 (no_index (Proc.devRef .tc main_arg12)) = V0 (Proc.devRef .tc main_arg12) :=
  val6_keep0 V0 main_arg12 (by decide) (by decide) (by decide) (by decide) (by decide) (by decide)
theorem val6_arg13 (V0 : Valuation τ sig (Elt F)) : val6 V0 (no_index (Proc.devRef .tc main_arg13)) = V0 (Proc.devRef .tc main_arg13) :=
  val6_keep0 V0 main_arg13 (by decide) (by decide) (by decide) (by decide) (by decide) (by decide)

set_option maxRecDepth 8192 in
theorem val6_v76 (V0 : Valuation τ sig (Elt F)) : val6 V0 (no_index (Proc.devRef .tc main_v76)) = (nodes (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))) := by
  unfold val6
  simp only [l4]
  after_results_simp
  simp only [val5_v57, val5_arg10, val5_v1, val5_arg2, val5_v3, val5_arg11]
  rfl

/-- The contents after the first 7 windows. -/
def val7 (V0 : Valuation τ sig (Elt F)) : Valuation τ sig (Elt F) := after ph (val6 V0)
/-- The buffers window `ph` writes. -/
abbrev ph_W : List (Ref sig .tc) := [main_cst_15, main_v77, main_v78, main_v79, main_v80, main_v81, main_v82, main_v83, main_cst_16, main_call5_cst, main_call5_v0, main_call5_v1, main_call5_v2, main_call5_v3, main_call5_v4, main_v84]
set_option maxRecDepth 8192 in
theorem ph_writes : (ph : List (HloOp τ sig (Elt F))).Forall fun op =>
    op.writes ⊆ (ph_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `ph` does not write passes through it. -/
theorem val7_keep (V0 : Valuation τ sig (Elt F)) (r : Ref sig .tc) (h : r ∉ ph_W) :
    val7 V0 (Proc.devRef .tc r) = val6 V0 (Proc.devRef .tc r) :=
  after_of_writes_sub ph _ ph_writes h
/-- A buffer none of the first 7 windows writes holds what it held at the start. -/
theorem val7_keep0 (V0 : Valuation τ sig (Elt F)) (r : Ref sig .tc) (h1 : r ∉ w0_W) (h2 : r ∉ l1_W) (h3 : r ∉ l2_W) (h4 : r ∉ l3a_W) (h5 : r ∉ l3b_W) (h6 : r ∉ l4_W) (h7 : r ∉ ph_W) :
    val7 V0 (Proc.devRef .tc r) = V0 (Proc.devRef .tc r) :=
  (val7_keep V0 r h7).trans (val6_keep0 V0 r h1 h2 h3 h4 h5 h6)
theorem val7_arg14 (V0 : Valuation τ sig (Elt F)) : val7 V0 (no_index (Proc.devRef .tc main_arg14)) = V0 (Proc.devRef .tc main_arg14) :=
  val7_keep0 V0 main_arg14 (by decide) (by decide) (by decide) (by decide) (by decide) (by decide) (by decide)
theorem val7_arg15 (V0 : Valuation τ sig (Elt F)) : val7 V0 (no_index (Proc.devRef .tc main_arg15)) = V0 (Proc.devRef .tc main_arg15) :=
  val7_keep0 V0 main_arg15 (by decide) (by decide) (by decide) (by decide) (by decide) (by decide) (by decide)

set_option maxRecDepth 8192 in
theorem val7_v84 (V0 : Valuation τ sig (Elt F)) : val7 V0 (no_index (Proc.devRef .tc main_v84)) = (head30 (pool (nodes (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))) (V0 (Proc.devRef .tc main_arg3))) (V0 (Proc.devRef .tc main_arg12)) (V0 (Proc.devRef .tc main_arg13))) := by
  unfold val7
  simp only [ph]
  after_results_simp
  simp only [val6_v76, val6_arg3, val6_arg12, val6_arg13]
  rfl

/-- The contents after the first 8 windows. -/
def val8 (V0 : Valuation τ sig (Elt F)) : Valuation τ sig (Elt F) := after h2 (val7 V0)
/-- The buffers window `h2` writes. -/
abbrev h2_W : List (Ref sig .tc) := [main_v85, main_v86, main_v87, main_v88, main_cst_17, main_call6_cst, main_call6_v0, main_call6_v1, main_call6_v2, main_call6_v3, main_call6_v4, main_v89]
set_option maxRecDepth 8192 in
theorem h2_writes : (h2 : List (HloOp τ sig (Elt F))).Forall fun op =>
    op.writes ⊆ (h2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `h2` does not write passes through it. -/
theorem val8_keep (V0 : Valuation τ sig (Elt F)) (r : Ref sig .tc) (h : r ∉ h2_W) :
    val8 V0 (Proc.devRef .tc r) = val7 V0 (Proc.devRef .tc r) :=
  after_of_writes_sub h2 _ h2_writes h
/-- A buffer none of the first 8 windows writes holds what it held at the start. -/
theorem val8_keep0 (V0 : Valuation τ sig (Elt F)) (r : Ref sig .tc) (h1 : r ∉ w0_W) (h2 : r ∉ l1_W) (h3 : r ∉ l2_W) (h4 : r ∉ l3a_W) (h5 : r ∉ l3b_W) (h6 : r ∉ l4_W) (h7 : r ∉ ph_W) (h8 : r ∉ h2_W) :
    val8 V0 (Proc.devRef .tc r) = V0 (Proc.devRef .tc r) :=
  (val8_keep V0 r h8).trans (val7_keep0 V0 r h1 h2 h3 h4 h5 h6 h7)
theorem val8_arg16 (V0 : Valuation τ sig (Elt F)) : val8 V0 (no_index (Proc.devRef .tc main_arg16)) = V0 (Proc.devRef .tc main_arg16) :=
  val8_keep0 V0 main_arg16 (by decide) (by decide) (by decide) (by decide) (by decide) (by decide) (by decide) (by decide)
theorem val8_arg17 (V0 : Valuation τ sig (Elt F)) : val8 V0 (no_index (Proc.devRef .tc main_arg17)) = V0 (Proc.devRef .tc main_arg17) :=
  val8_keep0 V0 main_arg17 (by decide) (by decide) (by decide) (by decide) (by decide) (by decide) (by decide) (by decide)

set_option maxRecDepth 8192 in
theorem val8_v89 (V0 : Valuation τ sig (Elt F)) : val8 V0 (no_index (Proc.devRef .tc main_v89)) = (head20 (head30 (pool (nodes (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))) (V0 (Proc.devRef .tc main_arg3))) (V0 (Proc.devRef .tc main_arg12)) (V0 (Proc.devRef .tc main_arg13))) (V0 (Proc.devRef .tc main_arg14)) (V0 (Proc.devRef .tc main_arg15))) := by
  unfold val8
  simp only [h2]
  after_results_simp
  simp only [val7_v84, val7_arg14, val7_arg15]
  rfl

/-- The contents after the first 9 windows. -/
def val9 (V0 : Valuation τ sig (Elt F)) : Valuation τ sig (Elt F) := after h3 (val8 V0)
/-- The buffers window `h3` writes. -/
abbrev h3_W : List (Ref sig .tc) := [main_v90, main_v91, main_v92, main_v93, main_cst_18, main_call7_cst, main_call7_v0, main_call7_v1, main_call7_v2, main_call7_v3, main_call7_v4, main_v94]
set_option maxRecDepth 8192 in
theorem h3_writes : (h3 : List (HloOp τ sig (Elt F))).Forall fun op =>
    op.writes ⊆ (h3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer window `h3` does not write passes through it. -/
theorem val9_keep (V0 : Valuation τ sig (Elt F)) (r : Ref sig .tc) (h : r ∉ h3_W) :
    val9 V0 (Proc.devRef .tc r) = val8 V0 (Proc.devRef .tc r) :=
  after_of_writes_sub h3 _ h3_writes h
/-- A buffer none of the first 9 windows writes holds what it held at the start. -/
theorem val9_keep0 (V0 : Valuation τ sig (Elt F)) (r : Ref sig .tc) (h1 : r ∉ w0_W) (h2 : r ∉ l1_W) (h3 : r ∉ l2_W) (h4 : r ∉ l3a_W) (h5 : r ∉ l3b_W) (h6 : r ∉ l4_W) (h7 : r ∉ ph_W) (h8 : r ∉ h2_W) (h9 : r ∉ h3_W) :
    val9 V0 (Proc.devRef .tc r) = V0 (Proc.devRef .tc r) :=
  (val9_keep V0 r h9).trans (val8_keep0 V0 r h1 h2 h3 h4 h5 h6 h7 h8)
theorem val9_arg0 (V0 : Valuation τ sig (Elt F)) : val9 V0 (no_index (Proc.devRef .tc main_arg0)) = V0 (Proc.devRef .tc main_arg0) :=
  val9_keep0 V0 main_arg0 (by decide) (by decide) (by decide) (by decide) (by decide) (by decide) (by decide) (by decide) (by decide)
theorem val9_arg1 (V0 : Valuation τ sig (Elt F)) : val9 V0 (no_index (Proc.devRef .tc main_arg1)) = V0 (Proc.devRef .tc main_arg1) :=
  val9_keep0 V0 main_arg1 (by decide) (by decide) (by decide) (by decide) (by decide) (by decide) (by decide) (by decide) (by decide)
theorem val9_arg2 (V0 : Valuation τ sig (Elt F)) : val9 V0 (no_index (Proc.devRef .tc main_arg2)) = V0 (Proc.devRef .tc main_arg2) :=
  val9_keep0 V0 main_arg2 (by decide) (by decide) (by decide) (by decide) (by decide) (by decide) (by decide) (by decide) (by decide)
theorem val9_arg3 (V0 : Valuation τ sig (Elt F)) : val9 V0 (no_index (Proc.devRef .tc main_arg3)) = V0 (Proc.devRef .tc main_arg3) :=
  val9_keep0 V0 main_arg3 (by decide) (by decide) (by decide) (by decide) (by decide) (by decide) (by decide) (by decide) (by decide)
theorem val9_arg4 (V0 : Valuation τ sig (Elt F)) : val9 V0 (no_index (Proc.devRef .tc main_arg4)) = V0 (Proc.devRef .tc main_arg4) :=
  val9_keep0 V0 main_arg4 (by decide) (by decide) (by decide) (by decide) (by decide) (by decide) (by decide) (by decide) (by decide)
theorem val9_arg5 (V0 : Valuation τ sig (Elt F)) : val9 V0 (no_index (Proc.devRef .tc main_arg5)) = V0 (Proc.devRef .tc main_arg5) :=
  val9_keep0 V0 main_arg5 (by decide) (by decide) (by decide) (by decide) (by decide) (by decide) (by decide) (by decide) (by decide)
theorem val9_arg6 (V0 : Valuation τ sig (Elt F)) : val9 V0 (no_index (Proc.devRef .tc main_arg6)) = V0 (Proc.devRef .tc main_arg6) :=
  val9_keep0 V0 main_arg6 (by decide) (by decide) (by decide) (by decide) (by decide) (by decide) (by decide) (by decide) (by decide)
theorem val9_arg7 (V0 : Valuation τ sig (Elt F)) : val9 V0 (no_index (Proc.devRef .tc main_arg7)) = V0 (Proc.devRef .tc main_arg7) :=
  val9_keep0 V0 main_arg7 (by decide) (by decide) (by decide) (by decide) (by decide) (by decide) (by decide) (by decide) (by decide)
theorem val9_arg8 (V0 : Valuation τ sig (Elt F)) : val9 V0 (no_index (Proc.devRef .tc main_arg8)) = V0 (Proc.devRef .tc main_arg8) :=
  val9_keep0 V0 main_arg8 (by decide) (by decide) (by decide) (by decide) (by decide) (by decide) (by decide) (by decide) (by decide)
theorem val9_arg9 (V0 : Valuation τ sig (Elt F)) : val9 V0 (no_index (Proc.devRef .tc main_arg9)) = V0 (Proc.devRef .tc main_arg9) :=
  val9_keep0 V0 main_arg9 (by decide) (by decide) (by decide) (by decide) (by decide) (by decide) (by decide) (by decide) (by decide)
theorem val9_arg10 (V0 : Valuation τ sig (Elt F)) : val9 V0 (no_index (Proc.devRef .tc main_arg10)) = V0 (Proc.devRef .tc main_arg10) :=
  val9_keep0 V0 main_arg10 (by decide) (by decide) (by decide) (by decide) (by decide) (by decide) (by decide) (by decide) (by decide)
theorem val9_arg11 (V0 : Valuation τ sig (Elt F)) : val9 V0 (no_index (Proc.devRef .tc main_arg11)) = V0 (Proc.devRef .tc main_arg11) :=
  val9_keep0 V0 main_arg11 (by decide) (by decide) (by decide) (by decide) (by decide) (by decide) (by decide) (by decide) (by decide)
theorem val9_arg12 (V0 : Valuation τ sig (Elt F)) : val9 V0 (no_index (Proc.devRef .tc main_arg12)) = V0 (Proc.devRef .tc main_arg12) :=
  val9_keep0 V0 main_arg12 (by decide) (by decide) (by decide) (by decide) (by decide) (by decide) (by decide) (by decide) (by decide)
theorem val9_arg13 (V0 : Valuation τ sig (Elt F)) : val9 V0 (no_index (Proc.devRef .tc main_arg13)) = V0 (Proc.devRef .tc main_arg13) :=
  val9_keep0 V0 main_arg13 (by decide) (by decide) (by decide) (by decide) (by decide) (by decide) (by decide) (by decide) (by decide)
theorem val9_arg14 (V0 : Valuation τ sig (Elt F)) : val9 V0 (no_index (Proc.devRef .tc main_arg14)) = V0 (Proc.devRef .tc main_arg14) :=
  val9_keep0 V0 main_arg14 (by decide) (by decide) (by decide) (by decide) (by decide) (by decide) (by decide) (by decide) (by decide)
theorem val9_arg15 (V0 : Valuation τ sig (Elt F)) : val9 V0 (no_index (Proc.devRef .tc main_arg15)) = V0 (Proc.devRef .tc main_arg15) :=
  val9_keep0 V0 main_arg15 (by decide) (by decide) (by decide) (by decide) (by decide) (by decide) (by decide) (by decide) (by decide)
theorem val9_arg16 (V0 : Valuation τ sig (Elt F)) : val9 V0 (no_index (Proc.devRef .tc main_arg16)) = V0 (Proc.devRef .tc main_arg16) :=
  val9_keep0 V0 main_arg16 (by decide) (by decide) (by decide) (by decide) (by decide) (by decide) (by decide) (by decide) (by decide)
theorem val9_arg17 (V0 : Valuation τ sig (Elt F)) : val9 V0 (no_index (Proc.devRef .tc main_arg17)) = V0 (Proc.devRef .tc main_arg17) :=
  val9_keep0 V0 main_arg17 (by decide) (by decide) (by decide) (by decide) (by decide) (by decide) (by decide) (by decide) (by decide)

set_option maxRecDepth 8192 in
theorem val9_v94 (V0 : Valuation τ sig (Elt F)) : val9 V0 (no_index (Proc.devRef .tc main_v94)) = (result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) := by
  unfold val9
  simp only [h3]
  after_results_simp
  simp only [val8_v89, val8_arg16, val8_arg17]
  rfl

/-- The whole line's fold is the contents after the ninth window. -/
theorem after_ops (V0 : Valuation τ sig (Elt F)) : after ops V0 = val9 V0 := by
  simp only [ops, after_app]
  rfl

/-! ## The run -/

/-- On every device, for any float values, from any memory with zero counters: every weakly fair execution of the
    reference terminates with its result buffer at `result` of the arguments' launch contents and the arguments unchanged. -/
theorem run_at (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r => ∀ c : Dev Cert.ReferenceIdeal.nD,
          r.2.mem ((c.tc : Thread Cert.ReferenceIdeal.nD Cert.ReferenceIdeal.τ).loc Cert.ReferenceIdeal.main_v94) = result (F := F) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)) :=
  (θ_run defs _ _).mono (fun _ h c => ⟨(h c main_v94).trans (by simp only [after_ops]; exact val9_v94 (launchContents m c)),
      (h c main_arg0).trans (by simp only [after_ops]; exact val9_arg0 (launchContents m c)),
      (h c main_arg1).trans (by simp only [after_ops]; exact val9_arg1 (launchContents m c)),
      (h c main_arg2).trans (by simp only [after_ops]; exact val9_arg2 (launchContents m c)),
      (h c main_arg3).trans (by simp only [after_ops]; exact val9_arg3 (launchContents m c)),
      (h c main_arg4).trans (by simp only [after_ops]; exact val9_arg4 (launchContents m c)),
      (h c main_arg5).trans (by simp only [after_ops]; exact val9_arg5 (launchContents m c)),
      (h c main_arg6).trans (by simp only [after_ops]; exact val9_arg6 (launchContents m c)),
      (h c main_arg7).trans (by simp only [after_ops]; exact val9_arg7 (launchContents m c)),
      (h c main_arg8).trans (by simp only [after_ops]; exact val9_arg8 (launchContents m c)),
      (h c main_arg9).trans (by simp only [after_ops]; exact val9_arg9 (launchContents m c)),
      (h c main_arg10).trans (by simp only [after_ops]; exact val9_arg10 (launchContents m c)),
      (h c main_arg11).trans (by simp only [after_ops]; exact val9_arg11 (launchContents m c)),
      (h c main_arg12).trans (by simp only [after_ops]; exact val9_arg12 (launchContents m c)),
      (h c main_arg13).trans (by simp only [after_ops]; exact val9_arg13 (launchContents m c)),
      (h c main_arg14).trans (by simp only [after_ops]; exact val9_arg14 (launchContents m c)),
      (h c main_arg15).trans (by simp only [after_ops]; exact val9_arg15 (launchContents m c)),
      (h c main_arg16).trans (by simp only [after_ops]; exact val9_arg16 (launchContents m c)),
      (h c main_arg17).trans (by simp only [after_ops]; exact val9_arg17 (launchContents m c))⟩)
    (run_seq scopedRefs_eq scopedSems_eq defs main (fun _ => ops) main_eq (fun _ => ops_sub) m ρ)

/-- The same at the ideal instance, where a float is an extended real. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
          r.2.mem ((c.tc : Thread Cert.ReferenceIdeal.nD Cert.ReferenceIdeal.τ).loc Cert.ReferenceIdeal.main_v94) = result (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)) :=
  run_at (F := Ideal) m ρ

end Cert.ReferenceIdeal.RefValue

end
-- ==== Proof.RefStages.lean ====
/-
  The reference's dense stages read as the network's stage formers, at the ideal instance.

  At the ideal instance a float is an extended real and every operation is the exact one. There each matrix product of
  the reference is the entrywise sum of products, its activation is the entrywise choice between x and slope * x, and
  its bias — a vector broadcast first to one row and then over all rows — adds to every row the same row that a reshape
  of the vector to one row gives.
-/
import proofs.«105258_j23639499997343_1_alg».proof.Proof.RefRunDefs
import proofs.«105258_j23639499997343_1_alg».proof.Proof.Net
import proofs.«105258_j23639499997343_1_alg».proof.Proof.LibPlainDot
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Idealize.ShloMosaic Idealize.ShloMosaic.ValueIdx
open Cert.ReferenceIdeal.Facts₀ Cert.ReferenceIdeal.Facts

variable [Cert.ReferenceIdeal.Facts]

/-! ## The matrix products -/

/-- The 253952 by 6 times 6 by 16 product is the entrywise sum of products. -/
theorem dot16_eq (h : FVec Ideal S253952x6 .f32) (W : FVec Ideal S6x16 .f32) : dot16 (F := Ideal) h W = Net.lin h W := by
  funext i
  unfold dot16
  simp only [Host.dotGeneral]
  exact Cert.Lib.PlainDot.dotGeneral_apply 253952 6 16 none .single h W i

/-- The 253952 by 16 times 16 by 32 product is the entrywise sum of products. -/
theorem dot32_eq (h : FVec Ideal S253952x16 .f32) (W : FVec Ideal S16x32 .f32) : dot32 (F := Ideal) h W = Net.lin h W := by
  funext i
  unfold dot32
  simp only [Host.dotGeneral]
  exact Cert.Lib.PlainDot.dotGeneral_apply 253952 16 32 none .single h W i

/-- The 253952 by 32 times 32 by 64 product is the entrywise sum of products. -/
theorem dot64_eq (h : FVec Ideal S253952x32 .f32) (W : FVec Ideal S32x64 .f32) : dot64 (F := Ideal) h W = Net.lin h W := by
  funext i
  unfold dot64
  simp only [Host.dotGeneral]
  exact Cert.Lib.PlainDot.dotGeneral_apply 253952 32 64 none .single h W i

/-- The 253952 by 64 times 64 by 50 product is the entrywise sum of products. -/
theorem dot50_eq (h : FVec Ideal S253952x64 .f32) (W : FVec Ideal S64x50 .f32) : dot50 (F := Ideal) h W = Net.lin h W := by
  funext i
  unfold dot50
  simp only [Host.dotGeneral]
  exact Cert.Lib.PlainDot.dotGeneral_apply 253952 64 50 none .single h W i

/-- The 4096 by 50 times 50 by 30 product is the entrywise sum of products. -/
theorem hdot30_eq (h : FVec Ideal S4096x50 .f32) (W : FVec Ideal S50x30 .f32) : hdot30 (F := Ideal) h W = Net.lin h W := by
  funext i
  unfold hdot30
  simp only [Host.dotGeneral]
  exact Cert.Lib.PlainDot.dotGeneral_apply 4096 50 30 none .single h W i

/-- The 4096 by 30 times 30 by 20 product is the entrywise sum of products. -/
theorem hdot20_eq (h : FVec Ideal S4096x30 .f32) (W : FVec Ideal S30x20 .f32) : hdot20 (F := Ideal) h W = Net.lin h W := by
  funext i
  unfold hdot20
  simp only [Host.dotGeneral]
  exact Cert.Lib.PlainDot.dotGeneral_apply 4096 30 20 none .single h W i

/-- The 4096 by 20 times 20 by 2 product is the entrywise sum of products. -/
theorem hdot2_eq (h : FVec Ideal S4096x20 .f32) (W : FVec Ideal S20x2 .f32) : hdot2 (F := Ideal) h W = Net.lin h W := by
  funext i
  unfold hdot2
  simp only [Host.dotGeneral]
  exact Cert.Lib.PlainDot.dotGeneral_apply 4096 20 2 none .single h W i

/-! ## The activation -/

/-- The activation at an index: a scalar broadcast to any shape reads as the scalar everywhere, so the comparison is with
    the zero word and the product with the slope word. -/
theorem leaky_apply {S : Shape} (hb : S_.BroadcastsInDim S (![] : Fin 0 → Fin S.rank)) (x : FVec Ideal S .f32) (i : S.Idx) :
    leaky (F := Ideal) hb x i = Net.act (x i) := by
  have hz : ∀ c : FVec Ideal S_ .f32, broadcastInDim S ![] hb c i = c ix0 := fun c =>
    broadcastInDim_apply ![] hb c i ix0 (fun a => a.elim0)
  unfold leaky
  simp only [select_apply, cmpf_apply, mulf_apply, hz]
  rfl

/-- The second activation after the fourth layer, as a function. -/
theorem leaky50_eq (x : FVec Ideal S253952x50 .f32) : leaky (F := Ideal) bcast_S_S253952x50 x = Net.actM x := by
  funext i
  rw [leaky_apply]
  rfl

/-! ## The bias -/

/-- A vector broadcast to one row and then over n rows reads, at (r, c), the vector at c. -/
theorem biasRow_apply {α : Type} {n w : ℕ}
    (h1 : (⟨1, ![w]⟩ : Shape).BroadcastsInDim ⟨2, ![1, w]⟩ ![1])
    (h2 : (⟨2, ![1, w]⟩ : Shape).BroadcastsInDim ⟨2, ![n, w]⟩ ![0, 1])
    (b : (⟨1, ![w]⟩ : Shape).Idx → α) (r : Fin n) (c : Fin w) :
    broadcastInDim ⟨2, ![n, w]⟩ ![0, 1] h2 (broadcastInDim ⟨2, ![1, w]⟩ ![1] h1 b) (ix2 r c) = b (ix1 c) := by
  have e2 : broadcastInDim ⟨2, ![n, w]⟩ ![0, 1] h2 (broadcastInDim ⟨2, ![1, w]⟩ ![1] h1 b) (ix2 r c)
      = broadcastInDim ⟨2, ![1, w]⟩ ![1] h1 b (ix2 (0 : Fin 1) c) := by
    refine broadcastInDim_apply ![0, 1] h2 _ (ix2 r c) (ix2 (0 : Fin 1) c) fun a => ?_
    match a with
    | ⟨0, _⟩ => rfl
    | ⟨1, _⟩ =>
      show c.val = if w = 1 then 0 else c.val
      split
      · have := c.isLt; omega
      · rfl
  have e1 : broadcastInDim ⟨2, ![1, w]⟩ ![1] h1 b (ix2 (0 : Fin 1) c) = b (ix1 c) := by
    refine broadcastInDim_apply ![1] h1 b (ix2 (0 : Fin 1) c) (ix1 c) fun a => ?_
    match a with
    | ⟨0, _⟩ =>
      show c.val = if w = 1 then 0 else c.val
      split
      · have := c.isLt; omega
      · rfl
  exact e2.trans e1

/-- The width-16 bias matrix at (r, c) is the bias at c. -/
theorem biasB16_apply (b : FVec Ideal S16 .f32) (r : Fin 253952) (c : Fin 16) :
    biasB16 (F := Ideal) b (ix2 r c) = b (ix1 c) := by
  unfold biasB16
  exact biasRow_apply bcast_S16_S1x16_1 bcast_S1x16_S253952x16_0_1 b r c

/-- Bias and activation at width 16: the bias vector, reshaped to one row, added to every row, then the activation of
    every entry. -/
theorem biasAct16_eq (g : FVec Ideal S253952x16 .f32) (b : FVec Ideal S16 .f32)
    (hc : (⟨1, ![16]⟩ : Shape).ShapeCasts ⟨2, ![1, 16]⟩) :
    biasAct16 (F := Ideal) g b = Net.actM (Net.addRow g (shapeCast ⟨2, ![1, 16]⟩ b hc)) := by
  funext i
  obtain ⟨r, c, rfl⟩ : ∃ (r : Fin 253952) (c : Fin 16), i = ix2 r c := ⟨i 0, i 1, eq_ix2 i⟩
  unfold biasAct16
  rw [leaky_apply]
  show Net.act (addf g (biasB16 (F := Ideal) b) (ix2 r c))
    = Net.act (g (ix2 r c) + shapeCast ⟨2, ![1, 16]⟩ b hc (ix2 (0 : Fin 1) c))
  rw [addf_apply, biasB16_apply b r c, shapeCast_a_1a_apply b hc 0 c]

/-- The width-32 bias matrix at (r, c) is the bias at c. -/
theorem biasB32_apply (b : FVec Ideal S32 .f32) (r : Fin 253952) (c : Fin 32) :
    biasB32 (F := Ideal) b (ix2 r c) = b (ix1 c) := by
  unfold biasB32
  exact biasRow_apply bcast_S32_S1x32_1 bcast_S1x32_S253952x32_0_1 b r c

/-- Bias and activation at width 32: the bias vector, reshaped to one row, added to every row, then the activation of
    every entry. -/
theorem biasAct32_eq (g : FVec Ideal S253952x32 .f32) (b : FVec Ideal S32 .f32)
    (hc : (⟨1, ![32]⟩ : Shape).ShapeCasts ⟨2, ![1, 32]⟩) :
    biasAct32 (F := Ideal) g b = Net.actM (Net.addRow g (shapeCast ⟨2, ![1, 32]⟩ b hc)) := by
  funext i
  obtain ⟨r, c, rfl⟩ : ∃ (r : Fin 253952) (c : Fin 32), i = ix2 r c := ⟨i 0, i 1, eq_ix2 i⟩
  unfold biasAct32
  rw [leaky_apply]
  show Net.act (addf g (biasB32 (F := Ideal) b) (ix2 r c))
    = Net.act (g (ix2 r c) + shapeCast ⟨2, ![1, 32]⟩ b hc (ix2 (0 : Fin 1) c))
  rw [addf_apply, biasB32_apply b r c, shapeCast_a_1a_apply b hc 0 c]

/-- The width-64 bias matrix at (r, c) is the bias at c. -/
theorem biasB64_apply (b : FVec Ideal S64 .f32) (r : Fin 253952) (c : Fin 64) :
    biasB64 (F := Ideal) b (ix2 r c) = b (ix1 c) := by
  unfold biasB64
  exact biasRow_apply bcast_S64_S1x64_1 bcast_S1x64_S253952x64_0_1 b r c

/-- Bias and activation at width 64: the bias vector, reshaped to one row, added to every row, then the activation of
    every entry. -/
theorem biasAct64_eq (g : FVec Ideal S253952x64 .f32) (b : FVec Ideal S64 .f32)
    (hc : (⟨1, ![64]⟩ : Shape).ShapeCasts ⟨2, ![1, 64]⟩) :
    biasAct64 (F := Ideal) g b = Net.actM (Net.addRow g (shapeCast ⟨2, ![1, 64]⟩ b hc)) := by
  funext i
  obtain ⟨r, c, rfl⟩ : ∃ (r : Fin 253952) (c : Fin 64), i = ix2 r c := ⟨i 0, i 1, eq_ix2 i⟩
  unfold biasAct64
  rw [leaky_apply]
  show Net.act (addf g (biasB64 (F := Ideal) b) (ix2 r c))
    = Net.act (g (ix2 r c) + shapeCast ⟨2, ![1, 64]⟩ b hc (ix2 (0 : Fin 1) c))
  rw [addf_apply, biasB64_apply b r c, shapeCast_a_1a_apply b hc 0 c]

/-- The width-50 bias matrix at (r, c) is the bias at c. -/
theorem biasB50_apply (b : FVec Ideal S50 .f32) (r : Fin 253952) (c : Fin 50) :
    biasB50 (F := Ideal) b (ix2 r c) = b (ix1 c) := by
  unfold biasB50
  exact biasRow_apply bcast_S50_S1x50_1 bcast_S1x50_S253952x50_0_1 b r c

/-- Bias and activation at width 50: the bias vector, reshaped to one row, added to every row, then the activation of
    every entry. -/
theorem biasAct50_eq (g : FVec Ideal S253952x50 .f32) (b : FVec Ideal S50 .f32)
    (hc : (⟨1, ![50]⟩ : Shape).ShapeCasts ⟨2, ![1, 50]⟩) :
    biasAct50 (F := Ideal) g b = Net.actM (Net.addRow g (shapeCast ⟨2, ![1, 50]⟩ b hc)) := by
  funext i
  obtain ⟨r, c, rfl⟩ : ∃ (r : Fin 253952) (c : Fin 50), i = ix2 r c := ⟨i 0, i 1, eq_ix2 i⟩
  unfold biasAct50
  rw [leaky_apply]
  show Net.act (addf g (biasB50 (F := Ideal) b) (ix2 r c))
    = Net.act (g (ix2 r c) + shapeCast ⟨2, ![1, 50]⟩ b hc (ix2 (0 : Fin 1) c))
  rw [addf_apply, biasB50_apply b r c, shapeCast_a_1a_apply b hc 0 c]

/-! ## The head -/

/-- The width-30 head bias matrix at (r, c) is the bias at c. -/
theorem hbiasB30_apply (b : FVec Ideal S30 .f32) (r : Fin 4096) (c : Fin 30) :
    hbiasB30 (F := Ideal) b (ix2 r c) = b (ix1 c) := by
  unfold hbiasB30
  exact biasRow_apply bcast_S30_S1x30_1 bcast_S1x30_S4096x30_0_1 b r c

/-- The width-30 head layer: product, the bias row added to every row, activation. -/
theorem head30_eq (h : FVec Ideal S4096x50 .f32) (W : FVec Ideal S50x30 .f32) (b : FVec Ideal S30 .f32)
    (hc : (⟨1, ![30]⟩ : Shape).ShapeCasts ⟨2, ![1, 30]⟩) :
    head30 (F := Ideal) h W b = Net.actM (Net.addRow (Net.lin h W) (shapeCast ⟨2, ![1, 30]⟩ b hc)) := by
  funext i
  obtain ⟨r, c, rfl⟩ : ∃ (r : Fin 4096) (c : Fin 30), i = ix2 r c := ⟨i 0, i 1, eq_ix2 i⟩
  unfold head30
  rw [leaky_apply, hdot30_eq]
  show Net.act (addf (Net.lin h W) (hbiasB30 (F := Ideal) b) (ix2 r c))
    = Net.act (Net.lin h W (ix2 r c) + shapeCast ⟨2, ![1, 30]⟩ b hc (ix2 (0 : Fin 1) c))
  rw [addf_apply, hbiasB30_apply b r c, shapeCast_a_1a_apply b hc 0 c]

/-- The width-20 head bias matrix at (r, c) is the bias at c. -/
theorem hbiasB20_apply (b : FVec Ideal S20 .f32) (r : Fin 4096) (c : Fin 20) :
    hbiasB20 (F := Ideal) b (ix2 r c) = b (ix1 c) := by
  unfold hbiasB20
  exact biasRow_apply bcast_S20_S1x20_1 bcast_S1x20_S4096x20_0_1 b r c

/-- The width-20 head layer: product, the bias row added to every row, activation. -/
theorem head20_eq (h : FVec Ideal S4096x30 .f32) (W : FVec Ideal S30x20 .f32) (b : FVec Ideal S20 .f32)
    (hc : (⟨1, ![20]⟩ : Shape).ShapeCasts ⟨2, ![1, 20]⟩) :
    head20 (F := Ideal) h W b = Net.actM (Net.addRow (Net.lin h W) (shapeCast ⟨2, ![1, 20]⟩ b hc)) := by
  funext i
  obtain ⟨r, c, rfl⟩ : ∃ (r : Fin 4096) (c : Fin 20), i = ix2 r c := ⟨i 0, i 1, eq_ix2 i⟩
  unfold head20
  rw [leaky_apply, hdot20_eq]
  show Net.act (addf (Net.lin h W) (hbiasB20 (F := Ideal) b) (ix2 r c))
    = Net.act (Net.lin h W (ix2 r c) + shapeCast ⟨2, ![1, 20]⟩ b hc (ix2 (0 : Fin 1) c))
  rw [addf_apply, hbiasB20_apply b r c, shapeCast_a_1a_apply b hc 0 c]

/-- The width-2 head bias matrix at (r, c) is the bias at c. -/
theorem hbiasB2_apply (b : FVec Ideal S2 .f32) (r : Fin 4096) (c : Fin 2) :
    hbiasB2 (F := Ideal) b (ix2 r c) = b (ix1 c) := by
  unfold hbiasB2
  exact biasRow_apply bcast_S2_S1x2_1 bcast_S1x2_S4096x2_0_1 b r c

/-- The width-2 head layer: product, the bias row added to every row, activation. -/
theorem head2_eq (h : FVec Ideal S4096x20 .f32) (W : FVec Ideal S20x2 .f32) (b : FVec Ideal S2 .f32)
    (hc : (⟨1, ![2]⟩ : Shape).ShapeCasts ⟨2, ![1, 2]⟩) :
    head2 (F := Ideal) h W b = Net.actM (Net.addRow (Net.lin h W) (shapeCast ⟨2, ![1, 2]⟩ b hc)) := by
  funext i
  obtain ⟨r, c, rfl⟩ : ∃ (r : Fin 4096) (c : Fin 2), i = ix2 r c := ⟨i 0, i 1, eq_ix2 i⟩
  unfold head2
  rw [leaky_apply, hdot2_eq]
  show Net.act (addf (Net.lin h W) (hbiasB2 (F := Ideal) b) (ix2 r c))
    = Net.act (Net.lin h W (ix2 r c) + shapeCast ⟨2, ![1, 2]⟩ b hc (ix2 (0 : Fin 1) c))
  rw [addf_apply, hbiasB2_apply b r c, shapeCast_a_1a_apply b hc 0 c]

end Cert.ReferenceIdeal.RefValue

end
-- ==== Proof.LibAllTrue.lean ====
/-
  All-true masks, and signed index words in a range.

  A reduction by `and` over one-bit words that starts from 1 and meets only 1s is 1 (the converse of reading a
  printed `all` back). For a 32-bit index word read signed: a nonnegative word is left alone by the
  wrap "add the extent where negative", and a word below an extent is at most the extent's predecessor.
-/
import Idealize.ShloMosaic.Lib.ReduceAll

namespace Cert.Lib.AllTrue

open Idealize.ShloMosaic

/-- A left fold by `and` from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self, show IntOp.andi (1#1) (1#1) = 1#1 from by decide]
    exact ih fun n hn => h n (List.mem_cons_of_mem _ hn)

/-- A reduction by `and`, from an initial 1, of an array of 1s is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-- A nonnegative index word is not wrapped. -/
theorem wrap_of_nonneg {x y : BitVec 32} (h0 : IntOp.cmpi .sge x 0#32 = 1#1) :
    Scalar.select (IntOp.cmpi .slt x 0#32) y x = x := by
  unfold Scalar.select
  rw [if_neg]
  intro h
  have h1 := IntOp.cmpi_slt.1 h
  have h2 := IntOp.cmpi_sge.1 h0
  omega

/-- Below 253952 is at most 253951. -/
theorem sle_pred {x : BitVec 32} (h : IntOp.cmpi .slt x 253952#32 = 1#1) : IntOp.cmpi .sle x 253951#32 = 1#1 := by
  rw [IntOp.cmpi_sle]
  have h1 := IntOp.cmpi_slt.1 h
  have e1 : (253952#32 : BitVec 32).toInt = 253952 := by decide
  have e2 : (253951#32 : BitVec 32).toInt = 253951 := by decide
  omega

end Cert.Lib.AllTrue
-- ==== Proof.Bridge.lean ====
/-
  The two programs compute one function wherever every edge's source index is a row number.

  Layer by layer the reference computes: product, neighbour sum, bias, activation. The kernel program computes the
  same in the same order; its bias and activation are applied on the way into the next product. The products read
  as the matrix product on both sides, the bias and activation as "add the bias row, apply the activation entrywise".
  The neighbour sums are the same host operations on both sides — gather the rows at the wrapped source indices,
  scale by the edge weights, add at the destination nodes — except that the kernel program first replaces a gathered
  row by a fill word where the wrapped source index is not a row number. Where every source index s satisfies
  0 ≤ s < 253952 the wrap leaves it alone, the range test 0 ≤ s ≤ 253951 holds at every edge, nothing is replaced,
  and the two neighbour sums are the same function. The gather and the scatter themselves are never opened.
-/
import proofs.«105258_j23639499997343_1_alg».proof.Proof.RefStages
import proofs.«105258_j23639499997343_1_alg».proof.Proof.KNet
import proofs.«105258_j23639499997343_1_alg».proof.Proof.LibAllTrue

set_option maxRecDepth 16384

noncomputable section

namespace Cert.Bridge

open Idealize.ShloMosaic Idealize.ShloMosaic.ValueIdx
open Cert.KernelIdeal (S4000000 S4000000x1 S2x4000000 S253952 S253952x6 S253952x16 S253952x32 S253952x64 S253952x50 S4096x50
  S6x16 S16 S16x32 S32 S32x64 S64 S64x50 S50 S50x30 S30 S30x20 S20 S20x2 S2 S4096x2 S4000000x16 S4000000x32 S4000000x64 S4000000x50)

/-- Every edge's source index, read signed, is a row number. -/
def SrcInRows (a1 : IVec S2x4000000 32) : Prop :=
  ∀ e : S4000000.Idx, IntOp.cmpi .sge (Cert.KernelIdeal.HostValue.srcRow a1 e) 0#32 = 1#1
    ∧ IntOp.cmpi .slt (Cert.KernelIdeal.HostValue.srcRow a1 e) 253952#32 = 1#1

/-! ## The fill mask is all ones -/

/-- An entry of the wrapped index column is the wrap of some source index. -/
theorem wrapCol_entry (s : IVec S4000000 32) (i : S4000000x1.Idx) :
    ∃ (e : S4000000.Idx) (y : BitVec 32),
      Cert.KernelIdeal.HostValue.wrapCol s i = Scalar.select (IntOp.cmpi .slt (s e) 0#32) y (s e) := ⟨_, _, rfl⟩

/-- Under the hypothesis the wrapped index column holds the source indices themselves. -/
theorem wrapCol_entry_eq {a1 : IVec S2x4000000 32} (h : SrcInRows a1) (i : S4000000x1.Idx) :
    ∃ e : S4000000.Idx, Cert.KernelIdeal.HostValue.wrapCol (Cert.KernelIdeal.HostValue.srcRow a1) i
      = Cert.KernelIdeal.HostValue.srcRow a1 e := by
  obtain ⟨e, y, he⟩ := wrapCol_entry (Cert.KernelIdeal.HostValue.srcRow a1) i
  exact ⟨e, he.trans (Cert.Lib.AllTrue.wrap_of_nonneg (h e).1)⟩

/-- The range test holds at every edge. -/
theorem inRows_all {a1 : IVec S2x4000000 32} (h : SrcInRows a1) (e : S4000000.Idx) :
    Cert.KernelIdeal.HostValue.inRows (Cert.KernelIdeal.HostValue.wrapCol (Cert.KernelIdeal.HostValue.srcRow a1)) e = 1#1 := by
  unfold Cert.KernelIdeal.HostValue.inRows
  refine Cert.Lib.AllTrue.reduce_andi_one _ _ _ _ e rfl fun i => ?_
  obtain ⟨e', he'⟩ := wrapCol_entry_eq h i
  show IntOp.andi (IntOp.cmpi .sge (Cert.KernelIdeal.HostValue.wrapCol (Cert.KernelIdeal.HostValue.srcRow a1) i) 0#32)
    (IntOp.cmpi .sle (Cert.KernelIdeal.HostValue.wrapCol (Cert.KernelIdeal.HostValue.srcRow a1) i) 253951#32) = 1#1
  rw [he']
  exact IntOp.andi_eq_one.2 ⟨(h e').1, Cert.Lib.AllTrue.sle_pred (h e').2⟩

/-- A selection by a mask that is 1 everywhere is its first operand. -/
theorem select_of_all {S : Shape} {α : Type} (c : IVec S 1) (x y : S.Idx → α) (hc : ∀ i, c i = 1#1) : select c x y = x := by
  funext i
  rw [select_apply, hc i]
  rfl

/-- A mask that is 1 everywhere, repeated along rows, is 1 everywhere. -/
theorem rows_of_all {S T : Shape} (dims : Fin S.rank → Fin T.rank) (hb : S.BroadcastsInDim T dims) (c : IVec S 1)
    (hc : ∀ i, c i = 1#1) (j : T.Idx) : broadcastInDim T dims hb c j = 1#1 := by
  unfold broadcastInDim
  exact hc _

/-! ## The neighbour sums agree -/

theorem take16_eq {a1 : IVec S2x4000000 32} (h : SrcInRows a1) (x : FVec Ideal S253952x16 .f32) :
    Cert.KernelIdeal.HostValue.take16 x (Cert.KernelIdeal.HostValue.srcRow a1)
      = Cert.ReferenceIdeal.RefValue.gath16 (F := Ideal) x a1 := by
  unfold Cert.KernelIdeal.HostValue.take16
  rw [select_of_all _ _ _ (rows_of_all _ _ _ (inRows_all h))]
  exact rfl

theorem take32_eq {a1 : IVec S2x4000000 32} (h : SrcInRows a1) (x : FVec Ideal S253952x32 .f32) :
    Cert.KernelIdeal.HostValue.take32 x (Cert.KernelIdeal.HostValue.srcRow a1)
      = Cert.ReferenceIdeal.RefValue.gath32 (F := Ideal) x a1 := by
  unfold Cert.KernelIdeal.HostValue.take32
  rw [select_of_all _ _ _ (rows_of_all _ _ _ (inRows_all h))]
  exact rfl

theorem take64_eq {a1 : IVec S2x4000000 32} (h : SrcInRows a1) (x : FVec Ideal S253952x64 .f32) :
    Cert.KernelIdeal.HostValue.take64 x (Cert.KernelIdeal.HostValue.srcRow a1)
      = Cert.ReferenceIdeal.RefValue.gath64 (F := Ideal) x a1 := by
  unfold Cert.KernelIdeal.HostValue.take64
  rw [select_of_all _ _ _ (rows_of_all _ _ _ (inRows_all h))]
  exact rfl

theorem take50_eq {a1 : IVec S2x4000000 32} (h : SrcInRows a1) (x : FVec Ideal S253952x50 .f32) :
    Cert.KernelIdeal.HostValue.take50 x (Cert.KernelIdeal.HostValue.srcRow a1)
      = Cert.ReferenceIdeal.RefValue.gath50 (F := Ideal) x a1 := by
  unfold Cert.KernelIdeal.HostValue.take50
  rw [select_of_all _ _ _ (rows_of_all _ _ _ (inRows_all h))]
  exact rfl

theorem agg16_eq {a1 : IVec S2x4000000 32} (h : SrcInRows a1) (x : FVec Ideal S253952x16 .f32) (a2 : FVec Ideal S4000000 .f32) :
    Cert.ReferenceIdeal.RefValue.agg16 (F := Ideal) x a1 a2
      = Cert.KernelIdeal.HostValue.agg16 (Cert.KernelIdeal.HostValue.take16 x (Cert.KernelIdeal.HostValue.srcRow a1))
          (Cert.KernelIdeal.HostValue.dstRow a1) a2 := by
  rw [take16_eq h]
  exact rfl

theorem agg32_eq {a1 : IVec S2x4000000 32} (h : SrcInRows a1) (x : FVec Ideal S253952x32 .f32) (a2 : FVec Ideal S4000000 .f32) :
    Cert.ReferenceIdeal.RefValue.agg32 (F := Ideal) x a1 a2
      = Cert.KernelIdeal.HostValue.agg32 (Cert.KernelIdeal.HostValue.take32 x (Cert.KernelIdeal.HostValue.srcRow a1))
          (Cert.KernelIdeal.HostValue.dstRow a1) a2 := by
  rw [take32_eq h]
  exact rfl

theorem agg64_eq {a1 : IVec S2x4000000 32} (h : SrcInRows a1) (x : FVec Ideal S253952x64 .f32) (a2 : FVec Ideal S4000000 .f32) :
    Cert.ReferenceIdeal.RefValue.agg64 (F := Ideal) x a1 a2
      = Cert.KernelIdeal.HostValue.agg64 (Cert.KernelIdeal.HostValue.take64 x (Cert.KernelIdeal.HostValue.srcRow a1))
          (Cert.KernelIdeal.HostValue.dstRow a1) a2 := by
  rw [take64_eq h]
  exact rfl

theorem agg50_eq {a1 : IVec S2x4000000 32} (h : SrcInRows a1) (x : FVec Ideal S253952x50 .f32) (a2 : FVec Ideal S4000000 .f32) :
    Cert.ReferenceIdeal.RefValue.agg50 (F := Ideal) x a1 a2
      = Cert.KernelIdeal.HostValue.agg50 (Cert.KernelIdeal.HostValue.take50 x (Cert.KernelIdeal.HostValue.srcRow a1))
          (Cert.KernelIdeal.HostValue.dstRow a1) a2 := by
  rw [take50_eq h]
  exact rfl

/-- The pooling is the same host operation on both sides. -/
theorem pool_eq (x : FVec Ideal S253952x50 .f32) (a3 : IVec S253952 32) :
    Cert.ReferenceIdeal.RefValue.pool (F := Ideal) x a3 = Cert.KernelIdeal.HostValue.pool x a3 := rfl

/-! ## Layer by layer -/

open Cert.ReferenceIdeal.RefValue in
theorem layer16_eq {a1 : IVec S2x4000000 32} (h : SrcInRows a1) (a0 : FVec Ideal S253952x6 .f32) (a2 : FVec Ideal S4000000 .f32)
    (a4 : FVec Ideal S6x16 .f32) (a5 : FVec Ideal S16 .f32) :
    layer16 (F := Ideal) a0 a4 a5 a1 a2
      = Net.actM (Net.addRow (Cert.KernelIdeal.HostValue.g1 a0 a1 a2 a4) (Cert.KernelIdeal.HostValue.row16 a5)) := by
  unfold layer16
  rw [biasAct16_eq _ _ Cert.KernelIdeal.Gen.shapeCasts_S16_S1x16, dot16_eq, agg16_eq h]
  rfl

open Cert.ReferenceIdeal.RefValue in
theorem layer32_eq {a1 : IVec S2x4000000 32} (h : SrcInRows a1) (x : FVec Ideal S253952x16 .f32) (a2 : FVec Ideal S4000000 .f32)
    (a6 : FVec Ideal S16x32 .f32) (a7 : FVec Ideal S32 .f32) :
    layer32 (F := Ideal) x a6 a7 a1 a2
      = Net.actM (Net.addRow (Cert.KernelIdeal.HostValue.g2 (Net.lin x a6) a1 a2) (Cert.KernelIdeal.HostValue.row32 a7)) := by
  unfold layer32
  rw [biasAct32_eq _ _ Cert.KernelIdeal.Gen.shapeCasts_S32_S1x32, dot32_eq, agg32_eq h]
  rfl

open Cert.ReferenceIdeal.RefValue in
theorem layer64_eq {a1 : IVec S2x4000000 32} (h : SrcInRows a1) (x : FVec Ideal S253952x32 .f32) (a2 : FVec Ideal S4000000 .f32)
    (a8 : FVec Ideal S32x64 .f32) (a9 : FVec Ideal S64 .f32) :
    layer64 (F := Ideal) x a8 a9 a1 a2
      = Net.actM (Net.addRow (Cert.KernelIdeal.HostValue.g3 (Net.lin x a8) a1 a2) (Cert.KernelIdeal.HostValue.row64 a9)) := by
  unfold layer64
  rw [biasAct64_eq _ _ Cert.KernelIdeal.Gen.shapeCasts_S64_S1x64, dot64_eq, agg64_eq h]
  rfl

open Cert.ReferenceIdeal.RefValue in
theorem layer50_eq {a1 : IVec S2x4000000 32} (h : SrcInRows a1) (x : FVec Ideal S253952x64 .f32) (a2 : FVec Ideal S4000000 .f32)
    (a10 : FVec Ideal S64x50 .f32) (a11 : FVec Ideal S50 .f32) :
    layer50 (F := Ideal) x a10 a11 a1 a2
      = Net.actM (Net.addRow (Cert.KernelIdeal.HostValue.g4 (Net.lin x a10) a1 a2) (Cert.KernelIdeal.HostValue.row50 a11)) := by
  unfold layer50
  rw [biasAct50_eq _ _ Cert.KernelIdeal.Gen.shapeCasts_S50_S1x50, dot50_eq, agg50_eq h]
  rfl

/-! ## The whole -/

open Cert.ReferenceIdeal.RefValue in
/-- THE BRIDGE: where every source index is a row number, the reference's result is the kernel program's network
    function of the same eighteen arguments. -/
theorem result_eq {a1 : IVec S2x4000000 32} (h : SrcInRows a1) (a0 : FVec Ideal S253952x6 .f32) (a2 : FVec Ideal S4000000 .f32)
    (a3 : IVec S253952 32) (a4 : FVec Ideal S6x16 .f32) (a5 : FVec Ideal S16 .f32) (a6 : FVec Ideal S16x32 .f32)
    (a7 : FVec Ideal S32 .f32) (a8 : FVec Ideal S32x64 .f32) (a9 : FVec Ideal S64 .f32) (a10 : FVec Ideal S64x50 .f32)
    (a11 : FVec Ideal S50 .f32) (a12 : FVec Ideal S50x30 .f32) (a13 : FVec Ideal S30 .f32) (a14 : FVec Ideal S30x20 .f32)
    (a15 : FVec Ideal S20 .f32) (a16 : FVec Ideal S20x2 .f32) (a17 : FVec Ideal S2 .f32) :
    result (F := Ideal) a0 a1 a2 a3 a4 a5 a6 a7 a8 a9 a10 a11 a12 a13 a14 a15 a16 a17
      = Cert.KernelIdeal.HostValue.net a0 a1 a2 a3 a4 a5 a6 a7 a8 a9 a10 a11 a12 a13 a14 a15 a16 a17 := by
  unfold result nodes
  rw [head2_eq _ _ _ Cert.KernelIdeal.Gen.shapeCasts_S2_S1x2, head20_eq _ _ _ Cert.KernelIdeal.Gen.shapeCasts_S20_S1x20,
    head30_eq _ _ _ Cert.KernelIdeal.Gen.shapeCasts_S30_S1x30, leaky50_eq, layer50_eq h, layer64_eq h, layer32_eq h,
    layer16_eq h, pool_eq]
  rfl

end Cert.Bridge

end
-- ==== Proof.PreIndex.lean ====
/-
  The added precondition conjunct, read back.

  The precondition is a conjunction computed as a running `and`; its last conjunct says that every entry of row 0 of
  the edge list — every edge's source node — is at least 0 and below the number of rows, 253952, read as signed
  words. Where the whole conjunction is 1, the last conjunct is 1, and an `all` that is 1 is 1 at every entry.
  Nothing is used of the other conjuncts (the finiteness of the float inputs).
-/
import proofs.«105258_j23639499997343_1_alg».proof.Defs
import proofs.«105258_j23639499997343_1_alg».proof.Proof.Gen.Pre_finite_inputs
import Idealize.ShloMosaic.Lib.ReduceAll
import Idealize.ShloMosaic.Lib.ValueIdx

set_option maxRecDepth 16384

noncomputable section

namespace Cert.Pre_finite_inputs.Index

open Idealize.ShloMosaic Idealize.ShloMosaic.ValueIdx
open Cert.Pre_finite_inputs Cert.Pre_finite_inputs.Gen

/-- Row 0 of the edge list as the precondition spells it. -/
def srcRow (a1 : IVec S2x4000000 32) : IVec S4000000 32 :=
  shapeCast S4000000 (extractStridedSlice S1x4000000 ![0, 0] a1 slices_S2x4000000_S1x4000000_0_0) shapeCasts_S1x4000000_S4000000

instance : Subsingleton S_.Idx := ⟨fun a b => funext fun d => d.elim0⟩

/-- Under the precondition every source node is a row number: 0 ≤ s and s < 253952, as signed words. -/
theorem src_in_rows {F : FTy → Type} [FloatOps F]
    (a0 : FVec F S253952x6 .f32) (a1 : IVec S2x4000000 32) (a2 : FVec F S4000000 .f32) (a3 : IVec S253952 32)
    (a4 : FVec F S6x16 .f32) (a5 : FVec F S16 .f32) (a6 : FVec F S16x32 .f32) (a7 : FVec F S32 .f32)
    (a8 : FVec F S32x64 .f32) (a9 : FVec F S64 .f32) (a10 : FVec F S64x50 .f32) (a11 : FVec F S50 .f32)
    (a12 : FVec F S50x30 .f32) (a13 : FVec F S30 .f32) (a14 : FVec F S30x20 .f32) (a15 : FVec F S20 .f32)
    (a16 : FVec F S20x2 .f32) (a17 : FVec F S2 .f32)
    (hpre : Cert.Pre_finite_inputs.fn (F := F) a0 a1 a2 a3 a4 a5 a6 a7 a8 a9 a10 a11 a12 a13 a14 a15 a16 a17 = fun _ => 1#1)
    (e : S4000000.Idx) :
    IntOp.cmpi .sge (srcRow a1 e) 0#32 = 1#1 ∧ IntOp.cmpi .slt (srcRow a1 e) 253952#32 = 1#1 := by
  obtain ⟨X, hX⟩ : ∃ X : IVec S_ 1, Cert.Pre_finite_inputs.fn (F := F) a0 a1 a2 a3 a4 a5 a6 a7 a8 a9 a10 a11 a12 a13 a14 a15 a16 a17
      = andi X (Host.reduce IntOp.andi
          (andi (cmpi .sge (srcRow a1) (broadcastInDim S4000000 ![] bcast_S_S4000000 (constantI S_ 32 0#32)))
            (cmpi .slt (srcRow a1) (broadcastInDim S4000000 ![] bcast_S_S4000000 (constantI S_ 32 253952#32))))
          (constantI S_ 1 1#1) reducesTo_S4000000_S_d0 h_S_) := ⟨_, rfl⟩
  have h1 := congrFun (hX.symm.trans hpre) ix0
  have h2 := (IntOp.andi_eq_one.1 h1).2
  have h3 := Host.reduce_andi_all _ _ reducesTo_S4000000_S_d0 h_S_ ix0 h2 e
  exact IntOp.andi_eq_one.1 h3

end Cert.Pre_finite_inputs.Index

end
-- ==== Proof.lean ====
/-
  A four-layer graph convolution network with a pooled three-layer head: the kernel program against its reference.

  At the ideal instance (floats are extended reals, every operation exact, a change of float format the identity)
  both programs compute, layer by layer, the matrix product of the node features with the layer's weights, then the
  neighbour sum (the product's rows taken at the edges' source nodes, scaled by the edge weights, added at the
  destination nodes), then the bias and the leaky activation; after the fourth layer the activation once more, the
  sum of the node rows per graph, and three dense layers. Both apply product and neighbour sum in the same order,
  so no algebraic law joins the two sides and the finiteness of the float inputs is never used. What differs is one
  guard: the kernel program's row lookup replaces a row by a fill word where the edge's source index is not a row
  number, the reference's does not. Under the precondition's last conjunct — every source index s has
  0 ≤ s < 253952 — the guard never fires, and the two results are one function of the arguments.

  The kernel program's run is six pipelined regions among host stretches; its result buffer is followed back through
  the fold of the sixteen segments to that function. The reference's run is its host operations in order. The
  idealization rewrote nothing, so the preservation claim is the trivial one.
-/
import proofs.«105258_j23639499997343_1_alg».proof.Defs
import proofs.«105258_j23639499997343_1_alg».proof.Proof.Gen.Kernel
import proofs.«105258_j23639499997343_1_alg».proof.Proof.Gen.Kernel.Frame
import proofs.«105258_j23639499997343_1_alg».proof.Proof.Gen.KernelIdeal
import proofs.«105258_j23639499997343_1_alg».proof.Proof.Gen.KernelIdeal.Frame
import proofs.«105258_j23639499997343_1_alg».proof.Proof.Gen.ReferenceIdeal
import proofs.«105258_j23639499997343_1_alg».proof.Proof.Gen.Pre_finite_inputs
import proofs.«105258_j23639499997343_1_alg».proof.Proof.KRun
import proofs.«105258_j23639499997343_1_alg».proof.Proof.KFold
import proofs.«105258_j23639499997343_1_alg».proof.Proof.RefRun
import proofs.«105258_j23639499997343_1_alg».proof.Proof.Bridge
import proofs.«105258_j23639499997343_1_alg».proof.Proof.PreIndex
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Under the precondition every edge's source index is a row number (its last conjunct, read back). -/
theorem src_in_rows (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Bridge.SrcInRows (m ((c.tc : Thread Cert.KernelIdeal.nD Cert.KernelIdeal.τ).loc Cert.KernelIdeal.main_arg1)) :=
  fun e => Cert.Pre_finite_inputs.Index.src_in_rows _ _ _ _ _ _ _ _ _ _ _ _ _ _ _ _ _ _ (hpre c) e

/-- Both runs end at the network function of the kernel program's arguments: the kernel program's by the fold, the
    reference's by its run, the agreement of the arguments, and the bridge. -/
theorem algebraic : Cert.algebraic_KernelIdeal_ReferenceIdeal := by
  intro m ρ m' ρ' hpre hagree
  refine ⟨fun c => Cert.KernelIdeal.HostValue.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · exact (θ_run Cert.KernelIdeal.defs _ _).mono
      (fun _ h c => ⟨(h c).1.trans (Cert.KernelIdeal.FoldValue.result_value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.RefValue.run m' ρ')
    obtain ⟨e0, e1, e2, e3, e4, e5, e6, e7, e8, e9, e10, e11, e12, e13, e14, e15, e16, e17⟩ := hagree c
    rw [e0, e1, e2, e3, e4, e5, e6, e7, e8, e9, e10, e11, e12, e13, e14, e15, e16, e17]
    exact Cert.Bridge.result_eq (src_in_rows m hpre c) _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
